-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v63)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S262144 : Shape := ⟨1, ![262144]⟩
abbrev S256x64 : Shape := ⟨2, ![256, 64]⟩
abbrev S64 : Shape := ⟨1, ![64]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8192x256 .f32) (main_arg1 : IVec S2x262144 32) (main_arg2 : FVec F S262144 .f32) (main_arg3 : FVec F S256x64 .f32) (main_arg4 : FVec F S64 .f32) (main_arg5 : FVec F S256x256 .f32) (main_arg6 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S8192x256 : Shape := ⟨2, ![8192, 256]⟩
abbrev S2x262144 : Shape := ⟨2, ![2, 262144]⟩
abbrev S262144 : Shape := ⟨1, ![262144]⟩
abbrev S256x64 : Shape := ⟨2, ![256, 64]⟩
abbrev S64 : Shape := ⟨1, ![64]⟩
abbrev S256x256 : Shape := ⟨2, ![256, 256]⟩
abbrev S256 : Shape := ⟨1, ![256]⟩
abbrev S4032 : Shape := ⟨1, ![4032]⟩
abbrev S1x262144 : Shape := ⟨2, ![1, 262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S1x256 : Shape := ⟨2, ![1, 256]⟩
abbrev S64x8192 : Shape := ⟨2, ![64, 8192]⟩
abbrev S64x256 : Shape := ⟨2, ![64, 256]⟩
abbrev S8x64x64 : Shape := ⟨3, ![8, 64, 64]⟩
abbrev S1024x64 : Shape := ⟨2, ![1024, 64]⟩
abbrev S1024x1024 : Shape := ⟨2, ![1024, 1024]⟩
abbrev S1x64x64 : Shape := ⟨3, ![1, 64, 64]⟩
abbrev S64x64 : Shape := ⟨2, ![64, 64]⟩
abbrev S64x1 : Shape := ⟨2, ![64, 1]⟩
abbrev S1x4032 : Shape := ⟨2, ![1, 4032]⟩
abbrev S2x4032 : Shape := ⟨2, ![2, 4032]⟩
abbrev S4032x1 : Shape := ⟨2, ![4032, 1]⟩
abbrev S4032x2 : Shape := ⟨2, ![4032, 2]⟩

abbrev nBuf : Space → Nat
  | .hbm => 90
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S256x256, .f32⟩
  | .hbm, ⟨6, _⟩ => ⟨S256, .f32⟩
  | .hbm, ⟨7, _⟩ => ⟨S4032, .i32⟩
  | .hbm, ⟨8, _⟩ => ⟨S4032, .i32⟩
  | .hbm, ⟨9, _⟩ => ⟨S4032, .i32⟩
  | .hbm, ⟨10, _⟩ => ⟨S4032, .i1⟩
  | .hbm, ⟨11, _⟩ => ⟨S4032, .i32⟩
  | .hbm, ⟨12, _⟩ => ⟨S4032, .i1⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S_, .f32⟩
  | .hbm, ⟨18, _⟩ => ⟨S8192x8192, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144x1, .i32⟩
  | .hbm, ⟨35, _⟩ => ⟨S262144x2, .i32⟩
  | .hbm, ⟨36, _⟩ => ⟨S8192x8192, .f32⟩
  | .hbm, ⟨37, _⟩ => ⟨S8192x64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x64, .f32⟩
  | .hbm, ⟨54, _⟩ => ⟨S8192x64, .f32⟩
  | .hbm, ⟨55, _⟩ => ⟨S8192x256, .f32⟩
  | .hbm, ⟨56, _⟩ => ⟨S1x256, .f32⟩
  | .hbm, ⟨57, _⟩ => ⟨S8192x256, .f32⟩
  | .hbm, ⟨58, _⟩ => ⟨S8192x256, .f32⟩
  | .hbm, ⟨59, _⟩ => ⟨S64x8192, .f32⟩
  | .hbm, ⟨60, _⟩ => ⟨S64x256, .f32⟩
  | .hbm, ⟨61, _⟩ => ⟨S8x64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S_, .f32⟩
  | .hbm, ⟨67, _⟩ => ⟨S64, .f32⟩
  | .hbm, ⟨68, _⟩ => ⟨S1x64, .f32⟩
  | .hbm, ⟨69, _⟩ => ⟨S64x1, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S64x64, .f32⟩
  | .hbm, ⟨74, _⟩ => ⟨S64x64, .f32⟩
  | .hbm, ⟨75, _⟩ => ⟨S1x4032, .i32⟩
  | .hbm, ⟨76, _⟩ => ⟨S1x4032, .i32⟩
  | .hbm, ⟨77, _⟩ => ⟨S2x4032, .i32⟩
  | .hbm, ⟨78, _⟩ => ⟨S_, .i32⟩
  | .hbm, ⟨79, _⟩ => ⟨S4032, .i32⟩
  | .hbm, ⟨80, _⟩ => ⟨S4032, .i32⟩
  | .hbm, ⟨81, _⟩ => ⟨S4032, .i32⟩
  | .hbm, ⟨82, _⟩ => ⟨S_, .i32⟩
  | .hbm, ⟨83, _⟩ => ⟨S4032, .i32⟩
  | .hbm, ⟨84, _⟩ => ⟨S4032, .i32⟩
  | .hbm, ⟨85, _⟩ => ⟨S4032, .i32⟩
  | .hbm, ⟨86, _⟩ => ⟨S4032x1, .i32⟩
  | .hbm, ⟨87, _⟩ => ⟨S4032x1, .i32⟩
  | .hbm, ⟨88, _⟩ => ⟨S4032x2, .i32⟩
  | .hbm, ⟨89, _⟩ => ⟨S4032, .f32⟩
  | .local _ .vmem, ⟨0, _⟩ => ⟨S1024x64, .f32⟩
  | .local _ .vmem, ⟨1, _⟩ => ⟨S1024x64, .f32⟩
  | .local _ .vmem, ⟨2, _⟩ => ⟨S1024x1024, .f32⟩
  | .local _ .vmem, ⟨3, _⟩ => ⟨S1024x1024, .f32⟩
  | .local _ .vmem, ⟨4, _⟩ => ⟨S1024x64, .f32⟩
  | .local _ .vmem, ⟨5, _⟩ => ⟨S1024x64, .f32⟩
  | .local _ .vmem, ⟨6, _⟩ => ⟨S1x64x64, .f32⟩
  | .local _ .vmem, ⟨7, _⟩ => ⟨S1x64x64, .f32⟩
  | .local _ .vmem, ⟨8, _⟩ => ⟨S64x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c_5 : Ref sig .tc := ⟨.hbm, 19, rfl⟩
abbrev main_v5 : Ref sig .tc := ⟨.hbm, 20, rfl⟩
abbrev main_v6 : Ref sig .tc := ⟨.hbm, 21, rfl⟩
abbrev main_c_6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_7 : Ref sig .tc := ⟨.hbm, 26, rfl⟩
abbrev main_v10 : Ref sig .tc := ⟨.hbm, 27, rfl⟩
abbrev main_v11 : Ref sig .tc := ⟨.hbm, 28, rfl⟩
abbrev main_c_8 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_cst_10 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_11 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x64_S64x8192_1_0 : S8192x64.Transposes [1, 0] S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S8x64x64_S64x64_d0 : S8x64x64.ReducesTo [0] S64x64
  transposes_S64x64_S64x64_1_0 : S64x64.Transposes [1, 0] S64x64
  reducesTo_S8192x64_S64_d0 : S8192x64.ReducesTo [0] S64
  transposes_S1x64_S64x1_1_0 : S1x64.Transposes [1, 0] S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S4032_S1x4032_1 : S4032.BroadcastsInDim S1x4032 (![1] : Fin 1 → Fin S1x4032.rank)
  concatenates_S1x4032_S1x4032_S2x4032_d0 : Shape.Concatenates [S1x4032, S1x4032] S2x4032 0
  bcast_S_S4032 : S_.BroadcastsInDim S4032 (![] : Fin 0 → Fin S4032.rank)
  bcast_S4032_S4032x1_0 : S4032.BroadcastsInDim S4032x1 (![0] : Fin 1 → Fin S4032x1.rank)
  concatenates_S4032x1_S4032x1_S4032x2_d1 : Shape.Concatenates [S4032x1, S4032x1] S4032x2 1
  scatter_S8192x8192_S262144x2_S262144_n_01_01_1_wf : ScatterDims.WF S8192x8192 S262144x2 S262144 [] [0, 1] [0, 1] 1
  dot_S8192x256_S256x64_S8192x64_1_0_0_1_n_n_wf : DotDims.WF S8192x256 S256x64 S8192x64 [1] [0] [0] [1] [] []
  dot_S8192x256_S256x256_S8192x256_1_0_0_1_n_n_wf : DotDims.WF S8192x256 S256x256 S8192x256 [1] [0] [0] [1] [] []
  dot_S64x8192_S8192x256_S64x256_1_0_0_1_n_n_wf : DotDims.WF S64x8192 S8192x256 S64x256 [1] [0] [0] [1] [] []
  dot_S1024x1024_S1024x64_S1024x64_1_0_0_1_n_n_wf : DotDims.WF S1024x1024 S1024x64 S1024x64 [1] [0] [0] [1] [] []
  dot_S1024x64_S1024x64_S64x64_0_0_1_1_n_n_wf : DotDims.WF S1024x64 S1024x64 S64x64 [0] [0] [1] [1] [] []
  gather_S64x64_S4032x2_S4032_n_01_n_n_01_1_11_wf : GatherDims.WF S64x64 S4032x2 S4032 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S8x64x64.size a
  hwx0_3 : ∀ i : grid0.Coords, EltTy.bits .f32 = 32 ∨ (Rect.block (s := S8x64x64) S1x64x64.size (cc0_transform_3 i) (hinb0_3 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def gather_S64x64_S4032x2_S4032_n_01_n_n_01_1_11 : GatherDims S64x64 S4032x2 S4032 where
  offsetDims := []
  collapsedSliceDims := [0, 1]
  operandBatchingDims := []
  startIndicesBatchingDims := []
  startIndexMap := [0, 1]
  indexVectorDim := 1
  sliceSizes := ![1, 1]
  wf := gather_S64x64_S4032x2_S4032_n_01_n_n_01_1_11_wf

abbrev win0_0 : Pipeline.Window sig grid0 :=
  Pipeline.Window.ofSpec (Memref.whole main_v33) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S2x262144 : Shape := ⟨2, ![2, 262144]⟩
abbrev S262144 : Shape := ⟨1, ![262144]⟩
abbrev S256x64 : Shape := ⟨2, ![256, 64]⟩
abbrev S64 : Shape := ⟨1, ![64]⟩
abbrev S256x256 : Shape := ⟨2, ![256, 256]⟩
abbrev S256 : Shape := ⟨1, ![256]⟩
abbrev S4032 : Shape := ⟨1, ![4032]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x262144 : Shape := ⟨2, ![1, 262144]⟩
abbrev S8192x8192 : Shape := ⟨2, ![8192, 8192]⟩
abbrev S262144x1 : Shape := ⟨2, ![262144, 1]⟩
abbrev S262144x2 : Shape := ⟨2, ![262144, 2]⟩
abbrev S64x8192 : Shape := ⟨2, ![64, 8192]⟩
abbrev S64x64 : Shape := ⟨2, ![64, 64]⟩
abbrev S64x1 : Shape := ⟨2, ![64, 1]⟩
abbrev S64x256 : Shape := ⟨2, ![64, 256]⟩
abbrev S1x4032 : Shape := ⟨2, ![1, 4032]⟩
abbrev S2x4032 : Shape := ⟨2, ![2, 4032]⟩
abbrev S4032x1 : Shape := ⟨2, ![4032, 1]⟩
abbrev S4032x2 : Shape := ⟨2, ![4032, 2]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S256x256, .f32⟩
  | .hbm, ⟨6, _⟩ => ⟨S256, .f32⟩
  | .hbm, ⟨7, _⟩ => ⟨S4032, .i32⟩
  | .hbm, ⟨8, _⟩ => ⟨S4032, .i32⟩
  | .hbm, ⟨9, _⟩ => ⟨S4032, .i32⟩
  | .hbm, ⟨10, _⟩ => ⟨S4032, .i1⟩
  | .hbm, ⟨11, _⟩ => ⟨S4032, .i32⟩
  | .hbm, ⟨12, _⟩ => ⟨S4032, .i1⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x64, .f32⟩
  | .hbm, ⟨30, _⟩ => ⟨S8192x64, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S1x262144, .i32⟩
  | .hbm, ⟨36, _⟩ => ⟨S262144, .i32⟩
  | .hbm, ⟨37, _⟩ => ⟨S1x262144, .i32⟩
  | .hbm, ⟨38, _⟩ => ⟨S262144, .i32⟩
  | .hbm, ⟨39, _⟩ => ⟨S_, .f32⟩
  | .hbm, ⟨40, _⟩ => ⟨S8192x8192, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x1, .i32⟩
  | .hbm, ⟨57, _⟩ => ⟨S262144x2, .i32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S64x8192, .f32⟩
  | .hbm, ⟨62, _⟩ => ⟨S64x8192, .f32⟩
  | .hbm, ⟨63, _⟩ => ⟨S64x64, .f32⟩
  | .hbm, ⟨64, _⟩ => ⟨S_, .f32⟩
  | .hbm, ⟨65, _⟩ => ⟨S64, .f32⟩
  | .hbm, ⟨66, _⟩ => ⟨S1x64, .f32⟩
  | .hbm, ⟨67, _⟩ => ⟨S64x1, .f32⟩
  | .hbm, ⟨68, _⟩ => ⟨S_, .f32⟩
  | .hbm, ⟨69, _⟩ => ⟨S64x1, .f32⟩
  | .hbm, ⟨70, _⟩ => ⟨S64x1, .f32⟩
  | .hbm, ⟨71, _⟩ => ⟨S64x64, .f32⟩
  | .hbm, ⟨72, _⟩ => ⟨S64x64, .f32⟩
  | .hbm, ⟨73, _⟩ => ⟨S64x8192, .f32⟩
  | .hbm, ⟨74, _⟩ => ⟨S64x256, .f32⟩
  | .hbm, ⟨75, _⟩ => ⟨S1x4032, .i32⟩
  | .hbm, ⟨76, _⟩ => ⟨S1x4032, .i32⟩
  | .hbm, ⟨77, _⟩ => ⟨S2x4032, .i32⟩
  | .hbm, ⟨78, _⟩ => ⟨S_, .i32⟩
  | .hbm, ⟨79, _⟩ => ⟨S4032, .i32⟩
  | .hbm, ⟨80, _⟩ => ⟨S4032, .i32⟩
  | .hbm, ⟨81, _⟩ => ⟨S4032, .i32⟩
  | .hbm, ⟨82, _⟩ => ⟨S_, .i32⟩
  | .hbm, ⟨83, _⟩ => ⟨S4032, .i32⟩
  | .hbm, ⟨84, _⟩ => ⟨S4032, .i32⟩
  | .hbm, ⟨85, _⟩ => ⟨S4032, .i32⟩
  | .hbm, ⟨86, _⟩ => ⟨S4032x1, .i32⟩
  | .hbm, ⟨87, _⟩ => ⟨S4032x1, .i32⟩
  | .hbm, ⟨88, _⟩ => ⟨S4032x2, .i32⟩
  | .hbm, ⟨89, _⟩ => ⟨S4032, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_6 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_c_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_10 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  transposes_S8192x8192_S8192x8192_1_0 : S8192x8192.Transposes [1, 0] S8192x8192
  transposes_S8192x64_S64x8192_1_0 : S8192x64.Transposes [1, 0] S64x8192
  reducesTo_S8192x64_S64_d0 : S8192x64.ReducesTo [0] S64
  transposes_S1x64_S64x1_1_0 : S1x64.Transposes [1, 0] S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S4032_S1x4032_1 : S4032.BroadcastsInDim S1x4032 (![1] : Fin 1 → Fin S1x4032.rank)
  concatenates_S1x4032_S1x4032_S2x4032_d0 : Shape.Concatenates [S1x4032, S1x4032] S2x4032 0
  bcast_S_S4032 : S_.BroadcastsInDim S4032 (![] : Fin 0 → Fin S4032.rank)
  bcast_S4032_S4032x1_0 : S4032.BroadcastsInDim S4032x1 (![0] : Fin 1 → Fin S4032x1.rank)
  concatenates_S4032x1_S4032x1_S4032x2_d1 : Shape.Concatenates [S4032x1, S4032x1] S4032x2 1
  dot_S8192x256_S256x64_S8192x64_1_0_0_1_n_n_wf : DotDims.WF S8192x256 S256x64 S8192x64 [1] [0] [0] [1] [] []
  dot_S8192x256_S256x256_S8192x256_1_0_0_1_n_n_wf : DotDims.WF S8192x256 S256x256 S8192x256 [1] [0] [0] [1] [] []
  scatter_S8192x8192_S262144x2_S262144_n_01_01_1_wf : ScatterDims.WF S8192x8192 S262144x2 S262144 [] [0, 1] [0, 1] 1
  dot_S64x8192_S8192x8192_S64x8192_1_0_0_1_n_n_wf : DotDims.WF S64x8192 S8192x8192 S64x8192 [1] [0] [0] [1] [] []
  dot_S64x8192_S8192x64_S64x64_1_0_0_1_n_n_wf : DotDims.WF S64x8192 S8192x64 S64x64 [1] [0] [0] [1] [] []
  dot_S64x8192_S8192x256_S64x256_1_0_0_1_n_n_wf : DotDims.WF S64x8192 S8192x256 S64x256 [1] [0] [0] [1] [] []
  gather_S64x64_S4032x2_S4032_n_01_n_n_01_1_11_wf : GatherDims.WF S64x64 S4032x2 S4032 [] [0, 1] [] [0, 1] [] 1 ![1, 1]

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def gather_S64x64_S4032x2_S4032_n_01_n_n_01_1_11 : GatherDims S64x64 S4032x2 S4032 where
  offsetDims := []
  collapsedSliceDims := [0, 1]
  operandBatchingDims := []
  startIndicesBatchingDims := []
  startIndexMap := [0, 1]
  indexVectorDim := 1
  sliceSizes := ![1, 1]
  wf := gather_S64x64_S4032x2_S4032_n_01_n_n_01_1_11_wf

class Facts : Prop extends Facts₀ where

variable [Facts]
-- ==== Proof.KBase.lean ====
/-
  What the kernel region finds: core c's buffer contents after the host operations that precede the
  region (the assignment matrix, the scattered adjacency, …), and a window's block of its array at a grid point.
-/
import proofs.«157597_j56573309223697_1_alg».proof.Proof.Gen.KernelIdeal.Launch
import proofs.«157597_j56573309223697_1_alg».proof.Proof.Gen.KernelIdeal.Skeleton
import proofs.«157597_j56573309223697_1_alg».proof.Proof.Gen.KernelIdeal.Points
import Idealize.ShloMosaic.Lib.Pipeline.FrameBody
import Idealize.ShloMosaic.Lib.Pipeline.FrameSuffix

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core c's TensorCore buffer contents when the region is entered, as a valuation: the launch memory after the
    host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KRuns.lean ====
/-
  What the three control cases of the kernel body share: an input window's staging buffer holds its block
  at every point; the two branch conditions in closed form over the 8×8 grid (the column index is 0; the
  column index is 7); where the output window is idle; the staging and scratch memrefs; the region's
  invariant with the scratch accumulator as an owned memref.
-/
import proofs.«157597_j56573309223697_1_alg».proof.Proof.KBase
import Idealize.ShloMosaic.Lib.Ring
import Idealize.ShloMosaic.Lib.Tactic

-- membership in a rectangle of large extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The input windows' blocks -/

/-- Input window 0 (the assignment rows of tile i, fetched only when the row tile changes) holds its block at
    every point, fetched there or not: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the adjacency tile (i, j)) holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the assignment rows of tile j) holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's test: the column coordinate j equals 0 (as the 32-bit comparison chain computes it). -/
abbrev cond0_0 (i : grid0.Coords) : Prop := (Scalar.cmpi .ne (Scalar.extui (Scalar.cmpi .eq (BitVec.ofNat 32 (i 1).val) 0#32)) 0#32) = 1#1
/-- It holds exactly at the points t with t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the column coordinate j equals 7. -/
abbrev cond0_1 (i : grid0.Coords) : Prop := k0_cond2 i = 1#1
/-- It holds exactly at the points t with t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where j = 0 (and so j ≠ 7) the output window is idle and not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- Where 0 < j < 7 the output window is idle and not written back. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where j = 7 the output window is live: the body stores into it. -/
theorem liveAt0_3_C : ∀ t : Fin cfg0.N, ¬cond0_0 (grid0.coords t) → cond0_1 (grid0.coords t) → cfg0.idle 3 (grid0.coords t) = false := by decide +kernel

/-! ## The memrefs the body runs on -/

/-- One staging buffer of the output window, through which its contents are stated (the choice does not matter). -/
abbrev VO0_3 : View sig .tc .vmem S1x64x64 .f32 := (Memref.whole cc0_stg3_0 : Memref sig .tc .vmem S1x64x64 .f32).view
/-- Each window's current staging memref at point t, and its wholeness. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
/-- The 64×64 scratch accumulator: a whole scoped buffer of the kernel's own, carried between points. -/
abbrev scM0_0 : Memref sig .tc .vmem S64x64 .f32 := Memref.whole cc0_scratch0
/-- The same as a view: what the accumulator holds is stated through it. -/
abbrev VS0_0 : View sig .tc .vmem S64x64 .f32 := scM0_0.view

/-- The region's invariant with the scratch accumulator as a memref owned at some contents, beside the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KRunA.lean ====
/-
  The whole body in the case j = 0 (the accumulator is reset to zeros, then the tile product is added; nothing
  is stored into the output block): its Hoare triple on whole staging memrefs, with the pieces the accumulator
  ends with as its witness.
-/
import proofs.«157597_j56573309223697_1_alg».proof.Proof.KRuns

-- membership in a rectangle of large extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case j = 0. On whole memrefs — the three inputs at contents x0, x1, x2, the output block at contents xi3 handed
    back untouched, the accumulator at anything — the body runs to a continuation that holds the inputs and the
    output block as they were and the accumulator with the pieces LS0 written. -/
noncomputable def kernelRun0_A (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) :
    Σ' (L3 : List (View.Piece (Elt F) S1x64x64 .f32)), { LS0 : List (View.Piece (Elt F) S64x64 .f32) //
      ∀ (xi3 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨[], ?_, fun xi3 E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KRunB.lean ====
/-
  The whole body in the case 0 < j < 7 (the tile product is added to the accumulator; nothing is stored into the
  output block): its Hoare triple on whole staging memrefs, with the pieces the accumulator ends with as
  its witness.
-/
import proofs.«157597_j56573309223697_1_alg».proof.Proof.KRunA

-- membership in a rectangle of large extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case 0 < j < 7. On whole memrefs — the three inputs at contents x0, x1, x2, the output block at contents xi3
    handed back untouched, the accumulator at what the point before left (xs0) — the body runs to a continuation
    that holds the inputs and the output block as they were and the accumulator with the pieces LS0 written. -/
noncomputable def kernelRun0_B (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) :
    Σ' (L3 : List (View.Piece (Elt F) S1x64x64 .f32)), { LS0 : List (View.Piece (Elt F) S64x64 .f32) //
      ∀ (xi3 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨[], ?_, fun xi3 E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KRunC.lean ====
/-
  The whole body in the case j = 7 (the tile product is added to the accumulator, and the accumulator is copied,
  reshaped, into the output block): its Hoare triple on whole staging memrefs, with the pieces the accumulator and the
  output block end with as its witness.
-/
import proofs.«157597_j56573309223697_1_alg».proof.Proof.KRunB

-- membership in a rectangle of large extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case j = 7. On whole memrefs — the three inputs at contents x0, x1, x2, the output block at anything, the
    accumulator at what the point before left (xs0) — the body runs to a continuation that holds the inputs as
    they were, the output block with the pieces L3 written and the accumulator with the pieces LS0 written. -/
noncomputable def kernelRun0_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    Σ' (L3 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨?_, ?_, fun E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KBody.lean ====
/-
  The kernel body's frame data. Per control case (j = 0; 0 < j < 7; j = 7) what the body leaves in the scratch
  accumulator and in the output block, as the pieces its stores wrote, read back; the accumulation point by
  point; the pipeline's proof data; the body obligation at every grid point; and the value equations: after the
  body at a point the accumulator holds the tile product added to what the point before left (to zeros where
  j = 0), and where j = 7 the output block holds the accumulator reshaped.
-/
import proofs.«157597_j56573309223697_1_alg».proof.Proof.KRunC
import Idealize.ShloMosaic.Lib.Pipeline.Value

-- membership in a rectangle of large extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
/-- The case j = 0 stores nothing into the output block: a placeholder nothing consults (the window is idle and not written back there). -/
def out0_A_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) : Vec F S1x64x64 .f32 :=
  VO0_3.read (Elt F) (VO0_3.writes (Elt F) VO0_3.junk (kernelRun0_A c i arg2 harg2 arg3 harg3 arg4 harg4 arg5 harg5 arg6 harg6 hc0 hc1 x0 x1 x2).1)

/-- In the case j = 0 the stores into the accumulator (the zeros, then the sum) cover it. -/
theorem scover0_A_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) (y : S64x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x64.size (by sl_kernel_rfl) y

/-- What the case j = 0 leaves in the accumulator: its pieces read back. -/
def sout0_A_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) : Vec F S64x64 .f32 :=
  VS0_0.read (Elt F) (VS0_0.writes (Elt F) VS0_0.junk (kernelRun0_A c i arg2 harg2 arg3 harg3 arg4 harg4 arg5 harg5 arg6 harg6 hc0 hc1 x0 x1 x2).2.1)

/-- The case 0 < j < 7 stores nothing into the output block: a placeholder nothing consults. -/
def out0_B_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) : Vec F S1x64x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- In the case 0 < j < 7 the store into the accumulator covers it. -/
theorem scover0_B_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) (y : S64x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x64.size (by sl_kernel_rfl) y

/-- What the case 0 < j < 7 leaves in the accumulator: its pieces read back. -/
def sout0_B_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) : Vec F S64x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- In the case j = 7 the one store into the output block covers it. -/
theorem cover0_C_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) (y : S1x64x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x64x64.size (by sl_kernel_rfl) y

/-- What the case j = 7 leaves in the output block's staging buffer: its pieces read back. -/
def out0_C_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) : Vec F S1x64x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- In the case j = 7 the store into the accumulator covers it. -/
theorem scover0_C_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) (y : S64x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x64.size (by sl_kernel_rfl) y

/-- What the case j = 7 leaves in the accumulator: its pieces read back. -/
def sout0_C_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) : Vec F S64x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the accumulator hold after each point -/

/-- THE ACCUMULATION. What the output window's staging buffer and the scratch accumulator hold after the body at
    position n: the case the closed forms select there (n ≡ 0, n ≡ 7, or neither, mod 8), run at the point's
    memrefs and input blocks, the accumulator it reads at what position n - 1 left. Both conditions at once is
    no case. -/
def outsAt0 (c : Dev nD) : (n : ℕ) → n < cfg0.N → Vec F S1x64x64 .f32 × Vec F S64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point with j = 0: that case's contents. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
         sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point with 0 < j < 7: that case's contents, over what the point before left in the accumulator. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 7: that case's contents, over what the point before left in the accumulator. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the scratch accumulator at anything;
    afterwards the accumulator at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core c: the arrays as the region finds them; after the body at point t each input's buffer
    at its block and the output's at the accumulation's first component; the invariant above; nothing owed; the
    array the first and third windows share held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t: the invariant, what the core owes, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the closed forms say which of the three cases
    the point is in; the invariant hands the body the accumulator at what the point before left (at anything at
    the first point) and takes it back at this point's contents, the accumulator's stores covering it; the output
    block is handed back untouched where j ≠ 7 and covered by its one store where j = 7; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- j = 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · -- j = 7
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- 0 < j < 7
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The value equations -/

/-- The offsets of the body's loads and stores are all zero: each reads or writes a whole buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case j = 0: the accumulator ends at the tile product added to zeros — the second store's payload, whose
    accumulator operand is the read-back of the first store (the zeros). -/
theorem sout_A (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x64) hz2, View.readCov_unit_zero (S := S64x64) _ hz2]
  simp only [View.readAt_eq_ld, harg2.read_unread, harg3.read_unread, harg4.read_unread, View.ld_unit_zero (S := S1024x1024) hz2, View.ld_unit_zero (S := S1024x64) hz2, View.ld_unit_zero (S := S64x64) hz2]

/-- Case 0 < j < 7: the accumulator ends at the tile product added to what it held. -/
theorem sout_B (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S64x64) hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- Case j = 7: the accumulator ends at the tile product added to what it held. -/
theorem sout_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S64x64) hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- Case j = 7: the output block ends at the accumulator's final contents, reshaped to 1×64×64. -/
theorem out_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    out0_C_3 c i arg2 harg2 arg3 harg3 arg4 harg4 arg5 harg5 arg6 harg6 hc0 hc1 x0 x1 x2 xs0 = k0_pay3 (k0_pay2 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x64x64) hz3, View.readCov_unit_zero (S := S64x64) _ hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- The accumulator after a point with j = 0: the product of the point's three blocks added to zeros. -/
theorem scratch_first (c : Dev nD) (t : Fin cfg0.N) (h0 : t.val % 8 = 0) :
    (outsAt0 m c t.val t.isLt).2 = k0_pay2 (iblk m c 1 t) (iblk m c 2 t) (iblk m c 0 t) (k0_pay1 (F := F)) :=
  have h1 : ¬t.val % 8 = 7 := by omega
  (congrArg Prod.snd (outsAt0_A m c t h0 h1)).trans
    (sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- The accumulator after a point with 0 < j < 7: the product of the point's three blocks added to what the
    point before left. -/
theorem scratch_mid (c : Dev nD) (t : Fin cfg0.N) (h0 : ¬t.val % 8 = 0) (h1 : ¬t.val % 8 = 7) :
    (outsAt0 m c t.val t.isLt).2 = k0_pay2 (iblk m c 1 t) (iblk m c 2 t) (iblk m c 0 t)
      (outsAt0 m c (t.val - 1) (Nat.lt_of_le_of_lt (Nat.sub_le _ _) t.isLt)).2 :=
  (congrArg Prod.snd (outsAt0_B m c t h0 h1)).trans
    (sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

/-- The accumulator after a point with j = 7: the same sum. -/
theorem scratch_last (c : Dev nD) (t : Fin cfg0.N) (h1 : t.val % 8 = 7) :
    (outsAt0 m c t.val t.isLt).2 = k0_pay2 (iblk m c 1 t) (iblk m c 2 t) (iblk m c 0 t)
      (outsAt0 m c (t.val - 1) (Nat.lt_of_le_of_lt (Nat.sub_le _ _) t.isLt)).2 :=
  have h0 : ¬t.val % 8 = 0 := by omega
  (congrArg Prod.snd (outsAt0_C m c t h0 h1)).trans
    (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-- The accumulator after any point with j ≠ 0: the product of the point's blocks added to what the point before left. -/
theorem scratch_step (c : Dev nD) (t : Fin cfg0.N) (h0 : ¬t.val % 8 = 0) :
    (outsAt0 m c t.val t.isLt).2 = k0_pay2 (iblk m c 1 t) (iblk m c 2 t) (iblk m c 0 t)
      (outsAt0 m c (t.val - 1) (Nat.lt_of_le_of_lt (Nat.sub_le _ _) t.isLt)).2 := by
  by_cases h1 : t.val % 8 = 7
  · exact scratch_last m c t h1
  · exact scratch_mid m c t h0 h1

/-- The output block after a point with j = 7: the accumulator's contents after that point, reshaped. -/
theorem out_last (c : Dev nD) (t : Fin cfg0.N) (h1 : t.val % 8 = 7) :
    (outsAt0 m c t.val t.isLt).1 = k0_pay3 (outsAt0 m c t.val t.isLt).2 :=
  have h0 : ¬t.val % 8 = 0 := by omega
  ((congrArg Prod.fst (outsAt0_C m c t h0 h1)).trans
    (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)).trans
    (congrArg k0_pay3 (scratch_last m c t h1).symm)

end Cert.KernelIdeal.Fr

end
-- ==== Proof.KExit.lean ====
/-
  The contents of core c's buffers at the kernel region's exit and after the host operations that follow it:
  the region's result buffer holds what the write-backs left (X), every other buffer what the region found, and the
  host operations after the region compute from those without writing any of the buffers the region's windows read
  or write.
-/
import proofs.«157597_j56573309223697_1_alg».proof.Proof.KBase

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

theorem hostOps1_fresh : (hostOps1 : List (HloOp τ sig (Elt F))).Forall fun op => op.fresh = ∅ := by
  simp only [List.Forall]; repeat' constructor

theorem hostOps0_fresh : (hostOps0 : List (HloOp τ sig (Elt F))).Forall fun op => op.fresh = ∅ := by
  simp only [List.Forall]; repeat' constructor

/-- The host operations after the region write none of the three buffers behind the windows. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Core c's buffer contents at the region's exit: the region's result buffer at X, every other buffer as the
    region found it. -/
def VX (c : Dev nD) (X : Buf (Elt F) ((c.tc : Thread nD τ).loc main_v40)) : Valuation τ sig (Elt F) :=
  Function.update (V0 m c) (Proc.devRef .tc main_v40) X

/-- Core c's buffer contents after the host operations that follow the region. -/
def WX (c : Dev nD) (X : Buf (Elt F) ((c.tc : Thread nD τ).loc main_v40)) (b : Ref sig .tc) : Buf (Elt F) ((c.tc : Thread nD τ).loc b) :=
  StableHlo.after hostOps1 (VX m c X) (Proc.devRef .tc b)

theorem VX_of_ne (c : Dev nD) (X : Buf (Elt F) ((c.tc : Thread nD τ).loc main_v40)) (b : Ref sig .tc) (hb : b ≠ main_v40) :
    VX m c X (Proc.devRef .tc b) = V m c b := by
  unfold VX
  exact Function.update_of_ne (fun e => hb (Proc.devRef_injective _ e)) _ _

theorem VX_out (c : Dev nD) (X : Buf (Elt F) ((c.tc : Thread nD τ).loc main_v40)) : VX m c X (Proc.devRef .tc main_v40) = X := by
  unfold VX
  exact Function.update_self _ _ _

/-- The host operations after the region leave the windows' buffers as they were at the exit. -/
theorem WX_arr (c : Dev nD) (X : Buf (Elt F) ((c.tc : Thread nD τ).loc main_v40)) (w : Fin cfg0.W) :
    WX m c X (Pipeline.arrRef spec0 w) = VX m c X (Proc.devRef .tc (Pipeline.arrRef spec0 w)) := by
  unfold WX
  exact StableHlo.after_of_forall_not_mem _ _ fun op hop => tail_keeps op hop w

end Cert.KernelIdeal.Fr

end
-- ==== Proof.KLaunch.lean ====
/-
  The launch of the kernel region when two of its input windows read one array (the assignment matrix, by row
  tile and by column tile): the array's full share is dealt in halves to the two windows at entry and the halves
  are joined again at the region's exit, before the host operations that follow the region read the array.
-/
import proofs.«157597_j56573309223697_1_alg».proof.Proof.KExit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the four windows' arrays are three: the assignment matrix (windows 0 and 2), the adjacency
    (window 1) and the region's result (window 3). -/
theorem img_arr : (Finset.univ.image (Pipeline.arrRef spec0) : Finset (Ref sig .tc)) = ([main_v33, main_v18, main_v40] : List (Ref sig .tc)).toFinset := by
  decide

variable (dats : (p : Fin 1) → (c : Dev nD) → Dat τ (Elt F) Unit ℕ (UR sig nD τ) ℕ (cfgs p) c)

set_option maxHeartbeats 2000000 in
/-- The three buffers, each whole at the full share at contents Wv, are the four windows' arrays at the shares the
    proof data names — the assignment matrix's full share as its two halves. -/
theorem arrays_iff (c : Dev nD) (hq0 : (dats 0 c).q 0 = fullShare.left) (hq1 : (dats 0 c).q 1 = fullShare) (hq2 : (dats 0 c).q 2 = fullShare.right)
    (Wv : (b : Ref sig .tc) → Buf (Elt F) ((c.tc : Thread nD τ).loc b)) :
    (Pipeline.arrBufs spec0 c Wv : sProp 𝕄) ⊣⊢ (dats 0 c).arrays (fun w => Wv (Pipeline.arrRef spec0 w)) := by
  unfold Pipeline.arrBufs Dat.arrays
  rw [bigSep_W0, bigSep_eq_bigSepL_of_eq _ img_arr (by decide)]
  simp only [bigSepL_cons_cons, bigSepL_singleton]
  have s0 : (dats 0 c).share 0 = fullShare.left := (show (dats 0 c).share 0 = (dats 0 c).q 0 from rfl).trans hq0
  have s1 : (dats 0 c).share 1 = fullShare := (show (dats 0 c).share 1 = (dats 0 c).q 1 from rfl).trans hq1
  have s2 : (dats 0 c).share 2 = fullShare.right := (show (dats 0 c).share 2 = (dats 0 c).q 2 from rfl).trans hq2
  have s3 : (dats 0 c).share 3 = fullShare := rfl
  rw [s0, s1, s2, s3, (arr_whole0 0).set_eq_univ, (arr_whole0 1).set_eq_univ, (arr_whole0 3).set_eq_univ]
  have hs : (((c.tc : Thread nD τ).loc main_v33) ↦{fullShare} Wv main_v33 : sProp 𝕄)
      ⊣⊢ iprop((((c.tc : Thread nD τ).loc main_v33) ↦{fullShare.left} Wv main_v33) ∗ (((c.tc : Thread nD τ).loc main_v33) ↦{fullShare.right} Wv main_v33)) :=
    pointsTo_share (PosShare.mem_left_op_right fullShare)
  show (iprop((((c.tc : Thread nD τ).loc main_v33) ↦{fullShare} Wv main_v33) ∗ (((c.tc : Thread nD τ).loc main_v18) ↦{fullShare} Wv main_v18)
      ∗ (((c.tc : Thread nD τ).loc main_v40) ↦{fullShare} Wv main_v40)) : sProp 𝕄)
    ⊣⊢ (iprop((((c.tc : Thread nD τ).loc main_v33) ↦{fullShare.left} Wv main_v33) ∗ (((c.tc : Thread nD τ).loc main_v18) ↦{fullShare} Wv main_v18)
      ∗ (((c.tc : Thread nD τ).loc main_v33) ↦{fullShare.right} Wv main_v33) ∗ (((c.tc : Thread nD τ).loc main_v40) ↦{fullShare} Wv main_v40)) : sProp 𝕄)
  refine ⟨?_, ?_⟩
  · refine (BIClass.sep_mono hs.1 .rfl).trans ?_
    iintro ⟨⟨HL, HR⟩, H18, H40⟩
    isplitl [HL]; · iexact HL
    isplitl [H18]; · iexact H18
    isplitl [HR]; · iexact HR
    iexact H40
  · refine BIBase.Entails.trans ?_ (BIClass.sep_mono hs.2 .rfl)
    iintro ⟨HL, H18, HR, H40⟩
    isplitl [HL HR]
    · isplitl [HL]; · iexact HL
      iexact HR
    isplitl [H18]; · iexact H18
    iexact H40

/-- Every window's array at the region's exit is the exit valuation at the window's buffer: an input's as the
    region found it, the result's as the write-backs left it. -/
theorem arrAt_exit (c : Dev nD) (hA : ∀ w, (dats 0 c).A w = V m c (Pipeline.arrRef spec0 w)) (w : Fin cfg0.W) :
    (dats 0 c).arrAt w cfg0.N = VX m c ((dats 0 c).arrAt 3 cfg0.N) (Proc.devRef .tc (Pipeline.arrRef spec0 w)) := by
  fin_cases w
  · exact (((dats 0 c).arrAt_in 0 rfl _).trans (hA 0)).trans (VX_of_ne m c _ main_v33 (by decide)).symm
  · exact (((dats 0 c).arrAt_in 1 rfl _).trans (hA 1)).trans (VX_of_ne m c _ main_v18 (by decide)).symm
  · exact (((dats 0 c).arrAt_in 2 rfl _).trans (hA 2)).trans (VX_of_ne m c _ main_v33 (by decide)).symm
  · exact (VX_out m c _).symm

/-- The unscoped buffers, at any contents Wv, are the windows' arrays at the proof data's shares and the rest. -/
theorem ubufs_iff (c : Dev nD) (hq0 : (dats 0 c).q 0 = fullShare.left) (hq1 : (dats 0 c).q 1 = fullShare) (hq2 : (dats 0 c).q 2 = fullShare.right)
    (Wv : (b : Ref sig .tc) → Buf (Elt F) ((c.tc : Thread nD τ).loc b)) :
    (unscopedBufs c Wv : sProp 𝕄) ⊣⊢ iprop((dats 0 c).arrays (fun w => Wv (Pipeline.arrRef spec0 w)) ∗ Pipeline.unscopedRest spec0 c Wv) := by
  rw [Pipeline.unscopedBufs_split₀ cfgs 0 winFacts₀0.arr_unscoped c Wv]
  exact ⟨BIClass.sep_mono (arrays_iff dats c hq0 hq1 hq2 Wv).1 .rfl, BIClass.sep_mono (arrays_iff dats c hq0 hq1 hq2 Wv).2 .rfl⟩

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The host operations after the region, run from the region's exit: the two halves of the assignment matrix are
    joined, the operations run over all the unscoped buffers, and the matrix is dealt in halves again. -/
theorem tail_shared (c : Dev nD) (hq0 : (dats 0 c).q 0 = fullShare.left) (hq1 : (dats 0 c).q 1 = fullShare) (hq2 : (dats 0 c).q 2 = fullShare.right)
    (hA : ∀ w, (dats 0 c).A w = V m c (Pipeline.arrRef spec0 w)) (Q' : PUnit → sProp 𝕄) :
    iprop((iprop((dats 0 c).arrays ((dats 0 c).arrAt · cfg0.N)
            ∗ Pipeline.unscopedRestP Pipeline.Prefetch.none spec0 c (WX m c ((dats 0 c).arrAt 3 cfg0.N))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain ([hostOps1].map StableHlo.seq)) Q' := by
  classical
  have hX : ((dats 0 c).arrAt · cfg0.N) = fun w => (fun b => VX m c ((dats 0 c).arrAt 3 cfg0.N) (Proc.devRef .tc b)) (Pipeline.arrRef spec0 w) :=
    funext (arrAt_exit m dats c hA)
  have hW : ((dats 0 c).arrAt · cfg0.N) = fun w => (WX m c ((dats 0 c).arrAt 3 cfg0.N)) (Pipeline.arrRef spec0 w) :=
    funext fun w => (arrAt_exit m dats c hA w).trans (WX_arr m c _ w).symm
  have hrest : (Pipeline.unscopedRest spec0 c (V m c) : sProp 𝕄)
      = Pipeline.unscopedRest spec0 c (fun b => VX m c ((dats 0 c).arrAt 3 cfg0.N) (Proc.devRef .tc b)) := by
    unfold Pipeline.unscopedRest
    exact bigSep_congr fun b hb => congrArg (fun v => (((c.tc : Thread nD τ).loc b) ↦{fullShare} v : sProp 𝕄))
      (VX_of_ne m c _ b fun e => (Finset.mem_sdiff.mp hb).2 (Finset.mem_image.mpr ⟨3, Finset.mem_univ _, e ▸ rfl⟩)).symm
  -- the exit holdings are the unscoped buffers at the exit contents
  have step1 : iprop((dats 0 c).arrays ((dats 0 c).arrAt · cfg0.N) ∗ Pipeline.unscopedRest spec0 c (V m c))
      ⊢ (StableHlo.held (c.tc : Thread nD τ) (Pipeline.ucRefs τ sig) (VX m c ((dats 0 c).arrAt 3 cfg0.N)) : sProp 𝕄) := by
    rw [hX, hrest, ← Pipeline.unscopedBufs_held]
    exact (ubufs_iff dats c hq0 hq1 hq2 (fun b => VX m c ((dats 0 c).arrAt 3 cfg0.N) (Proc.devRef .tc b))).2
  -- and the unscoped buffers after the host operations are the arrays again and the rest at the new contents
  have step3 : (StableHlo.held (c.tc : Thread nD τ) (Pipeline.ucRefs τ sig) (StableHlo.after hostOps1 (VX m c ((dats 0 c).arrAt 3 cfg0.N))) : sProp 𝕄)
      ⊢ iprop((dats 0 c).arrays ((dats 0 c).arrAt · cfg0.N) ∗ Pipeline.unscopedRest spec0 c (WX m c ((dats 0 c).arrAt 3 cfg0.N))) := by
    rw [hW, ← Pipeline.unscopedBufs_held]
    exact (ubufs_iff dats c hq0 hq1 hq2 (WX m c ((dats 0 c).arrAt 3 cfg0.N))).1
  rw [Pipeline.unscopedRestP_none, Pipeline.unscopedRestP_none]
  rw [← List.append_nil ([hostOps1].map StableHlo.seq)]
  refine (BIClass.sep_mono .rfl (BIClass.sep_mono .rfl step1)).trans ?_
  iintro ⟨Hk, Hb⟩
  iapply (Pipeline.wp_seqs_then (fun q => (cfgs q).toPCfg (Val := Elt F)) (defs₀ (F := F)) Variants.none c (Pipeline.ucRefs τ sig) [] [hostOps1] tail_sub tail_fresh
    (VX m c ((dats 0 c).arrAt 3 cfg0.N))) $$ Hb
  iintro Hb
  rw [Pipeline.chain_nil, wp_pure]
  imodintro
  iapply Hk
  icases Hb with ⟨-, H⟩
  rw [show ([hostOps1] : List (List (HloOp τ sig (Elt F)))).flatten = hostOps1 from by simp only [List.flatten_cons, List.flatten_nil, List.append_nil]]
  iapply step3
  iexact H

set_option maxHeartbeats 4000000 in
/-- @main around the region: the host operations before it, the region, the host operations after it. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

set_option maxHeartbeats 4000000 in
set_option backward.isDefEq.respectTransparency.types false in
/-- THE RUN. From any memory with zero counters every weakly fair execution of @main terminates, and in every final
    state each unscoped buffer of each core holds what the host operations after the region leave (WX): the region's
    result as the write-backs left it, the operations before the region computed from the launch memory. -/
theorem run_around
    (hbody : ∀ c, Pipeline.BodyObligationLoose (dats 0 c) (defs₀ (F := F)) Variants.none () Set.univ)
    (hq0 : ∀ c, (dats 0 c).q 0 = fullShare.left) (hq1 : ∀ c, (dats 0 c).q 1 = fullShare) (hq2 : ∀ c, (dats 0 c).q 2 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ b : Ref sig .tc, b.isScoped = false →
        r.2.mem ((c.tc : Thread nD τ).loc b) = WX m c ((dats 0 c).arrAt 3 cfg0.N) b) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => by
      rw [show ((dats 0 c).arrAt · 0) = fun w => V m c (Pipeline.arrRef spec0 w) from funext fun w => hA c w]
      exact (arrays_iff dats c (hq0 c) (hq1 c) (hq2 c) (V m c)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (WX m c ((dats 0 c).arrAt 3 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_shared m dats c (hq0 c) (hq1 c) (hq2 c) (hA c) Q')
    (QY := fun c s => ∀ b ∈ Pipeline.restRefsP sig Pipeline.Prefetch.none spec0, s.mem ((c.tc : Thread nD τ).loc b) = WX m c ((dats 0 c).arrAt 3 cfg0.N) b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (WX m c ((dats 0 c).arrAt 3 cfg0.N)) s')
      isplitl [HU] <;> iassumption)
    (hQ := fun s h c b hb => by
      by_cases hbA : b ∈ Finset.univ.image (Pipeline.arrRef spec0)
      · obtain ⟨w, -, rfl⟩ := Finset.mem_image.mp hbA
        exact ((h c).1 w).trans (((arrAt_exit m dats c (hA c) w)).trans (WX_arr m c _ w).symm)
      · exact (h c).2.2 b (by
          unfold Pipeline.restRefsP
          simp only [Finset.mem_sdiff, Finset.mem_filter, Finset.mem_univ, true_and, Finset.mem_image]
          exact ⟨⟨by simp [hb], fun ⟨w, e⟩ => hbA (Finset.mem_image.mpr ⟨w, Finset.mem_univ _, e⟩)⟩, fun ⟨k, _⟩ => k.elim0⟩))

end Cert.KernelIdeal.Fr

end
-- ==== Proof.KReadArgs.lean ====
/-
  The seven argument buffers are never written: neither by the host operations before the kernel region, nor by
  the region (whose only result buffer is another one), nor by the host operations after it. Each argument
  buffer therefore holds its launch contents at the region's entry and at the program's end.
-/
import proofs.«157597_j56573309223697_1_alg».proof.Proof.KExit

noncomputable section

namespace Cert.KernelIdeal.Fr

open Idealize.ShloMosaic Idealize.ShloMosaic.TcCoe
open Idealize.SL Idealize.SL.Sem
open Cert.KernelIdeal Cert.KernelIdeal.Gen
open Idealize.ShloMosaic.StableHlo (after_cons after_nil)

variable {F : FTy → Type} [FloatOps F]
variable (m : (ℓ : Loc nD τ sig) → Buf (Elt F) ℓ)

/-- The host operations before the region do not write argument 0. -/
theorem V_arg0 (c : Dev nD) : V m c main_arg0 = m ((c.tc : Thread nD τ).loc main_arg0) := by
  show StableHlo.after (List.flatten [hostOps0]) (fun b => m (c, b)) (Proc.devRef .tc main_arg0) = _
  simp only [List.flatten_cons, List.flatten_nil, List.append_nil]
  after_results_simp
  all_goals rfl

/-- Neither the region nor the host operations after it write argument 0. -/
theorem WX_arg0 (c : Dev nD) (X : Buf (Elt F) ((c.tc : Thread nD τ).loc main_v40)) :
    WX m c X main_arg0 = m ((c.tc : Thread nD τ).loc main_arg0) := by
  have h1 : StableHlo.after hostOps1 (VX m c X) (Proc.devRef .tc main_arg0) = VX m c X (Proc.devRef .tc main_arg0) := by
    after_results_simp
  unfold WX
  rw [h1, VX_of_ne m c X main_arg0 (by decide)]
  exact V_arg0 m c

/-- The host operations before the region do not write argument 1. -/
theorem V_arg1 (c : Dev nD) : V m c main_arg1 = m ((c.tc : Thread nD τ).loc main_arg1) := by
  show StableHlo.after (List.flatten [hostOps0]) (fun b => m (c, b)) (Proc.devRef .tc main_arg1) = _
  simp only [List.flatten_cons, List.flatten_nil, List.append_nil]
  after_results_simp
  all_goals rfl

/-- Neither the region nor the host operations after it write argument 1. -/
theorem WX_arg1 (c : Dev nD) (X : Buf (Elt F) ((c.tc : Thread nD τ).loc main_v40)) :
    WX m c X main_arg1 = m ((c.tc : Thread nD τ).loc main_arg1) := by
  have h1 : StableHlo.after hostOps1 (VX m c X) (Proc.devRef .tc main_arg1) = VX m c X (Proc.devRef .tc main_arg1) := by
    after_results_simp
  unfold WX
  rw [h1, VX_of_ne m c X main_arg1 (by decide)]
  exact V_arg1 m c

/-- The host operations before the region do not write argument 2. -/
theorem V_arg2 (c : Dev nD) : V m c main_arg2 = m ((c.tc : Thread nD τ).loc main_arg2) := by
  show StableHlo.after (List.flatten [hostOps0]) (fun b => m (c, b)) (Proc.devRef .tc main_arg2) = _
  simp only [List.flatten_cons, List.flatten_nil, List.append_nil]
  after_results_simp
  all_goals rfl

/-- Neither the region nor the host operations after it write argument 2. -/
theorem WX_arg2 (c : Dev nD) (X : Buf (Elt F) ((c.tc : Thread nD τ).loc main_v40)) :
    WX m c X main_arg2 = m ((c.tc : Thread nD τ).loc main_arg2) := by
  have h1 : StableHlo.after hostOps1 (VX m c X) (Proc.devRef .tc main_arg2) = VX m c X (Proc.devRef .tc main_arg2) := by
    after_results_simp
  unfold WX
  rw [h1, VX_of_ne m c X main_arg2 (by decide)]
  exact V_arg2 m c

/-- The host operations before the region do not write argument 3. -/
theorem V_arg3 (c : Dev nD) : V m c main_arg3 = m ((c.tc : Thread nD τ).loc main_arg3) := by
  show StableHlo.after (List.flatten [hostOps0]) (fun b => m (c, b)) (Proc.devRef .tc main_arg3) = _
  simp only [List.flatten_cons, List.flatten_nil, List.append_nil]
  after_results_simp
  all_goals rfl

/-- Neither the region nor the host operations after it write argument 3. -/
theorem WX_arg3 (c : Dev nD) (X : Buf (Elt F) ((c.tc : Thread nD τ).loc main_v40)) :
    WX m c X main_arg3 = m ((c.tc : Thread nD τ).loc main_arg3) := by
  have h1 : StableHlo.after hostOps1 (VX m c X) (Proc.devRef .tc main_arg3) = VX m c X (Proc.devRef .tc main_arg3) := by
    after_results_simp
  unfold WX
  rw [h1, VX_of_ne m c X main_arg3 (by decide)]
  exact V_arg3 m c

/-- The host operations before the region do not write argument 4. -/
theorem V_arg4 (c : Dev nD) : V m c main_arg4 = m ((c.tc : Thread nD τ).loc main_arg4) := by
  show StableHlo.after (List.flatten [hostOps0]) (fun b => m (c, b)) (Proc.devRef .tc main_arg4) = _
  simp only [List.flatten_cons, List.flatten_nil, List.append_nil]
  after_results_simp
  all_goals rfl

/-- Neither the region nor the host operations after it write argument 4. -/
theorem WX_arg4 (c : Dev nD) (X : Buf (Elt F) ((c.tc : Thread nD τ).loc main_v40)) :
    WX m c X main_arg4 = m ((c.tc : Thread nD τ).loc main_arg4) := by
  have h1 : StableHlo.after hostOps1 (VX m c X) (Proc.devRef .tc main_arg4) = VX m c X (Proc.devRef .tc main_arg4) := by
    after_results_simp
  unfold WX
  rw [h1, VX_of_ne m c X main_arg4 (by decide)]
  exact V_arg4 m c

/-- The host operations before the region do not write argument 5. -/
theorem V_arg5 (c : Dev nD) : V m c main_arg5 = m ((c.tc : Thread nD τ).loc main_arg5) := by
  show StableHlo.after (List.flatten [hostOps0]) (fun b => m (c, b)) (Proc.devRef .tc main_arg5) = _
  simp only [List.flatten_cons, List.flatten_nil, List.append_nil]
  after_results_simp
  all_goals rfl

/-- Neither the region nor the host operations after it write argument 5. -/
theorem WX_arg5 (c : Dev nD) (X : Buf (Elt F) ((c.tc : Thread nD τ).loc main_v40)) :
    WX m c X main_arg5 = m ((c.tc : Thread nD τ).loc main_arg5) := by
  have h1 : StableHlo.after hostOps1 (VX m c X) (Proc.devRef .tc main_arg5) = VX m c X (Proc.devRef .tc main_arg5) := by
    after_results_simp
  unfold WX
  rw [h1, VX_of_ne m c X main_arg5 (by decide)]
  exact V_arg5 m c

/-- The host operations before the region do not write argument 6. -/
theorem V_arg6 (c : Dev nD) : V m c main_arg6 = m ((c.tc : Thread nD τ).loc main_arg6) := by
  show StableHlo.after (List.flatten [hostOps0]) (fun b => m (c, b)) (Proc.devRef .tc main_arg6) = _
  simp only [List.flatten_cons, List.flatten_nil, List.append_nil]
  after_results_simp
  all_goals rfl

/-- Neither the region nor the host operations after it write argument 6. -/
theorem WX_arg6 (c : Dev nD) (X : Buf (Elt F) ((c.tc : Thread nD τ).loc main_v40)) :
    WX m c X main_arg6 = m ((c.tc : Thread nD τ).loc main_arg6) := by
  have h1 : StableHlo.after hostOps1 (VX m c X) (Proc.devRef .tc main_arg6) = VX m c X (Proc.devRef .tc main_arg6) := by
    after_results_simp
  unfold WX
  rw [h1, VX_of_ne m c X main_arg6 (by decide)]
  exact V_arg6 m c

end Cert.KernelIdeal.Fr

end
-- ==== Proof.KFinal.lean ====
/-
  The program's run, assembled: the launch of the kernel region around the body obligation gives, at every
  unscoped buffer, the contents the host operations after the region compute from the region-entry contents with
  the region's result array at what the write-backs left; read at the seven arguments, which nothing writes, this
  is the frame.
-/
import proofs.«157597_j56573309223697_1_alg».proof.Proof.KBody
import proofs.«157597_j56573309223697_1_alg».proof.Proof.KLaunch
import proofs.«157597_j56573309223697_1_alg».proof.Proof.KReadArgs

noncomputable section

namespace Cert.KernelIdeal.Fr

open Idealize.ShloMosaic Idealize.ShloMosaic.TcCoe
open Idealize.SL Idealize.SL.BI Idealize.SL.Sem
open scoped Idealize.SL.BI
open Idealize.ShloMosaic.Pipeline (Dat)
open Cert.KernelIdeal Cert.KernelIdeal.Gen

variable {F : FTy → Type} [FloatOps F]
variable (m : (ℓ : Loc nD τ sig) → Buf (Elt F) ℓ)

/-- THE RUN. For any float values and any generator state, from any memory with zero counters: every weakly fair
    execution of the program terminates, and on every core every unscoped buffer ends at what the host operations
    after the region compute from the region-entry contents with the region's result array at what the write-backs
    left in it. -/
theorem run_main (ρ : Dev nD → PrngReg) :
    θ_run defs (onTc (τ := τ) (main (F := F))) ⟨m, fun _ => 0, ρ⟩ (fun r => ∀ c : Dev nD, ∀ b : Ref sig .tc, b.isScoped = false →
      r.2.mem ((c.tc : Thread nD τ).loc b) = WX m c ((dats m 0 c).arrAt 3 cfg0.N) b) :=
  run_around m ρ (dats m) (fun c => (body_obligation m c).loose) (fun _ => rfl) (fun _ => rfl) (fun _ => rfl) (fun _ _ => rfl)
    (A_eq m) (hin m) (hout m)

/-- THE FRAME. Every weakly fair execution terminates with the seven argument arrays unchanged: no host operation
    and no write-back of the region writes an argument. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
   ⟨(h c main_arg0 rfl).trans (WX_arg0 m c _),
    (h c main_arg1 rfl).trans (WX_arg1 m c _),
    (h c main_arg2 rfl).trans (WX_arg2 m c _),
    (h c main_arg3 rfl).trans (WX_arg3 m c _),
    (h c main_arg4 rfl).trans (WX_arg4 m c _),
    (h c main_arg5 rfl).trans (WX_arg5 m c _),
    (h c main_arg6 rfl).trans (WX_arg6 m c _)⟩) (run_main m ρ)

end Cert.KernelIdeal.Fr

end
-- ==== Proof.KerTerms.lean ====
/-
  The kernel program's host-side values as pure terms of its argument arrays, operation by operation, in the
  kernel program's own vocabulary: the assignment matrix S = softmax(x·Wa + ba), the features x·Wf + bf, the
  pooled features, the scattered dense adjacency A, and, of the per-tile partial products P the kernel region
  writes, T + Tᵀ with T = Σ_i P_i; the normalisation by the cluster sizes and the gathered off-diagonal entries.
-/
import proofs.«157597_j56573309223697_1_alg».proof.KernelIdeal

noncomputable section

namespace Cert.KernelIdeal.Terms

open Idealize.ShloMosaic Idealize.SL.Sem Cert.KernelIdeal
open Cert.KernelIdeal.Facts₀ Cert.KernelIdeal.Facts

variable {F : FTy → Type} [FloatOps F] [Cert.KernelIdeal.Facts]

/-- The logits x·Wa + ba, the bias row repeated down the nodes. -/
def logits (x : FVec F S8192x256 .f32) (Wa : FVec F S256x64 .f32) (ba : FVec F S64 .f32) : FVec F S8192x64 .f32 :=
  addf (Host.dotGeneral dot_S8192x256_S256x64_S8192x64_1_0_0_1_n_n none x Wa)
    (broadcastInDim S8192x64 ![0, 1] bcast_S1x64_S8192x64_0_1 (broadcastInDim S1x64 ![1] bcast_S64_S1x64_1 ba))

/-- exp(z − max_k z), row by row (the maximum also taken against −∞). -/
def expShift (z : FVec F S8192x64 .f32) : FVec F S8192x64 .f32 :=
  Host.exp (subf z
    (broadcastInDim S8192x64 ![0, 1] bcast_S8192x1_S8192x64_0_1 (broadcastInDim S8192x1 ![0] bcast_S8192_S8192x1_0
      (maximumf (broadcastInDim S8192 ![] bcast_S_S8192 (constant S_ .f32 0xFF800000#32))
        (Host.reduce FloatOps.maximumf z (constant S_ .f32 0xFF800000#32) reducesTo_S8192x64_S8192_d1 h_S_)))))

/-- A row-wise softmax: e / Σ_k e with e = expShift z. -/
def softmaxRows (z : FVec F S8192x64 .f32) : FVec F S8192x64 .f32 :=
  Host.divf (expShift z)
    (broadcastInDim S8192x64 ![0, 1] bcast_S8192x1_S8192x64_0_1 (broadcastInDim S8192x1 ![0] bcast_S8192_S8192x1_0
      (Host.reduceAdd (expShift z) (constant S_ .f32 0x00000000#32) reducesTo_S8192x64_S8192_d1 h_S_)))

/-- The assignment matrix S. -/
def assign (x : FVec F S8192x256 .f32) (Wa : FVec F S256x64 .f32) (ba : FVec F S64 .f32) : FVec F S8192x64 .f32 :=
  softmaxRows (logits x Wa ba)

/-- The transformed features x·Wf + bf. -/
def feat (x : FVec F S8192x256 .f32) (Wf : FVec F S256x256 .f32) (bf : FVec F S256 .f32) : FVec F S8192x256 .f32 :=
  addf (Host.dotGeneral dot_S8192x256_S256x256_S8192x256_1_0_0_1_n_n none x Wf)
    (broadcastInDim S8192x256 ![0, 1] bcast_S1x256_S8192x256_0_1 (broadcastInDim S1x256 ![1] bcast_S256_S1x256_1 bf))

/-- The pooled features Sᵀ·X. -/
def pooled (S : FVec F S8192x64 .f32) (X : FVec F S8192x256 .f32) : FVec F S64x256 .f32 :=
  Host.dotGeneral dot_S64x8192_S8192x256_S64x256_1_0_0_1_n_n none (transpose S64x8192 [1, 0] S transposes_S8192x64_S64x8192_1_0) X

/-- One row of the edge list with negative entries wrapped by the extent 8192. -/
def wrapRow (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

/-- The (row, column) pairs of the edges, one pair per edge. -/
def edgePairs (ei : IVec S2x262144 32) : IVec S262144x2 32 :=
  concatenate S262144x2 1
    [⟨S262144x1, broadcastInDim S262144x1 ![0] bcast_S262144_S262144x1_0
        (wrapRow (shapeCast S262144 (extractStridedSlice S1x262144 ![0, 0] ei slices_S2x262144_S1x262144_0_0) shapeCasts_S1x262144_S262144))⟩,
     ⟨S262144x1, broadcastInDim S262144x1 ![0] bcast_S262144_S262144x1_0
        (wrapRow (shapeCast S262144 (extractStridedSlice S1x262144 ![1, 0] ei slices_S2x262144_S1x262144_1_0) shapeCasts_S1x262144_S262144))⟩]
    concatenates_S262144x1_S262144x1_S262144x2_d1

/-- The dense adjacency: zeros overwritten by the edge weights at the edges' cells, later edges winning. -/
def adj (ei : IVec S2x262144 32) (ew : FVec F S262144 .f32) : FVec F S8192x8192 .f32 :=
  Host.scatter scatter_S8192x8192_S262144x2_S262144_n_01_01_1 (fun _ b => b)
    (broadcastInDim S8192x8192 ![] bcast_S_S8192x8192 (constant S_ .f32 0x00000000#32)) (edgePairs ei) ew

/-- The sum over the row tiles of the tiles' 64×64 partial products, T = Σ_i P_i, plus its transpose: T + Tᵀ. -/
def symSum (P : FVec F S8x64x64 .f32) : FVec F S64x64 .f32 :=
  addf (Host.reduceAdd P (constant S_ .f32 0x00000000#32) reducesTo_S8x64x64_S64x64_d0 h_S_)
    (transpose S64x64 [1, 0] (Host.reduceAdd P (constant S_ .f32 0x00000000#32) reducesTo_S8x64x64_S64x64_d0 h_S_) transposes_S64x64_S64x64_1_0)

/-- The cluster sizes Σ_n S(n, k) + ε, as a column repeated along the rows of a 64×64 matrix. -/
def sizes (S : FVec F S8192x64 .f32) : FVec F S64x64 .f32 :=
  broadcastInDim S64x64 ![0, 1] bcast_S64x1_S64x64_0_1
    (addf (transpose S64x1 [1, 0] (broadcastInDim S1x64 ![1] bcast_S64_S1x64_1
        (Host.reduceAdd S (constant S_ .f32 0x00000000#32) reducesTo_S8192x64_S64_d0 h_S_)) transposes_S1x64_S64x1_1_0)
      (broadcastInDim S64x1 ![] bcast_S_S64x1 (constant S_ .f32 0x322BCC77#32)))

/-- The two rows of off-diagonal (i, j) pairs, in row-major order. -/
def pairRows : IVec S2x4032 32 :=
  concatenate S2x4032 0
    [⟨S1x4032, broadcastInDim S1x4032 ![1] bcast_S4032_S1x4032_1 (fun i => lit0 (S4032.rowMajor i))⟩,
     ⟨S1x4032, broadcastInDim S1x4032 ![1] bcast_S4032_S1x4032_1 (fun i => lit1 (S4032.rowMajor i))⟩]
    concatenates_S1x4032_S1x4032_S2x4032_d0

/-- One list of gather coordinates, negative entries wrapped by the extent 64 (none is negative: the mask is all zeros). -/
def wrapIdx (r : IVec S4032 32) : IVec S4032 32 :=
  select (constantI S4032 1 0#1) (addi r (broadcastInDim S4032 ![] bcast_S_S4032 (constantI S_ 32 64#32))) r

/-- The gather's (i, j) coordinates, one pair per off-diagonal entry. -/
def pairCols : IVec S4032x2 32 :=
  concatenate S4032x2 1
    [⟨S4032x1, broadcastInDim S4032x1 ![0] bcast_S4032_S4032x1_0 (wrapIdx (fun i => lit2 (S4032.rowMajor i)))⟩,
     ⟨S4032x1, broadcastInDim S4032x1 ![0] bcast_S4032_S4032x1_0 (wrapIdx (fun i => lit3 (S4032.rowMajor i)))⟩]
    concatenates_S4032x1_S4032x1_S4032x2_d1

/-- The off-diagonal entries of M / sizes. -/
def offDiag (M : FVec F S64x64 .f32) (S : FVec F S8192x64 .f32) : FVec F S4032 .f32 :=
  Host.gather gather_S64x64_S4032x2_S4032_n_01_n_n_01_1_11 (Host.divf M (sizes S)) pairCols

end Cert.KernelIdeal.Terms

end
-- ==== Proof.KRead.lean ====
/-
  The kernel program's host operations read as the pure terms of KerTerms: before the region they compute the
  assignment matrix, the scattered adjacency and the pooled features from the arguments; after the region they
  compute, from the region's partial products, the symmetric sum T + Tᵀ, its normalisation by the cluster sizes and
  the gathered off-diagonal entries, and restate the constant index pairs.
-/
import proofs.«157597_j56573309223697_1_alg».proof.Proof.KExit
import proofs.«157597_j56573309223697_1_alg».proof.Proof.KerTerms
import Idealize.ShloMosaic.Lib.StableHlo.Run

set_option maxHeartbeats 4000000

noncomputable section

namespace Cert.KernelIdeal.Fr

open Idealize.ShloMosaic Idealize.ShloMosaic.TcCoe Idealize.ShloMosaic.StableHlo
open Idealize.SL Idealize.SL.Sem
open Cert.KernelIdeal Cert.KernelIdeal.Gen

variable {F : FTy → Type} [FloatOps F]

/-! ## The operations before the region, from any contents -/

/-- The assignment matrix. -/
theorem pre_v33 (W : Valuation τ sig (Elt F)) :
    after hostOps0 W (Proc.devRef .tc main_v33)
      = Terms.assign (W (Proc.devRef .tc main_arg0)) (W (Proc.devRef .tc main_arg3)) (W (Proc.devRef .tc main_arg4)) := by
  after_results_simp
  rfl

/-- The scattered adjacency. -/
theorem pre_v18 (W : Valuation τ sig (Elt F)) :
    after hostOps0 W (Proc.devRef .tc main_v18)
      = Terms.adj (W (Proc.devRef .tc main_arg1)) (W (Proc.devRef .tc main_arg2)) := by
  after_results_simp
  rfl

/-- The pooled features. -/
theorem pre_v39 (W : Valuation τ sig (Elt F)) :
    after hostOps0 W (Proc.devRef .tc main_v39)
      = Terms.pooled (Terms.assign (W (Proc.devRef .tc main_arg0)) (W (Proc.devRef .tc main_arg3)) (W (Proc.devRef .tc main_arg4)))
          (Terms.feat (W (Proc.devRef .tc main_arg0)) (W (Proc.devRef .tc main_arg5)) (W (Proc.devRef .tc main_arg6))) := by
  after_results_simp
  rfl

/-- The six constant tables: the four literal tables of index pairs and the two all-zero masks. -/
theorem pre_c (W : Valuation τ sig (Elt F)) :
    after hostOps0 W (Proc.devRef .tc main_c) = (fun i => lit0 (S4032.rowMajor i)) := by
  after_results_simp
  rfl
theorem pre_c_0 (W : Valuation τ sig (Elt F)) :
    after hostOps0 W (Proc.devRef .tc main_c_0) = (fun i => lit1 (S4032.rowMajor i)) := by
  after_results_simp
  rfl
theorem pre_c_1 (W : Valuation τ sig (Elt F)) :
    after hostOps0 W (Proc.devRef .tc main_c_1) = (fun i => lit2 (S4032.rowMajor i)) := by
  after_results_simp
  rfl
theorem pre_c_2 (W : Valuation τ sig (Elt F)) :
    after hostOps0 W (Proc.devRef .tc main_c_2) = constantI S4032 1 0#1 := by
  after_results_simp
theorem pre_c_3 (W : Valuation τ sig (Elt F)) :
    after hostOps0 W (Proc.devRef .tc main_c_3) = (fun i => lit3 (S4032.rowMajor i)) := by
  after_results_simp
  rfl
theorem pre_c_4 (W : Valuation τ sig (Elt F)) :
    after hostOps0 W (Proc.devRef .tc main_c_4) = constantI S4032 1 0#1 := by
  after_results_simp

/-! ## The operations after the region, from any contents -/

/-- The assignment matrix is not rewritten. -/
theorem post_v33 (W : Valuation τ sig (Elt F)) :
    after hostOps1 W (Proc.devRef .tc main_v33) = W (Proc.devRef .tc main_v33) := by
  after_results_simp

/-- The pooled features are not rewritten. -/
theorem post_v39 (W : Valuation τ sig (Elt F)) :
    after hostOps1 W (Proc.devRef .tc main_v39) = W (Proc.devRef .tc main_v39) := by
  after_results_simp

/-- The index pairs: the two tables, each as a row, one above the other. -/
theorem post_v53 (W : Valuation τ sig (Elt F)) :
    after hostOps1 W (Proc.devRef .tc main_v53)
      = concatenate S2x4032 0
          [⟨S1x4032, broadcastInDim S1x4032 ![1] bcast_S4032_S1x4032_1 (W (Proc.devRef .tc main_c))⟩,
           ⟨S1x4032, broadcastInDim S1x4032 ![1] bcast_S4032_S1x4032_1 (W (Proc.devRef .tc main_c_0))⟩]
          concatenates_S1x4032_S1x4032_S2x4032_d0 := by
  after_results_simp
  rfl

/-- The off-diagonal entries: the gather, at the wrapped coordinate tables, of the symmetric sum of the partial
    products divided by the cluster sizes. -/
theorem post_v63 (W : Valuation τ sig (Elt F)) :
    after hostOps1 W (Proc.devRef .tc main_v63)
      = Host.gather gather_S64x64_S4032x2_S4032_n_01_n_n_01_1_11
          (Host.divf (Terms.symSum (W (Proc.devRef .tc main_v40))) (Terms.sizes (W (Proc.devRef .tc main_v33))))
          (concatenate S4032x2 1
            [⟨S4032x1, broadcastInDim S4032x1 ![0] bcast_S4032_S4032x1_0
                (select (W (Proc.devRef .tc main_c_2))
                  (addi (W (Proc.devRef .tc main_c_1)) (broadcastInDim S4032 ![] bcast_S_S4032 (constantI S_ 32 64#32)))
                  (W (Proc.devRef .tc main_c_1)))⟩,
             ⟨S4032x1, broadcastInDim S4032x1 ![0] bcast_S4032_S4032x1_0
                (select (W (Proc.devRef .tc main_c_4))
                  (addi (W (Proc.devRef .tc main_c_3)) (broadcastInDim S4032 ![] bcast_S_S4032 (constantI S_ 32 64#32)))
                  (W (Proc.devRef .tc main_c_3)))⟩]
            concatenates_S4032x1_S4032x1_S4032x2_d1) := by
  after_results_simp
  rfl

/-! ## Read off the launch memory -/

variable (m : (ℓ : Loc nD τ sig) → Buf (Elt F) ℓ)

/-- What the region finds is the launch memory after the operations before the region. -/
theorem V0_eq (c : Dev nD) : V0 m c = after hostOps0 (fun b => m (c, b)) := by
  show after (List.flatten [hostOps0]) _ = _
  simp only [List.flatten_cons, List.flatten_nil, List.append_nil]

/-- The region finds the assignment matrix of the arguments. -/
theorem V_assign (c : Dev nD) :
    V m c main_v33 = Terms.assign (m ((c.tc : Thread nD τ).loc main_arg0)) (m ((c.tc : Thread nD τ).loc main_arg3))
      (m ((c.tc : Thread nD τ).loc main_arg4)) := by
  show V0 m c (Proc.devRef .tc main_v33) = _
  rw [V0_eq]
  exact pre_v33 _

/-- The region finds the scattered adjacency of the arguments. -/
theorem V_adj (c : Dev nD) :
    V m c main_v18 = Terms.adj (m ((c.tc : Thread nD τ).loc main_arg1)) (m ((c.tc : Thread nD τ).loc main_arg2)) := by
  show V0 m c (Proc.devRef .tc main_v18) = _
  rw [V0_eq]
  exact pre_v18 _

/-- The pooled features are computed before the region. -/
theorem V_pooled (c : Dev nD) :
    V m c main_v39 = Terms.pooled
      (Terms.assign (m ((c.tc : Thread nD τ).loc main_arg0)) (m ((c.tc : Thread nD τ).loc main_arg3)) (m ((c.tc : Thread nD τ).loc main_arg4)))
      (Terms.feat (m ((c.tc : Thread nD τ).loc main_arg0)) (m ((c.tc : Thread nD τ).loc main_arg5)) (m ((c.tc : Thread nD τ).loc main_arg6))) := by
  show V0 m c (Proc.devRef .tc main_v39) = _
  rw [V0_eq]
  exact pre_v39 _

theorem V_c (c : Dev nD) : V m c main_c = (fun i => lit0 (S4032.rowMajor i)) := by
  show V0 m c (Proc.devRef .tc main_c) = _
  rw [V0_eq]; exact pre_c _
theorem V_c_0 (c : Dev nD) : V m c main_c_0 = (fun i => lit1 (S4032.rowMajor i)) := by
  show V0 m c (Proc.devRef .tc main_c_0) = _
  rw [V0_eq]; exact pre_c_0 _
theorem V_c_1 (c : Dev nD) : V m c main_c_1 = (fun i => lit2 (S4032.rowMajor i)) := by
  show V0 m c (Proc.devRef .tc main_c_1) = _
  rw [V0_eq]; exact pre_c_1 _
theorem V_c_2 (c : Dev nD) : V m c main_c_2 = constantI S4032 1 0#1 := by
  show V0 m c (Proc.devRef .tc main_c_2) = _
  rw [V0_eq]; exact pre_c_2 _
theorem V_c_3 (c : Dev nD) : V m c main_c_3 = (fun i => lit3 (S4032.rowMajor i)) := by
  show V0 m c (Proc.devRef .tc main_c_3) = _
  rw [V0_eq]; exact pre_c_3 _
theorem V_c_4 (c : Dev nD) : V m c main_c_4 = constantI S4032 1 0#1 := by
  show V0 m c (Proc.devRef .tc main_c_4) = _
  rw [V0_eq]; exact pre_c_4 _

/-! ## The results after the operations that follow the region -/

/-- The assignment matrix, as the region found it. -/
theorem WX_v33 (c : Dev nD) (X : Buf (Elt F) ((c.tc : Thread nD τ).loc main_v40)) :
    WX m c X main_v33 = Terms.assign (m ((c.tc : Thread nD τ).loc main_arg0)) (m ((c.tc : Thread nD τ).loc main_arg3))
      (m ((c.tc : Thread nD τ).loc main_arg4)) := by
  unfold WX
  rw [post_v33, VX_of_ne m c X main_v33 (by decide), V_assign]

/-- The pooled features, as computed before the region. -/
theorem WX_v39 (c : Dev nD) (X : Buf (Elt F) ((c.tc : Thread nD τ).loc main_v40)) :
    WX m c X main_v39 = Terms.pooled
      (Terms.assign (m ((c.tc : Thread nD τ).loc main_arg0)) (m ((c.tc : Thread nD τ).loc main_arg3)) (m ((c.tc : Thread nD τ).loc main_arg4)))
      (Terms.feat (m ((c.tc : Thread nD τ).loc main_arg0)) (m ((c.tc : Thread nD τ).loc main_arg5)) (m ((c.tc : Thread nD τ).loc main_arg6))) := by
  unfold WX
  rw [post_v39, VX_of_ne m c X main_v39 (by decide), V_pooled]

/-- The constant off-diagonal index pairs. -/
theorem WX_v53 (c : Dev nD) (X : Buf (Elt F) ((c.tc : Thread nD τ).loc main_v40)) :
    WX m c X main_v53 = Terms.pairRows := by
  unfold WX
  rw [post_v53, VX_of_ne m c X main_c (by decide), VX_of_ne m c X main_c_0 (by decide), V_c, V_c_0]
  rfl

/-- The off-diagonal entries of the symmetric sum of the region's partial products, normalised by the cluster sizes. -/
theorem WX_v63 (c : Dev nD) (X : Buf (Elt F) ((c.tc : Thread nD τ).loc main_v40)) :
    WX m c X main_v63 = Terms.offDiag (Terms.symSum X)
      (Terms.assign (m ((c.tc : Thread nD τ).loc main_arg0)) (m ((c.tc : Thread nD τ).loc main_arg3)) (m ((c.tc : Thread nD τ).loc main_arg4))) := by
  unfold WX
  rw [post_v63, VX_out, VX_of_ne m c X main_v33 (by decide), VX_of_ne m c X main_c_1 (by decide),
    VX_of_ne m c X main_c_2 (by decide), VX_of_ne m c X main_c_3 (by decide), VX_of_ne m c X main_c_4 (by decide),
    V_assign, V_c_1, V_c_2, V_c_3, V_c_4]
  rfl

end Cert.KernelIdeal.Fr

end
-- ==== Proof.KPay.lean ====
/-
  The body's three stored values read at an index, at the ideal values.

  The first is the zero splat. The second is the scratch block plus v10ᵀ·(v3·v6): two matrix products into zero
  accumulators (the roundings on the way into the first are the identity on extended reals), the first contracting
  the columns of v3 with the rows of v6, the second contracting the ROWS of both its operands. The third is the
  scratch block under a leading unit axis.
-/
import proofs.«157597_j56573309223697_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.KernelIdeal.Fr

open Idealize.ShloMosaic Idealize.SL.Sem Idealize.ShloMosaic.ValueIdx
open Cert.KernelIdeal Cert.KernelIdeal.Gen

/-- A plain matrix product into a zero accumulator, read at (a, b): Σ_c L(a,c)·R(c,b). -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (L : FVec Ideal ⟨2, ![m, k]⟩ φ₁) (R : FVec Ideal ⟨2, ![k, n]⟩ φ₂) (a : Fin m) (b : Fin n) :
    matmul (⟨[1], [0], [0], [1], [], [], w⟩ : DotDims _ _ _) prec L R (constant (F := Ideal) _ .f32 0x00000000#32) (ix2 a b)
      = ∑ c : Fin k, L (ix2 a c) * R (ix2 c b) := by
  rw [matmul_zero_eq_dotGeneral]
  exact StackMember.dotGeneral_plain_apply prec L R a b

/-- A matrix product contracting the ROWS of both operands (Lᵀ·R) into a zero accumulator, read at (a, b):
    Σ_c L(c,a)·R(c,b). -/
theorem matmul_tlhs_zero_apply {m k n : Nat} {φ₁ φ₂ : FTy}
    (w : DotDims.WF ⟨2, ![k, m]⟩ ⟨2, ![k, n]⟩ ⟨2, ![m, n]⟩ [0] [0] [1] [1] [] [])
    (prec : Option ContractPrecision) (L : FVec Ideal ⟨2, ![k, m]⟩ φ₁) (R : FVec Ideal ⟨2, ![k, n]⟩ φ₂) (a : Fin m) (b : Fin n) :
    matmul (⟨[0], [0], [1], [1], [], [], w⟩ : DotDims _ _ _) prec L R (constant (F := Ideal) _ .f32 0x00000000#32) (ix2 a b)
      = ∑ c : Fin k, L (ix2 c a) * R (ix2 c b) := by
  show FloatOps.matmul _ prec L R (constant (F := Ideal) _ .f32 0x00000000#32) (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first stored value is zero everywhere. -/
theorem pay1_apply (k l : Fin 64) : k0_pay1 (F := Ideal) (ix2 k l) = 0 := by
  unfold k0_pay1
  simp only [shapeCast_self]
  exact Ideal.ofBits_zero_f32

/-- The second stored value at (k, l): the scratch entry plus Σ_mm v10(mm,k)·Σ_nn v3(mm,nn)·v6(nn,l). -/
theorem pay2_apply (v3 : Vec Ideal S1024x1024 .f32) (v6 v10 : Vec Ideal S1024x64 .f32) (v13 : Vec Ideal S64x64 .f32)
    (k l : Fin 64) :
    k0_pay2 (F := Ideal) v3 v6 v10 v13 (ix2 k l)
      = v13 (ix2 k l) + ∑ mm : Fin 1024, v10 (ix2 mm k) * ∑ nn : Fin 1024, v3 (ix2 mm nn) * v6 (ix2 nn l) := by
  unfold k0_pay2
  simp only [shapeCast_self]
  rw [addf_apply]
  refine congrArg (v13 (ix2 k l) + ·) ?_
  refine (matmul_tlhs_zero_apply _ none v10 _ k l).trans ?_
  refine Finset.sum_congr rfl fun mm _ => congrArg (v10 (ix2 mm k) * ·) ?_
  exact matmul_plain_zero_apply _ none _ _ mm l

/-- The third stored value at (0, k, l) is the scratch entry at (k, l). -/
theorem pay3_apply (v21 : Vec Ideal S64x64 .f32) (k l : Fin 64) :
    k0_pay3 (F := Ideal) v21 (ix3 0 k l) = v21 (ix2 k l) := by
  unfold k0_pay3
  refine (shapeCast_addUnit_apply ![64, 64] v21 _ (ix3 0 k l)).trans ?_
  refine congrArg v21 (funext fun a => ?_)
  match a with
  | ⟨0, _⟩ => rfl
  | ⟨1, _⟩ => rfl

end Cert.KernelIdeal.Fr

end
-- ==== Proof.RefTerms.lean ====
/-
  The reference program's four results as pure terms of its argument arrays, operation by operation:
  the assignment matrix S = softmax(x·Wa + ba) along the clusters, the features x·Wf + bf, the pooled
  features Sᵀ·(x·Wf + bf), the dense adjacency A built by the last-write-wins scatter of the edge
  weights, the coarsened adjacency (Sᵀ·(A + Aᵀ))·S, its normalisation by the cluster sizes
  Σ_n S(n, k) + ε, and the off-diagonal entries gathered in row-major order.
-/
import proofs.«157597_j56573309223697_1_alg».proof.ReferenceIdeal

noncomputable section

namespace Cert.ReferenceIdeal.Terms

open Idealize.ShloMosaic Idealize.SL.Sem Cert.ReferenceIdeal
open Cert.ReferenceIdeal.Facts₀ Cert.ReferenceIdeal.Facts

variable {F : FTy → Type} [FloatOps F] [Cert.ReferenceIdeal.Facts]

/-- The logits x·Wa + ba, the bias row repeated down the nodes. -/
def logits (x : FVec F S8192x256 .f32) (Wa : FVec F S256x64 .f32) (ba : FVec F S64 .f32) : FVec F S8192x64 .f32 :=
  addf (Host.dotGeneral dot_S8192x256_S256x64_S8192x64_1_0_0_1_n_n none x Wa)
    (broadcastInDim S8192x64 ![0, 1] bcast_S1x64_S8192x64_0_1 (broadcastInDim S1x64 ![1] bcast_S64_S1x64_1 ba))

/-- exp(z − max_k z), row by row (the maximum also taken against −∞). -/
def expShift (z : FVec F S8192x64 .f32) : FVec F S8192x64 .f32 :=
  Host.exp (subf z
    (broadcastInDim S8192x64 ![0, 1] bcast_S8192x1_S8192x64_0_1 (broadcastInDim S8192x1 ![0] bcast_S8192_S8192x1_0
      (maximumf (broadcastInDim S8192 ![] bcast_S_S8192 (constant S_ .f32 0xFF800000#32))
        (Host.reduce FloatOps.maximumf z (constant S_ .f32 0xFF800000#32) reducesTo_S8192x64_S8192_d1 h_S_)))))

/-- A row-wise softmax: e / Σ_k e with e = expShift z. -/
def softmaxRows (z : FVec F S8192x64 .f32) : FVec F S8192x64 .f32 :=
  Host.divf (expShift z)
    (broadcastInDim S8192x64 ![0, 1] bcast_S8192x1_S8192x64_0_1 (broadcastInDim S8192x1 ![0] bcast_S8192_S8192x1_0
      (Host.reduceAdd (expShift z) (constant S_ .f32 0x00000000#32) reducesTo_S8192x64_S8192_d1 h_S_)))

/-- The assignment matrix S. -/
def assign (x : FVec F S8192x256 .f32) (Wa : FVec F S256x64 .f32) (ba : FVec F S64 .f32) : FVec F S8192x64 .f32 :=
  softmaxRows (logits x Wa ba)

/-- The transformed features x·Wf + bf. -/
def feat (x : FVec F S8192x256 .f32) (Wf : FVec F S256x256 .f32) (bf : FVec F S256 .f32) : FVec F S8192x256 .f32 :=
  addf (Host.dotGeneral dot_S8192x256_S256x256_S8192x256_1_0_0_1_n_n none x Wf)
    (broadcastInDim S8192x256 ![0, 1] bcast_S1x256_S8192x256_0_1 (broadcastInDim S1x256 ![1] bcast_S256_S1x256_1 bf))

/-- The pooled features Sᵀ·X. -/
def pooled (S : FVec F S8192x64 .f32) (X : FVec F S8192x256 .f32) : FVec F S64x256 .f32 :=
  Host.dotGeneral dot_S64x8192_S8192x256_S64x256_1_0_0_1_n_n none (transpose S64x8192 [1, 0] S transposes_S8192x64_S64x8192_1_0) X

/-- One row of the edge list with negative entries wrapped by the extent 8192. -/
def wrapRow (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

/-- The (row, column) pairs of the edges, one pair per edge. -/
def edgePairs (ei : IVec S2x262144 32) : IVec S262144x2 32 :=
  concatenate S262144x2 1
    [⟨S262144x1, broadcastInDim S262144x1 ![0] bcast_S262144_S262144x1_0
        (wrapRow (shapeCast S262144 (extractStridedSlice S1x262144 ![0, 0] ei slices_S2x262144_S1x262144_0_0) shapeCasts_S1x262144_S262144))⟩,
     ⟨S262144x1, broadcastInDim S262144x1 ![0] bcast_S262144_S262144x1_0
        (wrapRow (shapeCast S262144 (extractStridedSlice S1x262144 ![1, 0] ei slices_S2x262144_S1x262144_1_0) shapeCasts_S1x262144_S262144))⟩]
    concatenates_S262144x1_S262144x1_S262144x2_d1

/-- The dense adjacency: zeros overwritten by the edge weights at the edges' cells, later edges winning. -/
def adj (ei : IVec S2x262144 32) (ew : FVec F S262144 .f32) : FVec F S8192x8192 .f32 :=
  Host.scatter scatter_S8192x8192_S262144x2_S262144_n_01_01_1 (fun _ b => b)
    (broadcastInDim S8192x8192 ![] bcast_S_S8192x8192 (constant S_ .f32 0x00000000#32)) (edgePairs ei) ew

/-- The coarsened adjacency (Sᵀ·(A + Aᵀ))·S. -/
def coarse (S : FVec F S8192x64 .f32) (A : FVec F S8192x8192 .f32) : FVec F S64x64 .f32 :=
  Host.dotGeneral dot_S64x8192_S8192x64_S64x64_1_0_0_1_n_n none
    (Host.dotGeneral dot_S64x8192_S8192x8192_S64x8192_1_0_0_1_n_n none
      (transpose S64x8192 [1, 0] S transposes_S8192x64_S64x8192_1_0)
      (addf A (transpose S8192x8192 [1, 0] A transposes_S8192x8192_S8192x8192_1_0)))
    S

/-- The cluster sizes Σ_n S(n, k) + ε, as a column repeated along the rows of a 64×64 matrix. -/
def sizes (S : FVec F S8192x64 .f32) : FVec F S64x64 .f32 :=
  broadcastInDim S64x64 ![0, 1] bcast_S64x1_S64x64_0_1
    (addf (transpose S64x1 [1, 0] (broadcastInDim S1x64 ![1] bcast_S64_S1x64_1
        (Host.reduceAdd S (constant S_ .f32 0x00000000#32) reducesTo_S8192x64_S64_d0 h_S_)) transposes_S1x64_S64x1_1_0)
      (broadcastInDim S64x1 ![] bcast_S_S64x1 (constant S_ .f32 0x322BCC77#32)))

/-- The two rows of off-diagonal (i, j) pairs, in row-major order. -/
def pairRows : IVec S2x4032 32 :=
  concatenate S2x4032 0
    [⟨S1x4032, broadcastInDim S1x4032 ![1] bcast_S4032_S1x4032_1 (fun i => lit0 (S4032.rowMajor i))⟩,
     ⟨S1x4032, broadcastInDim S1x4032 ![1] bcast_S4032_S1x4032_1 (fun i => lit1 (S4032.rowMajor i))⟩]
    concatenates_S1x4032_S1x4032_S2x4032_d0

/-- One list of gather coordinates, negative entries wrapped by the extent 64 (none is negative: the mask is all zeros). -/
def wrapIdx (r : IVec S4032 32) : IVec S4032 32 :=
  select (constantI S4032 1 0#1) (addi r (broadcastInDim S4032 ![] bcast_S_S4032 (constantI S_ 32 64#32))) r

/-- The gather's (i, j) coordinates, one pair per off-diagonal entry. -/
def pairCols : IVec S4032x2 32 :=
  concatenate S4032x2 1
    [⟨S4032x1, broadcastInDim S4032x1 ![0] bcast_S4032_S4032x1_0 (wrapIdx (fun i => lit2 (S4032.rowMajor i)))⟩,
     ⟨S4032x1, broadcastInDim S4032x1 ![0] bcast_S4032_S4032x1_0 (wrapIdx (fun i => lit3 (S4032.rowMajor i)))⟩]
    concatenates_S4032x1_S4032x1_S4032x2_d1

/-- The off-diagonal entries of M / sizes. -/
def offDiag (M : FVec F S64x64 .f32) (S : FVec F S8192x64 .f32) : FVec F S4032 .f32 :=
  Host.gather gather_S64x64_S4032x2_S4032_n_01_n_n_01_1_11 (Host.divf M (sizes S)) pairCols

end Cert.ReferenceIdeal.Terms

end
-- ==== Proof.CoarseLawReal.lean ====
/-
  The algebraic law that joins the two coarsened adjacencies, over abstract finite index types.

  With s an assignment matrix and a an adjacency matrix,
    Σ_n (Σ_m s(m,k)·(a(m,n) + a(n,m)))·s(n,l)
      = Σ_m s(m,k)·Σ_n a(m,n)·s(n,l)  +  Σ_m s(m,l)·Σ_n a(m,n)·s(n,k),
  by distributivity, an exchange of the two sums, and renaming m ↔ n in the transposed half; each sum
  over the nodes then splits into tiles × offsets along an equivalence T × O ≃ N. The law is proved
  in ℝ and transported to the extended reals for matrices whose entries are all real numbers.
-/
import Mathlib.Data.EReal.Inv
import Mathlib.Analysis.SpecialFunctions.Pow.Real

namespace Cert.Proof.CoarseLaw

open Finset

section Abstract

variable {N K T O : Type*} [Fintype N] [Fintype T] [Fintype O]

/-- Distributivity and exchange of sums in ℝ: the symmetrised product splits into the plain product at (k, l)
    plus the plain product at (l, k). -/
theorem real_sym (s : N → K → ℝ) (a : N → N → ℝ) (k l : K) :
    ∑ n, (∑ m, s m k * (a m n + a n m)) * s n l
      = (∑ m, s m k * ∑ n, a m n * s n l) + ∑ m, s m l * ∑ n, a m n * s n k := by
  have h1 : ∑ n, (∑ m, s m k * (a m n + a n m)) * s n l
      = (∑ n, ∑ m, s m k * (a m n * s n l)) + ∑ n, ∑ m, s n l * (a n m * s m k) := by
    rw [← Finset.sum_add_distrib]
    refine Finset.sum_congr rfl fun n _ => ?_
    rw [Finset.sum_mul, ← Finset.sum_add_distrib]
    refine Finset.sum_congr rfl fun m _ => ?_
    ring
  rw [h1, Finset.sum_comm]
  simp only [Finset.mul_sum]

/-- A sum over the nodes is the sum over the tiles of the sums over the offsets. -/
theorem sum_tiles {M : Type*} [AddCommMonoid M] (e : T × O ≃ N) (f : N → M) :
    ∑ n, f n = ∑ i, ∑ o, f (e (i, o)) := by
  rw [← Equiv.sum_comp e f, Fintype.sum_prod_type]

/-- The plain product s(·,k)ᵀ·a·s(·,l) in ℝ, both node sums split into tiles × offsets, the column-tile sum
    moved outside the row-offset sum. -/
theorem real_tiled (e : T × O ≃ N) (s : N → K → ℝ) (a : N → N → ℝ) (k l : K) :
    ∑ m, s m k * ∑ n, a m n * s n l
      = ∑ i, ∑ j, ∑ mm, s (e (i, mm)) k * ∑ nn, a (e (i, mm)) (e (j, nn)) * s (e (j, nn)) l := by
  rw [sum_tiles e]
  refine Finset.sum_congr rfl fun i _ => ?_
  rw [Finset.sum_comm]
  refine Finset.sum_congr rfl fun mm _ => ?_
  rw [sum_tiles e, Finset.mul_sum]

/-- The law in ℝ: the symmetrised coarsening equals the tiled partial products summed, plus the same at (l, k). -/
theorem real_law (e : T × O ≃ N) (s : N → K → ℝ) (a : N → N → ℝ) (k l : K) :
    ∑ n, (∑ m, s m k * (a m n + a n m)) * s n l
      = (∑ i, ∑ j, ∑ mm, s (e (i, mm)) k * ∑ nn, a (e (i, mm)) (e (j, nn)) * s (e (j, nn)) l)
        + ∑ i, ∑ j, ∑ mm, s (e (i, mm)) l * ∑ nn, a (e (i, mm)) (e (j, nn)) * s (e (j, nn)) k := by
  rw [real_sym, real_tiled e, real_tiled e]

/-- The coercion ℝ → EReal commutes with finite sums. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The law in the extended reals, for matrices all of whose entries are real numbers. -/
theorem ereal_law (e : T × O ≃ N) (s : N → K → EReal) (a : N → N → EReal)
    (hs : ∀ m k, ∃ r : ℝ, s m k = (r : EReal)) (ha : ∀ m n, ∃ r : ℝ, a m n = (r : EReal)) (k l : K) :
    ∑ n, (∑ m, s m k * (a m n + a n m)) * s n l
      = (∑ i, ∑ j, ∑ mm, s (e (i, mm)) k * ∑ nn, a (e (i, mm)) (e (j, nn)) * s (e (j, nn)) l)
        + ∑ i, ∑ j, ∑ mm, s (e (i, mm)) l * ∑ nn, a (e (i, mm)) (e (j, nn)) * s (e (j, nn)) k := by
  choose s' hs' using hs
  choose a' ha' using ha
  simp only [hs', ha', ← EReal.coe_mul, ← EReal.coe_add, ← coe_sum]
  exact congrArg _ (real_law e s' a' k l)

end Abstract

/-- Row tile i and offset mm name node i·1024 + mm: the 8192 nodes as 8 tiles of 1024. -/
def tileEquiv : Fin 8 × Fin 1024 ≃ Fin 8192 where
  toFun p := ⟨p.1.val * 1024 + p.2.val, by have := p.1.isLt; have := p.2.isLt; omega⟩
  invFun n := (⟨n.val / 1024, by have := n.isLt; omega⟩, ⟨n.val % 1024, Nat.mod_lt _ (by norm_num)⟩)
  left_inv p := by
    rcases p with ⟨⟨i, hi⟩, ⟨m, hm⟩⟩
    simp only [Prod.mk.injEq, Fin.mk.injEq]
    constructor <;> omega
  right_inv n := by
    rcases n with ⟨n, hn⟩
    simp only [Fin.mk.injEq]
    omega

@[simp] theorem tileEquiv_val (i : Fin 8) (mm : Fin 1024) : (tileEquiv (i, mm)).val = i.val * 1024 + mm.val := rfl

end Cert.Proof.CoarseLaw
-- ==== Proof.CoarseLaw.lean ====
/-
  The two coarsened adjacencies agree at the ideal values.

  The reference forms coarse S A (k, l) = Σ_n (Σ_m S(m,k)·(A(m,n) + A(n,m)))·S(n,l) on the host. The kernel leaves, per
  row tile i, the partial product P(i,k,l) = Σ_j Σ_mm S(i·1024+mm, k)·(Σ_nn A(i·1024+mm, j·1024+nn)·S(j·1024+nn, l)),
  and its host tail forms (0 + Σ_i P(i,k,l)) + (0 + Σ_i P(i,l,k)). When every entry of S and of A is a real number
  the two are equal: distributivity, an exchange of sums, the renaming m ↔ n in the transposed half, and the split
  of each node sum into tiles × offsets (the law of CoarseLawReal, read here at the two programs' terms).
-/
import proofs.«157597_j56573309223697_1_alg».proof.Proof.RefTerms
import proofs.«157597_j56573309223697_1_alg».proof.Proof.KerTerms
import proofs.«157597_j56573309223697_1_alg».proof.Proof.Gen.ReferenceIdeal
import proofs.«157597_j56573309223697_1_alg».proof.Proof.Gen.KernelIdeal
import proofs.«157597_j56573309223697_1_alg».proof.Proof.CoarseLawReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

namespace Cert.Proof.CoarseLaw

open Idealize.ShloMosaic Idealize.SL.Sem Idealize.ShloMosaic.ValueIdx

/-- Every entry of the array is a real number (neither infinity). -/
def IsReal {s : Shape} (v : FVec Ideal s .f32) : Prop := ∀ i, ∃ r : ℝ, v i = (r : EReal)

/-- The partial product of row tile i at clusters (k, l):
    Σ_j Σ_mm S(i·1024+mm, k)·(Σ_nn A(i·1024+mm, j·1024+nn)·S(j·1024+nn, l)). -/
def partialsAt (S : FVec Ideal ⟨2, ![8192, 64]⟩ .f32) (A : FVec Ideal ⟨2, ![8192, 8192]⟩ .f32)
    (i : Fin 8) (k l : Fin 64) : EReal :=
  ∑ j : Fin 8, ∑ mm : Fin 1024,
    S (ix2 (⟨i.val * 1024 + mm.val, by omega⟩ : Fin 8192) k)
      * ∑ nn : Fin 1024,
          A (ix2 (⟨i.val * 1024 + mm.val, by omega⟩ : Fin 8192) (⟨j.val * 1024 + nn.val, by omega⟩ : Fin 8192))
            * S (ix2 (⟨j.val * 1024 + nn.val, by omega⟩ : Fin 8192) l)

/-- The per-tile partial products as a whole [8, 64, 64] array, index by index. -/
def partials (S : FVec Ideal Cert.KernelIdeal.S8192x64 .f32) (A : FVec Ideal Cert.KernelIdeal.S8192x8192 .f32) :
    FVec Ideal Cert.KernelIdeal.S8x64x64 .f32 :=
  fun (j : (⟨3, ![8, 64, 64]⟩ : Shape).Idx) => partialsAt S A (j 0) (j 1) (j 2)

/-- The partial products read at (i, k, l). -/
theorem partials_apply (S : FVec Ideal Cert.KernelIdeal.S8192x64 .f32) (A : FVec Ideal Cert.KernelIdeal.S8192x8192 .f32)
    (i : Fin 8) (k l : Fin 64) :
    partials S A (ix3 i k l)
      = ∑ j : Fin 8, ∑ mm : Fin 1024,
          S (ix2 (⟨i.val * 1024 + mm.val, by omega⟩ : Fin 8192) k)
            * ∑ nn : Fin 1024,
                A (ix2 (⟨i.val * 1024 + mm.val, by omega⟩ : Fin 8192) (⟨j.val * 1024 + nn.val, by omega⟩ : Fin 8192))
                  * S (ix2 (⟨j.val * 1024 + nn.val, by omega⟩ : Fin 8192) l) := rfl

/-- The reference's coarsened adjacency read at (k, l): two host products, a transpose and a sum, each read at an
    index. -/
theorem coarse_apply (S : FVec Ideal Cert.ReferenceIdeal.S8192x64 .f32) (A : FVec Ideal Cert.ReferenceIdeal.S8192x8192 .f32)
    (k l : Fin 64) :
    Cert.ReferenceIdeal.Terms.coarse (F := Ideal) S A (ix2 k l)
      = ∑ n : Fin 8192, (∑ m : Fin 8192, S (ix2 m k) * (A (ix2 m n) + A (ix2 n m))) * S (ix2 n l) := by
  unfold Cert.ReferenceIdeal.Terms.coarse
  refine (StackMember.dotGeneral_plain_apply none _ S k l).trans ?_
  refine Finset.sum_congr rfl fun n _ => ?_
  refine congrArg (· * S (ix2 n l)) ?_
  refine (StackMember.dotGeneral_plain_apply none _ _ k n).trans ?_
  refine Finset.sum_congr rfl fun m _ => ?_
  rw [transpose_ix2_apply, addf_apply, transpose_ix2_apply]

/-- The host's sum over the leading axis of a [G, m, n] array from an initial value that is zero, read at (a, b):
    the sum over g of the entries at (g, a, b). -/
theorem hostReduceAdd_axis0_apply {G m n : Nat} {u : Shape} (X : FVec Ideal ⟨3, ![G, m, n]⟩ .f32) (init : u.Idx → Ideal .f32)
    (h' : (⟨3, ![G, m, n]⟩ : Shape).ReducesTo [0] ⟨2, ![m, n]⟩) (hu : 0 < u.numel) (h0 : init (Shape.Idx.first hu) = 0)
    (a : Fin m) (b : Fin n) :
    Host.reduceAdd X init h' hu (ix2 a b) = ∑ g : Fin G, X (ix3 g a b) := by
  have h : (⟨3, ![G, m, n]⟩ : Shape).Reduces [0] ⟨2, ![m, n]⟩ := ⟨h'.1, Nat.two_pos, h'.2⟩
  show Ideal.hostReduceAdd h' X _ (ix2 a b) = _
  rw [Ideal.hostReduceAdd_single h' h, h0, zero_add]
  refine Finset.sum_congr rfl fun g _ => congrArg X (funext fun c => Fin.ext ?_)
  match c with
  | ⟨0, _⟩ => rfl
  | ⟨1, _⟩ => rfl
  | ⟨2, _⟩ => rfl

/-- The kernel's host tail read at (k, l): the tile sum at (k, l) plus the tile sum at (l, k). -/
theorem symSum_apply (P : FVec Ideal Cert.KernelIdeal.S8x64x64 .f32) (k l : Fin 64) :
    Cert.KernelIdeal.Terms.symSum (F := Ideal) P (ix2 k l)
      = (∑ i : Fin 8, P (ix3 i k l)) + ∑ i : Fin 8, P (ix3 i l k) := by
  unfold Cert.KernelIdeal.Terms.symSum
  rw [addf_apply, transpose_ix2_apply,
    hostReduceAdd_axis0_apply P _ _ _ Ideal.ofBits_zero_f32 k l,
    hostReduceAdd_axis0_apply P _ _ _ Ideal.ofBits_zero_f32 l k]

/-- The law: for real-valued S and A the reference's coarsened adjacency is the kernel's T + Tᵀ of the per-tile
    partial products. -/
theorem coarse_eq_symSum (S : FVec Ideal Cert.ReferenceIdeal.S8192x64 .f32) (A : FVec Ideal Cert.ReferenceIdeal.S8192x8192 .f32)
    (hS : IsReal S) (hA : IsReal A) :
    Cert.ReferenceIdeal.Terms.coarse (F := Ideal) S A = Cert.KernelIdeal.Terms.symSum (F := Ideal) (partials S A) := by
  funext j
  obtain ⟨k, l, rfl⟩ : ∃ (k l : Fin 64), j = ix2 k l := ⟨j 0, j 1, eq_ix2 j⟩
  rw [coarse_apply, symSum_apply]
  exact ereal_law tileEquiv (fun m k => S (ix2 m k)) (fun m n => A (ix2 m n)) (fun m k => hS _) (fun m n => hA _) k l

end Cert.Proof.CoarseLaw

end
-- ==== Proof.KValue.lean ====
/-
  The kernel region's value at the ideal values: the array of per-tile partial products.

  With (i, j) = (t / 8, t % 8) the coordinates of grid point t, the three input blocks at t are rows i·1024 … of the
  assignment matrix S, tile (i, j) of the adjacency A, and rows j·1024 … of S. The accumulator after point 8i + j holds
  Σ_{j' ≤ j} Σ_mm S(i·1024+mm, k)·Σ_nn A(i·1024+mm, j'·1024+nn)·S(j'·1024+nn, l) (by induction on the point: reset to
  zero where j = 0, one more tile product added at every point), so the block written back at point 8i + 7 is row tile
  i of the partial products, and the blocks written back cover the array.
-/
import proofs.«157597_j56573309223697_1_alg».proof.Proof.KBody
import proofs.«157597_j56573309223697_1_alg».proof.Proof.KPay
import proofs.«157597_j56573309223697_1_alg».proof.Proof.CoarseLaw
import Idealize.ShloMosaic.Lib.Pipeline.Value

set_option maxRecDepth 16384

noncomputable section

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen
open Cert.Proof.CoarseLaw (partials partials_apply)

variable (m : (ℓ : Loc nD τ sig) → Buf (Elt Ideal) ℓ)

/-! ## The grid point's coordinates and the blocks -/

theorem point_lt (t : Fin cfg0.N) : t.val < 64 := lt_of_lt_of_eq t.isLt N_0

/-- The row tile of grid point t. -/
def rowTile (t : Fin cfg0.N) : Fin 8 := ⟨t.val / 8, by have := point_lt t; omega⟩
/-- The column tile of grid point t. -/
def colTile (t : Fin cfg0.N) : Fin 8 := ⟨t.val % 8, Nat.mod_lt _ (by norm_num)⟩

/-- The windows' block indices over the grid: (i, 0), (i, j), (j, 0) for the inputs and (i, 0, 0) for the output. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The assignment matrix and the adjacency as the region finds them. -/
abbrev Sarr (c : Dev nD) : FVec Ideal S8192x64 .f32 := V m c main_v33
abbrev Aarr (c : Dev nD) : FVec Ideal S8192x8192 .f32 := V m c main_v18

/-- The first input block at point t: rows i·1024 … of S. -/
theorem iblk0_apply (c : Dev nD) (t : Fin cfg0.N) (mm : Fin 1024) (k : Fin 64) :
    (iblk m c 0 t : Vec Ideal S1024x64 .f32) (ix2 mm k)
      = Sarr m c (ix2 (⟨(rowTile t).val * 1024 + mm.val, by omega⟩ : Fin 8192) k) := by
  obtain ⟨e0, e1, -⟩ := idx_facts t
  unfold iblk
  rw [View.read_apply]
  show V m c main_v33 _ = V m c main_v33 _
  congr 1
  funext a
  apply Fin.ext
  match a with
  | ⟨0, _⟩ => show win0_0.index t 0 * 1024 + 1 * mm.val = t.val / 8 * 1024 + mm.val; rw [e0]; omega
  | ⟨1, _⟩ => show win0_0.index t 1 * 64 + 1 * k.val = k.val; rw [e1]; omega

/-- The second input block at point t: tile (i, j) of A. -/
theorem iblk1_apply (c : Dev nD) (t : Fin cfg0.N) (mm nn : Fin 1024) :
    (iblk m c 1 t : Vec Ideal S1024x1024 .f32) (ix2 mm nn)
      = Aarr m c (ix2 (⟨(rowTile t).val * 1024 + mm.val, by omega⟩ : Fin 8192) (⟨(colTile t).val * 1024 + nn.val, by omega⟩ : Fin 8192)) := by
  obtain ⟨-, -, e0, e1, -⟩ := idx_facts t
  unfold iblk
  rw [View.read_apply]
  show V m c main_v18 _ = V m c main_v18 _
  congr 1
  funext a
  apply Fin.ext
  match a with
  | ⟨0, _⟩ => show win0_1.index t 0 * 1024 + 1 * mm.val = t.val / 8 * 1024 + mm.val; rw [e0]; omega
  | ⟨1, _⟩ => show win0_1.index t 1 * 1024 + 1 * nn.val = t.val % 8 * 1024 + nn.val; rw [e1]; omega

/-- The third input block at point t: rows j·1024 … of S. -/
theorem iblk2_apply (c : Dev nD) (t : Fin cfg0.N) (nn : Fin 1024) (l : Fin 64) :
    (iblk m c 2 t : Vec Ideal S1024x64 .f32) (ix2 nn l)
      = Sarr m c (ix2 (⟨(colTile t).val * 1024 + nn.val, by omega⟩ : Fin 8192) l) := by
  obtain ⟨-, -, -, -, e0, e1, -⟩ := idx_facts t
  unfold iblk
  rw [View.read_apply]
  show V m c main_v33 _ = V m c main_v33 _
  congr 1
  funext a
  apply Fin.ext
  match a with
  | ⟨0, _⟩ => show win0_2.index t 0 * 1024 + 1 * nn.val = t.val % 8 * 1024 + nn.val; rw [e0]; omega
  | ⟨1, _⟩ => show win0_2.index t 1 * 64 + 1 * l.val = l.val; rw [e1]; omega

/-! ## The accumulation -/

/-- One tile product: Σ_mm S(i·1024+mm, k)·Σ_nn A(i·1024+mm, j·1024+nn)·S(j·1024+nn, l). -/
def tileTerm (S : FVec Ideal S8192x64 .f32) (A : FVec Ideal S8192x8192 .f32) (i j : Fin 8) (k l : Fin 64) : EReal :=
  ∑ mm : Fin 1024,
    S (ix2 (⟨i.val * 1024 + mm.val, by omega⟩ : Fin 8192) k)
      * ∑ nn : Fin 1024,
          A (ix2 (⟨i.val * 1024 + mm.val, by omega⟩ : Fin 8192) (⟨j.val * 1024 + nn.val, by omega⟩ : Fin 8192))
            * S (ix2 (⟨j.val * 1024 + nn.val, by omega⟩ : Fin 8192) l)

/-- The tile products of row tile i summed over the column tiles j ≤ n. -/
def accSum (S : FVec Ideal S8192x64 .f32) (A : FVec Ideal S8192x8192 .f32) (i : Fin 8) (n : ℕ) (k l : Fin 64) : EReal :=
  ∑ j ∈ Finset.univ.filter (fun j : Fin 8 => j.val ≤ n), tileTerm S A i j k l

theorem accSum_zero (S : FVec Ideal S8192x64 .f32) (A : FVec Ideal S8192x8192 .f32) (i : Fin 8) (k l : Fin 64) :
    accSum S A i 0 k l = tileTerm S A i 0 k l := by
  unfold accSum
  have : (Finset.univ.filter fun j : Fin 8 => j.val ≤ 0) = {0} := by
    ext j
    rw [Finset.mem_filter, Finset.mem_singleton, Fin.ext_iff]
    show (j ∈ Finset.univ ∧ j.val ≤ 0) ↔ j.val = 0
    have := Finset.mem_univ j
    constructor
    · rintro ⟨-, h⟩; omega
    · intro h; exact ⟨this, by omega⟩
  rw [this, Finset.sum_singleton]

theorem accSum_succ (S : FVec Ideal S8192x64 .f32) (A : FVec Ideal S8192x8192 .f32) (i : Fin 8) (n : ℕ) (hn : n + 1 < 8)
    (k l : Fin 64) :
    accSum S A i (n + 1) k l = accSum S A i n k l + tileTerm S A i ⟨n + 1, hn⟩ k l := by
  unfold accSum
  have : (Finset.univ.filter fun j : Fin 8 => j.val ≤ n + 1)
      = insert (⟨n + 1, hn⟩ : Fin 8) (Finset.univ.filter fun j : Fin 8 => j.val ≤ n) := by
    ext j
    rw [Finset.mem_insert, Finset.mem_filter, Finset.mem_filter, Fin.ext_iff]
    show (j ∈ Finset.univ ∧ j.val ≤ n + 1) ↔ (j.val = n + 1 ∨ (j ∈ Finset.univ ∧ j.val ≤ n))
    have := Finset.mem_univ j
    constructor
    · rintro ⟨-, h⟩
      by_cases h' : j.val = n + 1
      · exact Or.inl h'
      · exact Or.inr ⟨this, by omega⟩
    · rintro (h | ⟨-, h⟩)
      · exact ⟨this, by omega⟩
      · exact ⟨this, by omega⟩
  have hnot : (⟨n + 1, hn⟩ : Fin 8) ∉ Finset.univ.filter fun j : Fin 8 => j.val ≤ n := by
    rw [Finset.mem_filter]
    rintro ⟨-, h⟩
    exact absurd h (by show ¬ (n + 1 ≤ n); omega)
  rw [this, Finset.sum_insert hnot, add_comm]

theorem accSum_seven (S : FVec Ideal S8192x64 .f32) (A : FVec Ideal S8192x8192 .f32) (i : Fin 8) (k l : Fin 64) :
    accSum S A i 7 k l = ∑ j : Fin 8, tileTerm S A i j k l := by
  unfold accSum
  have : (Finset.univ.filter fun j : Fin 8 => j.val ≤ 7) = Finset.univ := by
    ext j
    rw [Finset.mem_filter]
    have := Finset.mem_univ j
    have hj := j.isLt
    exact ⟨fun _ => this, fun _ => ⟨this, by omega⟩⟩
  rw [this]

/-- What a point's store leaves at (k, l): the accumulator's entry plus the point's tile product. -/
theorem pay2_point (c : Dev nD) (t : Fin cfg0.N) (acc : Vec Ideal S64x64 .f32) (k l : Fin 64) :
    k0_pay2 (F := Ideal) (iblk m c 1 t) (iblk m c 2 t) (iblk m c 0 t) acc (ix2 k l)
      = acc (ix2 k l) + tileTerm (Sarr m c) (Aarr m c) (rowTile t) (colTile t) k l := by
  refine (pay2_apply _ _ _ _ k l).trans ?_
  refine congrArg (acc (ix2 k l) + ·) ?_
  unfold tileTerm
  refine Finset.sum_congr rfl fun mm _ => ?_
  refine congr (congrArg HMul.hMul (iblk0_apply m c t mm k)) ?_
  refine Finset.sum_congr rfl fun nn _ => ?_
  exact congr (congrArg HMul.hMul (iblk1_apply m c t mm nn)) (iblk2_apply m c t nn l)

/-- The accumulator after point n holds the tile products of its row tile summed over the column tiles up to its own. -/
theorem scratch_value (c : Dev nD) : ∀ (n : ℕ) (hn : n < cfg0.N) (k l : Fin 64),
    ((outsAt0 m c n hn).2 : Vec Ideal S64x64 .f32) (ix2 k l)
      = accSum (Sarr m c) (Aarr m c) (rowTile ⟨n, hn⟩) (n % 8) k l := by
  intro n
  induction n with
  | zero =>
    intro hn k l
    rw [scratch_first m c ⟨0, hn⟩ rfl, pay2_point, pay1_apply, zero_add, accSum_zero]
    rfl
  | succ n ih =>
    intro hn k l
    have hN : n + 1 < 64 := lt_of_lt_of_eq hn N_0
    by_cases h0 : (n + 1) % 8 = 0
    · rw [scratch_first m c ⟨n + 1, hn⟩ h0, pay2_point, pay1_apply, zero_add, h0, accSum_zero]
      exact congrArg (fun j => tileTerm (Sarr m c) (Aarr m c) (rowTile ⟨n + 1, hn⟩) j k l) (Fin.ext h0)
    · rw [scratch_step m c ⟨n + 1, hn⟩ h0, pay2_point]
      show ((outsAt0 m c n _).2 : Vec Ideal S64x64 .f32) (ix2 k l) + _ = _
      rw [ih (Nat.lt_of_succ_lt hn) k l]
      have hr : rowTile ⟨n, Nat.lt_of_succ_lt hn⟩ = rowTile ⟨n + 1, hn⟩ := Fin.ext (by show n / 8 = (n + 1) / 8; omega)
      have hm : (n + 1) % 8 = n % 8 + 1 := by omega
      have hlt : n % 8 + 1 < 8 := by omega
      rw [hr, hm, accSum_succ _ _ _ _ hlt]
      exact congrArg (accSum (Sarr m c) (Aarr m c) (rowTile ⟨n + 1, hn⟩) (n % 8) k l + ·)
        (congrArg (fun j => tileTerm (Sarr m c) (Aarr m c) (rowTile ⟨n + 1, hn⟩) j k l) (Fin.ext hm))

/-! ## The array -/

/-- What a point with j = 7 writes back: row tile i of the partial products. -/
theorem flushed_eq (c : Dev nD) (t : Fin cfg0.N) (hf : (cfg0.win 3).flush t = true) :
    (dats m 0 c).flushed 3 t = ((cfg0.win 3).blk t).view.read (Elt Ideal) (partials (Sarr m c) (Aarr m c)) := by
  have h7 : t.val % 8 = 7 := (flush0_3 t).mp hf
  obtain ⟨-, -, -, -, -, -, e0, e1, e2⟩ := idx_facts t
  show (cfg0.win 3).cut (grid0.coords t) ((dats m 0 c).after 3 t) = _
  rw [after0_3, out_last m c t h7]
  funext y
  obtain ⟨y0, k, l, rfl⟩ : ∃ (y0 : Fin 1) (k l : Fin 64), y = ix3 y0 k l := ⟨y 0, y 1, y 2, eq_ix3 y⟩
  obtain rfl : y0 = 0 := Subsingleton.elim _ _
  rw [View.read_apply]
  have hemb : ((cfg0.win 3).blk t).view.emb (ix3 (0 : Fin 1) k l) = ix3 (rowTile t) k l := by
    funext a
    apply Fin.ext
    match a with
    | ⟨0, _⟩ => show win0_3.index t 0 * 1 + 1 * 0 = t.val / 8; rw [e0]; omega
    | ⟨1, _⟩ => show win0_3.index t 1 * 64 + 1 * k.val = k.val; rw [e1]; omega
    | ⟨2, _⟩ => show win0_3.index t 2 * 64 + 1 * l.val = l.val; rw [e2]; omega
  rw [hemb]
  show k0_pay3 (F := Ideal) (outsAt0 m c t.val t.isLt).2 (ix3 0 k l) = partials (Sarr m c) (Aarr m c) (ix3 (rowTile t) k l)
  rw [pay3_apply, scratch_value m c t.val t.isLt k l, h7, accSum_seven]
  rfl

/-- An index of the array is in point t's block iff each coordinate is in the block's range on its axis. -/
theorem mem_blk3 (t : Fin cfg0.N) (i : S8x64x64.Idx) :
    i ∈ ((cfg0.win 3).blk t).view.set ↔ ∀ a : Fin 3, win0_3.index t a * S1x64x64.size a ≤ (i a).val ∧ (i a).val < win0_3.index t a * S1x64x64.size a + S1x64x64.size a := by
  show i ∈ ((View.whole main_v40).slice (win0_3.rect t)).set ↔ _
  rw [View.set_slice_whole, Rect.mem_set_unit]
  exact Iff.rfl

/-- THE REGION'S VALUE: the result array ends holding the per-tile partial products of S and A. -/
theorem out_value (c : Dev nD) :
    (dats (F := Ideal) m 0 c).arrAt 3 cfg0.N = partials (V m c main_v33) (V m c main_v18) :=
  (dats m 0 c).arrAt_eq_of_cover 3 (partials (Sarr m c) (Aarr m c)) (flushed_eq m c) fun i => by
    have h0 : (i 0).val < 8 := (i 0).isLt
    have h1 : (i 1).val < 64 := (i 1).isLt
    have h2 : (i 2).val < 64 := (i 2).isLt
    have hN : cfg0.N = 64 := N_0
    refine ⟨⟨8 * (i 0).val + 7, by omega⟩, (flush0_3 _).mpr (by show (8 * (i 0).val + 7) % 8 = 7; omega), ?_⟩
    obtain ⟨-, -, -, -, -, -, e0, e1, e2⟩ := idx_facts ⟨8 * (i 0).val + 7, by omega⟩
    rw [mem_blk3]
    intro a
    match a with
    | ⟨0, _⟩ => show win0_3.index _ 0 * 1 ≤ (i 0).val ∧ (i 0).val < win0_3.index _ 0 * 1 + 1; rw [e0]; show (8 * (i 0).val + 7) / 8 * 1 ≤ _ ∧ _ < (8 * (i 0).val + 7) / 8 * 1 + 1; omega
    | ⟨1, _⟩ => show win0_3.index _ 1 * 64 ≤ (i 1).val ∧ (i 1).val < win0_3.index _ 1 * 64 + 64; rw [e1]; omega
    | ⟨2, _⟩ => show win0_3.index _ 2 * 64 ≤ (i 2).val ∧ (i 2).val < win0_3.index _ 2 * 64 + 64; rw [e2]; omega

end Cert.KernelIdeal.Fr

end
-- ==== Proof.TermsEq.lean ====
/-
  The two programs' vocabularies name the same functions: each term of the kernel program's host side is, definition by
  definition, the reference's term of the same name — the shapes are the same literals, the dimension records have the same
  fields, and the side conditions are propositions.
-/
import proofs.«157597_j56573309223697_1_alg».proof.Proof.RefTerms
import proofs.«157597_j56573309223697_1_alg».proof.Proof.KerTerms
import proofs.«157597_j56573309223697_1_alg».proof.Proof.Gen.ReferenceIdeal
import proofs.«157597_j56573309223697_1_alg».proof.Proof.Gen.KernelIdeal

noncomputable section

namespace Cert.Proof.TermsEq

open Idealize.ShloMosaic Cert.ReferenceIdeal

variable {F : FTy → Type} [FloatOps F]

theorem logits_eq (x : FVec F S8192x256 .f32) (Wa : FVec F S256x64 .f32) (ba : FVec F S64 .f32) :
    Cert.KernelIdeal.Terms.logits x Wa ba = Cert.ReferenceIdeal.Terms.logits x Wa ba := rfl

theorem expShift_eq (z : FVec F S8192x64 .f32) :
    Cert.KernelIdeal.Terms.expShift z = Cert.ReferenceIdeal.Terms.expShift z := rfl

theorem softmaxRows_eq (z : FVec F S8192x64 .f32) :
    Cert.KernelIdeal.Terms.softmaxRows z = Cert.ReferenceIdeal.Terms.softmaxRows z := rfl

theorem assign_eq (x : FVec F S8192x256 .f32) (Wa : FVec F S256x64 .f32) (ba : FVec F S64 .f32) :
    Cert.KernelIdeal.Terms.assign x Wa ba = Cert.ReferenceIdeal.Terms.assign x Wa ba := rfl

theorem feat_eq (x : FVec F S8192x256 .f32) (Wf : FVec F S256x256 .f32) (bf : FVec F S256 .f32) :
    Cert.KernelIdeal.Terms.feat x Wf bf = Cert.ReferenceIdeal.Terms.feat x Wf bf := rfl

theorem pooled_eq (S : FVec F S8192x64 .f32) (X : FVec F S8192x256 .f32) :
    Cert.KernelIdeal.Terms.pooled S X = Cert.ReferenceIdeal.Terms.pooled S X := rfl

theorem wrapRow_eq (r : IVec S262144 32) :
    Cert.KernelIdeal.Terms.wrapRow r = Cert.ReferenceIdeal.Terms.wrapRow r := rfl

theorem edgePairs_eq (ei : IVec S2x262144 32) :
    Cert.KernelIdeal.Terms.edgePairs ei = Cert.ReferenceIdeal.Terms.edgePairs ei := rfl

theorem adj_eq (ei : IVec S2x262144 32) (ew : FVec F S262144 .f32) :
    Cert.KernelIdeal.Terms.adj ei ew = Cert.ReferenceIdeal.Terms.adj ei ew := rfl

theorem sizes_eq (S : FVec F S8192x64 .f32) :
    Cert.KernelIdeal.Terms.sizes S = Cert.ReferenceIdeal.Terms.sizes S := rfl

/-- The four literal tables of the off-diagonal index pairs have the same entries in both programs. -/
theorem lit0_eq : Cert.KernelIdeal.lit0 = Cert.ReferenceIdeal.lit0 := rfl
theorem lit1_eq : Cert.KernelIdeal.lit1 = Cert.ReferenceIdeal.lit1 := rfl
theorem lit2_eq : Cert.KernelIdeal.lit2 = Cert.ReferenceIdeal.lit2 := rfl
theorem lit3_eq : Cert.KernelIdeal.lit3 = Cert.ReferenceIdeal.lit3 := rfl

theorem pairRows_eq : Cert.KernelIdeal.Terms.pairRows = Cert.ReferenceIdeal.Terms.pairRows := by
  unfold Cert.KernelIdeal.Terms.pairRows Cert.ReferenceIdeal.Terms.pairRows
  rw [lit0_eq, lit1_eq]

theorem wrapIdx_eq (r : IVec S4032 32) :
    Cert.KernelIdeal.Terms.wrapIdx r = Cert.ReferenceIdeal.Terms.wrapIdx r := rfl

theorem pairCols_eq : Cert.KernelIdeal.Terms.pairCols = Cert.ReferenceIdeal.Terms.pairCols := by
  unfold Cert.KernelIdeal.Terms.pairCols Cert.ReferenceIdeal.Terms.pairCols
  rw [lit2_eq, lit3_eq]
  simp only [wrapIdx_eq]

theorem offDiag_eq (M : FVec F S64x64 .f32) (S : FVec F S8192x64 .f32) :
    Cert.KernelIdeal.Terms.offDiag M S = Cert.ReferenceIdeal.Terms.offDiag M S := by
  unfold Cert.KernelIdeal.Terms.offDiag Cert.ReferenceIdeal.Terms.offDiag
  rw [pairCols_eq, sizes_eq]
  rfl

end Cert.Proof.TermsEq

end
-- ==== Proof.FiniteBase.lean ====
/-
  Real-valued arrays at the ideal instance: an entry of an extended-real array is a REAL when it is the
  coercion of a real number (neither +∞ nor −∞). The lemmas here say which operations keep every entry
  real: re-indexing, sums, differences, products, finite sums, contractions, a maximum over a nonempty
  finite family, the exponential (which is moreover positive), and a quotient by a nonzero real.
-/
import Idealize.ShloMosaic.PureOps.Ideal.Laws
import Idealize.ShloMosaic.Lib.IdealHost

noncomputable section

namespace Cert.Proof.Finite

open Idealize.ShloMosaic
open scoped BigOperators

/-- Every entry of the array is (the coercion of) a real number. -/
def IsReal {s : Shape} (v : FVec Ideal s .f32) : Prop := ∀ i, ∃ r : ℝ, v i = (r : EReal)

/-- Every entry of the array is a positive real number. -/
def IsPos {s : Shape} (v : FVec Ideal s .f32) : Prop := ∀ i, ∃ r : ℝ, 0 < r ∧ v i = (r : EReal)

theorem IsPos.isReal {s : Shape} {v : FVec Ideal s .f32} (h : IsPos v) : IsReal v :=
  fun i => let ⟨r, _, e⟩ := h i; ⟨r, e⟩

/-! ### Scalars -/

/-- A finite sum of coerced reals is the coercion of the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- An extended real that is neither infinity is a real. -/
theorem real_of_ne {x : EReal} (h1 : x ≠ ⊤) (h2 : x ≠ ⊥) : ∃ r : ℝ, x = (r : EReal) :=
  ⟨x.toReal, (EReal.coe_toReal h1 h2).symm⟩

/-- The maximum of −∞ and of a nonempty finite family of reals is a real. -/
theorem fold_max_real {n : Nat} (hn : 0 < n) (f : Fin n → EReal) (hf : ∀ k, ∃ r : ℝ, f k = (r : EReal)) :
    ∃ r : ℝ, (Finset.univ : Finset (Fin n)).fold max (⊥ : EReal) f = (r : EReal) := by
  refine real_of_ne (ne_of_lt ?_) (ne_of_gt ?_)
  · rw [Finset.fold_max_lt]
    exact ⟨bot_lt_top, fun k _ => by obtain ⟨r, e⟩ := hf k; rw [e]; exact EReal.coe_lt_top r⟩
  · obtain ⟨r, e⟩ := hf ⟨0, hn⟩
    refine lt_of_lt_of_le (EReal.bot_lt_coe r) ?_
    rw [Finset.le_fold_max]
    exact Or.inr ⟨⟨0, hn⟩, Finset.mem_univ _, e.ge⟩

/-! ### Arrays -/

variable {s t : Shape}

/-- A broadcast only re-indexes: each entry of the result is an entry of the operand. -/
theorem IsReal.broadcastInDim {v : FVec Ideal s .f32} (hv : IsReal v) (dims : Fin s.rank → Fin t.rank)
    (h : s.BroadcastsInDim t dims) : IsReal (broadcastInDim t dims h v) :=
  fun _ => hv _

theorem IsPos.broadcastInDim {v : FVec Ideal s .f32} (hv : IsPos v) (dims : Fin s.rank → Fin t.rank)
    (h : s.BroadcastsInDim t dims) : IsPos (broadcastInDim t dims h v) :=
  fun _ => hv _

/-- Any re-indexing of a real array is real. -/
theorem IsReal.reindex {v : FVec Ideal s .f32} (hv : IsReal v) (g : t.Idx → s.Idx) :
    IsReal (s := t) (fun j => v (g j)) :=
  fun _ => hv _

/-- A transpose only re-indexes. -/
theorem IsReal.transpose {v : FVec Ideal s .f32} (hv : IsReal v) (perm : List (Fin s.rank)) (h : s.Transposes perm t) :
    IsReal (transpose t perm v h) :=
  fun _ => hv _

/-- A reshape only re-indexes. -/
theorem IsReal.shapeCast {v : FVec Ideal s .f32} (hv : IsReal v) (h : s.ShapeCasts t) : IsReal (shapeCast t v h) :=
  fun _ => hv _

/-- The entrywise product of two real arrays is real. -/
theorem IsReal.mulf {a b : FVec Ideal s .f32} (ha : IsReal a) (hb : IsReal b) : IsReal (mulf a b) := fun i => by
  obtain ⟨x, hx⟩ := ha i; obtain ⟨y, hy⟩ := hb i
  exact ⟨x * y, by show a i * b i = _; rw [hx, hy, EReal.coe_mul]⟩

/-- The sum of two real arrays is real. -/
theorem IsReal.addf {a b : FVec Ideal s .f32} (ha : IsReal a) (hb : IsReal b) : IsReal (addf a b) := fun i => by
  obtain ⟨x, hx⟩ := ha i; obtain ⟨y, hy⟩ := hb i
  exact ⟨x + y, by show a i + b i = _; rw [hx, hy, EReal.coe_add]⟩

/-- The difference of two real arrays is real. -/
theorem IsReal.subf {a b : FVec Ideal s .f32} (ha : IsReal a) (hb : IsReal b) : IsReal (subf a b) := fun i => by
  obtain ⟨x, hx⟩ := ha i; obtain ⟨y, hy⟩ := hb i
  exact ⟨x - y, by show a i - b i = _; rw [hx, hy, EReal.coe_sub]⟩

/-- The maximum of −∞ and a real array is that array, hence real. -/
theorem IsReal.maximumf_left {a b : FVec Ideal s .f32} (hb : IsReal b) (ha : ∀ i, a i = ⊥) : IsReal (maximumf a b) := fun i => by
  obtain ⟨y, hy⟩ := hb i
  exact ⟨y, by show max (a i) (b i) = _; rw [ha i, hy]; exact max_eq_right bot_le⟩

/-- A contraction of two real arrays is real: each entry is a finite sum of products of reals. -/
theorem IsReal.dotGeneral {sl sr so : Shape} (d : DotDims sl sr so) {a : FVec Ideal sl .f32} {b : FVec Ideal sr .f32}
    (ha : IsReal a) (hb : IsReal b) : IsReal (Host.dotGeneral (F := Ideal) d none a b) := fun j => by
  choose fa hfa using ha
  choose fb hfb using hb
  refine ⟨∑ k : d.contr.Idx, fa (d.lhsIdx j k) * fb (d.rhsIdx j k), ?_⟩
  refine (Ideal.dotGeneral_apply d none .single a b j).trans ?_
  rw [← coe_sum]
  exact Finset.sum_congr rfl fun k _ => by rw [hfa, hfb, EReal.coe_mul]

/-- The exponential of a real array is a positive real array. -/
theorem IsReal.exp {a : FVec Ideal s .f32} (ha : IsReal a) : IsPos (Host.exp a) := fun i => by
  obtain ⟨x, hx⟩ := ha i
  exact ⟨Real.exp x, Real.exp_pos x, by show Ideal.exp (a i) = _; rw [hx]; rfl⟩

/-- The quotient of a real array by a positive real array is real. -/
theorem IsReal.divf {a b : FVec Ideal s .f32} (ha : IsReal a) (hb : IsPos b) : IsReal (Host.divf a b) := fun i => by
  obtain ⟨x, hx⟩ := ha i; obtain ⟨y, hy0, hy⟩ := hb i
  refine ⟨x * (1 / y), ?_⟩
  show Ideal.div (a i) (b i) = _
  rw [hx, hy, Ideal.div_coe (ne_of_gt hy0), EReal.coe_mul]

/-- A sum along one nonempty axis, from the initial value zero, of a positive real array is a positive real array. -/
theorem IsPos.reduceAdd_single {u : Shape} {ax : Fin s.rank} {a : FVec Ideal s .f32} (ha : IsPos a)
    (init : u.Idx → EReal) (h' : s.ReducesTo [ax] t) (h : s.Reduces [ax] t) (hu : 0 < u.numel)
    (hinit : init (Shape.Idx.first hu) = 0) (hn : 0 < s.size ax) :
    IsPos (Host.reduceAdd (F := Ideal) a init h' hu) := fun j => by
  choose f hf0 hf using ha
  refine ⟨∑ k : Fin (s.size ax), f (h.lift j k), ?_, ?_⟩
  · haveI : Nonempty (Fin (s.size ax)) := ⟨⟨0, hn⟩⟩
    exact Finset.sum_pos (fun k _ => hf0 _) Finset.univ_nonempty
  · refine (ValueIdx.hostReduceAdd_apply a init h' hu j).trans ?_
    rw [Ideal.hostReduceAdd_single h' h, hinit, zero_add, ← coe_sum]
    exact Finset.sum_congr rfl fun k _ => hf _

/-- The maximum, from −∞, along one nonempty axis of a real array is a real array. -/
theorem IsReal.reduce_max_single {u : Shape} {ax : Fin s.rank} {a : FVec Ideal s .f32} (ha : IsReal a)
    (init : u.Idx → EReal) (h' : s.ReducesTo [ax] t) (h : s.Reduces [ax] t) (hu : 0 < u.numel)
    (hinit : init (Shape.Idx.first hu) = ⊥) (hn : 0 < s.size ax) :
    IsReal (Host.reduce (FloatOps.maximumf (F := Ideal) (φ := .f32)) a init h' hu) := fun j => by
  rw [Host.reduce_eq_fold_single _ a init h' h hu j, hinit]
  exact fold_max_real hn _ fun k => ha _

end Cert.Proof.Finite

end
-- ==== Proof.FiniteScatter.lean ====
/-
  The scattered adjacency is real: a last-write-wins scatter of real updates into a real operand leaves,
  at every cell, either the operand's entry or one of the updates, whatever the indices are (repeated or
  out of range); the operand here is the zero matrix.
-/
import proofs.«157597_j56573309223697_1_alg».proof.Proof.RefTerms
import proofs.«157597_j56573309223697_1_alg».proof.Proof.Gen.ReferenceIdeal
import proofs.«157597_j56573309223697_1_alg».proof.Proof.FiniteBase

noncomputable section

namespace Cert.Proof.Finite

open Idealize.ShloMosaic Cert.ReferenceIdeal
open Cert.ReferenceIdeal.Facts₀ Cert.ReferenceIdeal.Facts

/-- The zero constant of any shape is real. -/
theorem isReal_constant_zero (s : Shape) : IsReal (constant (F := Ideal) s .f32 0x00000000#32) := fun _ =>
  ⟨0, by show Ideal.ofBits .f32 0x00000000#32 = _; rw [Ideal.ofBits_zero_f32, EReal.coe_zero]⟩

/-- A scatter whose body returns the update (a write), of real updates into a real operand, is real: by induction
    over the updates in the order they are applied, each step leaving every cell real. No assumption on the indices. -/
theorem IsReal.scatter_set {s si u : Shape} {w : Nat} (d : ScatterDims s si u) (idx : IVec si w)
    {upd : FVec Ideal u .f32} (hupd : IsReal upd) {x : FVec Ideal s .f32} (hx : IsReal x) :
    IsReal (Host.scatter d (fun _ b => b) x idx upd) := by
  unfold Host.scatter
  generalize List.finRange u.numel = l
  induction l generalizing x with
  | nil => exact hx
  | cons n l ih =>
    rw [List.foldl_cons]
    refine ih ?_
    intro i'
    generalize d.resultIdx? (u.rowMajor.symm n) idx = o
    cases o with
    | none => exact hx i'
    | some i =>
      show ∃ r : ℝ, (if i' = i then upd (u.rowMajor.symm n) else x i') = (r : EReal)
      split_ifs
      · exact hupd _
      · exact hx i'

/-- Every entry of the dense adjacency is a real number when the edge weights are. -/
theorem adj_real (ei : IVec S2x262144 32) (ew : FVec Ideal S262144 .f32) (hew : IsReal ew) :
    IsReal (Cert.ReferenceIdeal.Terms.adj (F := Ideal) ei ew) := by
  unfold Cert.ReferenceIdeal.Terms.adj
  exact IsReal.scatter_set _ _ hew ((isReal_constant_zero S_).broadcastInDim _ _)

end Cert.Proof.Finite

end
-- ==== Proof.FiniteSoftmax.lean ====
/-
  The assignment matrix is real: the logits x·Wa + ba are finite sums of products of reals plus a real; a row's maximum
  (taken from −∞ over the 64 entries of the row, then against −∞ once more) is one of the row's entries up to order, a real;
  the shifted logits are real, their exponentials positive reals, a row's sum of them (from zero) a positive real, and the
  quotient of a real by a positive real is a real.
-/
import proofs.«157597_j56573309223697_1_alg».proof.Proof.RefTerms
import proofs.«157597_j56573309223697_1_alg».proof.Proof.Gen.ReferenceIdeal
import proofs.«157597_j56573309223697_1_alg».proof.Proof.FiniteBase

noncomputable section

namespace Cert.Proof.Finite

open Idealize.ShloMosaic Cert.ReferenceIdeal
open Cert.ReferenceIdeal.Facts₀ Cert.ReferenceIdeal.Facts

/-- The f32 pattern of negative infinity is the bottom of the extended reals. -/
theorem ofBits_neg_inf_f32 : Ideal.ofBits .f32 0xFF800000#32 = ⊥ := by simp [Ideal.ofBits, Ideal.ieee]

/-- The logits are real. -/
theorem logits_real (x : FVec Ideal S8192x256 .f32) (Wa : FVec Ideal S256x64 .f32) (ba : FVec Ideal S64 .f32)
    (hx : IsReal x) (hWa : IsReal Wa) (hba : IsReal ba) : IsReal (Terms.logits (F := Ideal) x Wa ba) := by
  unfold Terms.logits
  exact (IsReal.dotGeneral _ hx hWa).addf ((hba.broadcastInDim _ _).broadcastInDim _ _)

/-- The exponentials of the shifted logits are positive reals. -/
theorem expShift_pos (z : FVec Ideal S8192x64 .f32) (hz : IsReal z) : IsPos (Terms.expShift (F := Ideal) z) := by
  unfold Terms.expShift
  have hred : S8192x64.Reduces [1] S8192 := by decide
  have hmax := hz.reduce_max_single (constant (F := Ideal) S_ .f32 0xFF800000#32) reducesTo_S8192x64_S8192_d1 hred h_S_
    (by show Ideal.ofBits .f32 0xFF800000#32 = ⊥; exact ofBits_neg_inf_f32) (by decide)
  have hmax' := IsReal.maximumf_left (a := broadcastInDim S8192 ![] bcast_S_S8192 (constant (F := Ideal) S_ .f32 0xFF800000#32)) hmax
    (fun i => by show Ideal.ofBits .f32 0xFF800000#32 = ⊥; exact ofBits_neg_inf_f32)
  exact (hz.subf ((hmax'.broadcastInDim _ _).broadcastInDim _ _)).exp

/-- A row-wise softmax of a real matrix is real. -/
theorem softmaxRows_real (z : FVec Ideal S8192x64 .f32) (hz : IsReal z) : IsReal (Terms.softmaxRows (F := Ideal) z) := by
  unfold Terms.softmaxRows
  have hred : S8192x64.Reduces [1] S8192 := by decide
  have he := expShift_pos z hz
  have hsum := he.reduceAdd_single (constant (F := Ideal) S_ .f32 0x00000000#32) reducesTo_S8192x64_S8192_d1 hred h_S_
    (by show Ideal.ofBits .f32 0x00000000#32 = 0; exact Ideal.ofBits_zero_f32) (by decide)
  exact he.isReal.divf ((hsum.broadcastInDim _ _).broadcastInDim _ _)

/-- Every entry of the assignment matrix is a real number when the inputs are. -/
theorem assign_real (x : FVec Ideal S8192x256 .f32) (Wa : FVec Ideal S256x64 .f32) (ba : FVec Ideal S64 .f32)
    (hx : IsReal x) (hWa : IsReal Wa) (hba : IsReal ba) : IsReal (Terms.assign (F := Ideal) x Wa ba) := by
  unfold Terms.assign
  exact softmaxRows_real _ (logits_real x Wa ba hx hWa hba)

end Cert.Proof.Finite

end
-- ==== Proof.FinitePre.lean ====
/-
  From the precondition to real inputs: the precondition is the conjunction, over the float inputs, of "every entry's
  absolute value is below +∞"; an extended real whose absolute value max(x, −x) is below +∞ is neither infinity, so it is
  a real number.
-/
import proofs.«157597_j56573309223697_1_alg».proof.Pre_finite_inputs
import proofs.«157597_j56573309223697_1_alg».proof.Proof.RefTerms
import proofs.«157597_j56573309223697_1_alg».proof.Proof.FiniteBase
import Idealize.ShloMosaic.Lib.ReduceAll
import Idealize.ShloMosaic.Lib.ValueIdx

noncomputable section

namespace Cert.Proof.Finite

open Idealize.ShloMosaic Cert.ReferenceIdeal

/-- The scalar shape has one index. -/
instance : Subsingleton (⟨0, ![]⟩ : Shape).Idx := ⟨fun a b => funext fun d => d.elim0⟩

/-- The f32 pattern of positive infinity is the top of the extended reals. -/
theorem ofBits_pos_inf_f32 : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_pos_inf_f32] at h
  induction x using EReal.rec with
  | bot => exact absurd h (by simp [Ideal.cmp])
  | coe r => exact ⟨r, rfl⟩
  | top => exact absurd h (by simp [Ideal.cmp])

/-- An array all of whose entries have absolute value below +∞ (the conjunction over all entries being true) is real. -/
theorem isReal_of_all {s : Shape} {axes : List (Fin s.rank)} (a : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf a) (broadcastInDim s ![] hb (constant (F := Ideal) (⟨0, ![]⟩ : Shape) .f32 0x7F800000#32)))
      (constantI (⟨0, ![]⟩ : Shape) 1 1#1) hr hu ValueIdx.ix0 = 1#1) : IsReal a := fun i =>
  real_of_abs_lt (a i) (Host.reduce_andi_all _ _ hr hu _ e i)

/-- Under the precondition the node features, the edge weights, the assignment weights and the assignment bias are real. -/
theorem pre_real [Cert.Pre_finite_inputs.Facts] (a0 : FVec Ideal S8192x256 .f32) (a1 : IVec S2x262144 32)
    (a2 : FVec Ideal S262144 .f32) (a3 : FVec Ideal S256x64 .f32) (a4 : FVec Ideal S64 .f32)
    (a5 : FVec Ideal S256x256 .f32) (a6 : FVec Ideal S256 .f32)
    (h : Cert.Pre_finite_inputs.fn (F := Ideal) a0 a1 a2 a3 a4 a5 a6 = (fun _ => 1#1)) :
    IsReal a0 ∧ IsReal a2 ∧ IsReal a3 ∧ IsReal a4 := by
  have h0 := congrFun h ValueIdx.ix0
  dsimp only [Cert.Pre_finite_inputs.fn, Cert.Pre_finite_inputs.fn_part1] at h0
  obtain ⟨h23, _⟩ := IntOp.andi_eq_one.1 h0
  obtain ⟨h18, _⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨isReal_of_all a0 _ _ _ h3, isReal_of_all a2 _ _ _ h7, isReal_of_all a3 _ _ _ h12, isReal_of_all a4 _ _ _ h17⟩

end Cert.Proof.Finite

end
-- ==== Proof.Finite.lean ====
/-
  Finiteness, gathered: under the precondition the float inputs are real; the assignment matrix (a row-wise softmax of
  real logits) and the scattered adjacency (zeros overwritten by real edge weights) are real arrays.
  IsReal, IsPos and the preservation lemmas: FiniteBase; adj_real: FiniteScatter; assign_real: FiniteSoftmax;
  pre_real: FinitePre.
-/
import proofs.«157597_j56573309223697_1_alg».proof.Proof.FiniteBase
import proofs.«157597_j56573309223697_1_alg».proof.Proof.FiniteScatter
import proofs.«157597_j56573309223697_1_alg».proof.Proof.FiniteSoftmax
import proofs.«157597_j56573309223697_1_alg».proof.Proof.FinitePre
-- ==== Proof.KValueRun.lean ====
/-
  The program's results over the extended reals, as the reference's terms of the arguments. The region's result
  array holds the per-tile partial products P_i = Σ_j S_iᵀ·(A_ij·S_j); the host operations after it form
  T = Σ_i P_i and T + Tᵀ, which for real-valued S and A is Sᵀ·(A + Aᵀ)·S; the remaining results are the same host
  operations in both programs.
-/
import proofs.«157597_j56573309223697_1_alg».proof.Proof.KFinal
import proofs.«157597_j56573309223697_1_alg».proof.Proof.KRead
import proofs.«157597_j56573309223697_1_alg».proof.Proof.KValue
import proofs.«157597_j56573309223697_1_alg».proof.Proof.TermsEq
import proofs.«157597_j56573309223697_1_alg».proof.Proof.CoarseLaw
import proofs.«157597_j56573309223697_1_alg».proof.Proof.Finite

noncomputable section

namespace Cert.KernelIdeal.Fr

open Idealize.ShloMosaic Idealize.ShloMosaic.TcCoe
open Idealize.SL Idealize.SL.BI Idealize.SL.Sem
open scoped Idealize.SL.BI
open Idealize.ShloMosaic.Pipeline (Dat)
open Cert.KernelIdeal Cert.KernelIdeal.Gen

/-- THE VALUES at the ideal instance. For real-valued node features, edge weights, assignment weights and assignment
    bias, the program ends with the pooled features, the constant index pairs, the off-diagonal entries of the
    normalized coarsened adjacency and the assignment matrix at the reference's terms of the arguments: the region's
    result is the array of per-tile partial products Σ_j S_iᵀ·(A_ij·S_j), whose sum over i plus its transpose is
    Sᵀ·(A + Aᵀ)·S by distributivity over the reals. -/
theorem value_run (m : (ℓ : Loc nD τ sig) → Buf (Elt Ideal) ℓ) (ρ : Dev nD → PrngReg)
    (hreal : ∀ c : Dev nD, Cert.Proof.Finite.IsReal (m ((c.tc : Thread nD τ).loc main_arg0)) ∧ Cert.Proof.Finite.IsReal (m ((c.tc : Thread nD τ).loc main_arg2)) ∧ Cert.Proof.Finite.IsReal (m ((c.tc : Thread nD τ).loc main_arg3)) ∧ Cert.Proof.Finite.IsReal (m ((c.tc : Thread nD τ).loc main_arg4))) :
    θ_run defs (onTc (τ := τ) (main (F := Ideal))) ⟨m, fun _ => 0, ρ⟩ (fun r => ∀ c : Dev nD,
      r.2.mem ((c.tc : Thread nD τ).loc main_v39) = Cert.ReferenceIdeal.Terms.pooled (F := Ideal) (Cert.ReferenceIdeal.Terms.assign (F := Ideal) (m ((c.tc : Thread nD τ).loc main_arg0)) (m ((c.tc : Thread nD τ).loc main_arg3)) (m ((c.tc : Thread nD τ).loc main_arg4))) (Cert.ReferenceIdeal.Terms.feat (F := Ideal) (m ((c.tc : Thread nD τ).loc main_arg0)) (m ((c.tc : Thread nD τ).loc main_arg5)) (m ((c.tc : Thread nD τ).loc main_arg6)))
      ∧ r.2.mem ((c.tc : Thread nD τ).loc main_v53) = Cert.ReferenceIdeal.Terms.pairRows
      ∧ r.2.mem ((c.tc : Thread nD τ).loc main_v63) = Cert.ReferenceIdeal.Terms.offDiag (F := Ideal) (Cert.ReferenceIdeal.Terms.coarse (F := Ideal) (Cert.ReferenceIdeal.Terms.assign (F := Ideal) (m ((c.tc : Thread nD τ).loc main_arg0)) (m ((c.tc : Thread nD τ).loc main_arg3)) (m ((c.tc : Thread nD τ).loc main_arg4))) (Cert.ReferenceIdeal.Terms.adj (F := Ideal) (m ((c.tc : Thread nD τ).loc main_arg1)) (m ((c.tc : Thread nD τ).loc main_arg2)))) (Cert.ReferenceIdeal.Terms.assign (F := Ideal) (m ((c.tc : Thread nD τ).loc main_arg0)) (m ((c.tc : Thread nD τ).loc main_arg3)) (m ((c.tc : Thread nD τ).loc main_arg4)))
      ∧ r.2.mem ((c.tc : Thread nD τ).loc main_v33) = (Cert.ReferenceIdeal.Terms.assign (F := Ideal) (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨h0, h2, h3, h4⟩ := hreal c
  have hS := Cert.Proof.Finite.assign_real _ _ _ h0 h3 h4
  have hA := Cert.Proof.Finite.adj_real (m ((c.tc : Thread nD τ).loc main_arg1)) _ h2
  refine ⟨?_, ?_, ?_, ?_, (h c main_arg0 rfl).trans (WX_arg0 m c _), (h c main_arg1 rfl).trans (WX_arg1 m c _), (h c main_arg2 rfl).trans (WX_arg2 m c _), (h c main_arg3 rfl).trans (WX_arg3 m c _), (h c main_arg4 rfl).trans (WX_arg4 m c _), (h c main_arg5 rfl).trans (WX_arg5 m c _), (h c main_arg6 rfl).trans (WX_arg6 m c _)⟩
  · rw [h c main_v39 rfl, WX_v39, Cert.Proof.TermsEq.pooled_eq, Cert.Proof.TermsEq.assign_eq, Cert.Proof.TermsEq.feat_eq]
  · rw [h c main_v53 rfl, WX_v53, Cert.Proof.TermsEq.pairRows_eq]
  · rw [h c main_v63 rfl, WX_v63, out_value, V_assign, V_adj, Cert.Proof.TermsEq.offDiag_eq, Cert.Proof.TermsEq.assign_eq,
      Cert.Proof.TermsEq.adj_eq, ← Cert.Proof.CoarseLaw.coarse_eq_symSum _ _ hS hA]
  · rw [h c main_v33 rfl, WX_v33, Cert.Proof.TermsEq.assign_eq]

end Cert.KernelIdeal.Fr

end
-- ==== Proof.BBase.lean ====
/-
  For the word-level program (a float is its bit pattern, every operation the rounded one):
  What the kernel region finds: core c's buffer contents after the host operations that precede the
  region (the assignment matrix, the scattered adjacency, …), and a window's block of its array at a grid point.
-/
import proofs.«157597_j56573309223697_1_alg».proof.Proof.Gen.Kernel.Launch
import proofs.«157597_j56573309223697_1_alg».proof.Proof.Gen.Kernel.Skeleton
import proofs.«157597_j56573309223697_1_alg».proof.Proof.Gen.Kernel.Points
import Idealize.ShloMosaic.Lib.Pipeline.FrameBody
import Idealize.ShloMosaic.Lib.Pipeline.FrameSuffix

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core c's TensorCore buffer contents when the region is entered, as a valuation: the launch memory after the
    host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.BRuns.lean ====
/-
  For the word-level program (a float is its bit pattern, every operation the rounded one):
  What the three control cases of the kernel body share: an input window's staging buffer holds its block
  at every point; the two branch conditions in closed form over the 8×8 grid (the column index is 0; the
  column index is 7); where the output window is idle; the staging and scratch memrefs; the region's
  invariant with the scratch accumulator as an owned memref.
-/
import proofs.«157597_j56573309223697_1_alg».proof.Proof.BBase
import Idealize.ShloMosaic.Lib.Ring
import Idealize.ShloMosaic.Lib.Tactic

-- membership in a rectangle of large extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The input windows' blocks -/

/-- Input window 0 (the assignment rows of tile i, fetched only when the row tile changes) holds its block at
    every point, fetched there or not: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the adjacency tile (i, j)) holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the assignment rows of tile j) holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's test: the column coordinate j equals 0 (as the 32-bit comparison chain computes it). -/
abbrev cond0_0 (i : grid0.Coords) : Prop := (Scalar.cmpi .ne (Scalar.extui (Scalar.cmpi .eq (BitVec.ofNat 32 (i 1).val) 0#32)) 0#32) = 1#1
/-- It holds exactly at the points t with t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the column coordinate j equals 7. -/
abbrev cond0_1 (i : grid0.Coords) : Prop := k0_cond2 i = 1#1
/-- It holds exactly at the points t with t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where j = 0 (and so j ≠ 7) the output window is idle and not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- Where 0 < j < 7 the output window is idle and not written back. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Where j = 7 the output window is live: the body stores into it. -/
theorem liveAt0_3_C : ∀ t : Fin cfg0.N, ¬cond0_0 (grid0.coords t) → cond0_1 (grid0.coords t) → cfg0.idle 3 (grid0.coords t) = false := by decide +kernel

/-! ## The memrefs the body runs on -/

/-- One staging buffer of the output window, through which its contents are stated (the choice does not matter). -/
abbrev VO0_3 : View sig .tc .vmem S1x64x64 .f32 := (Memref.whole cc0_stg3_0 : Memref sig .tc .vmem S1x64x64 .f32).view
/-- Each window's current staging memref at point t, and its wholeness. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
/-- The 64×64 scratch accumulator: a whole scoped buffer of the kernel's own, carried between points. -/
abbrev scM0_0 : Memref sig .tc .vmem S64x64 .f32 := Memref.whole cc0_scratch0
/-- The same as a view: what the accumulator holds is stated through it. -/
abbrev VS0_0 : View sig .tc .vmem S64x64 .f32 := scM0_0.view

/-- The region's invariant with the scratch accumulator as a memref owned at some contents, beside the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BRunA.lean ====
/-
  For the word-level program (a float is its bit pattern, every operation the rounded one):
  The whole body in the case j = 0 (the accumulator is reset to zeros, then the tile product is added; nothing
  is stored into the output block): its Hoare triple on whole staging memrefs, with the pieces the accumulator
  ends with as its witness.
-/
import proofs.«157597_j56573309223697_1_alg».proof.Proof.BRuns

-- membership in a rectangle of large extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case j = 0. On whole memrefs — the three inputs at contents x0, x1, x2, the output block at contents xi3 handed
    back untouched, the accumulator at anything — the body runs to a continuation that holds the inputs and the
    output block as they were and the accumulator with the pieces LS0 written. -/
noncomputable def kernelRun0_A (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) :
    Σ' (L3 : List (View.Piece (Elt F) S1x64x64 .f32)), { LS0 : List (View.Piece (Elt F) S64x64 .f32) //
      ∀ (xi3 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨[], ?_, fun xi3 E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BRunB.lean ====
/-
  For the word-level program (a float is its bit pattern, every operation the rounded one):
  The whole body in the case 0 < j < 7 (the tile product is added to the accumulator; nothing is stored into the
  output block): its Hoare triple on whole staging memrefs, with the pieces the accumulator ends with as
  its witness.
-/
import proofs.«157597_j56573309223697_1_alg».proof.Proof.BRunA

-- membership in a rectangle of large extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case 0 < j < 7. On whole memrefs — the three inputs at contents x0, x1, x2, the output block at contents xi3
    handed back untouched, the accumulator at what the point before left (xs0) — the body runs to a continuation
    that holds the inputs and the output block as they were and the accumulator with the pieces LS0 written. -/
noncomputable def kernelRun0_B (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) :
    Σ' (L3 : List (View.Piece (Elt F) S1x64x64 .f32)), { LS0 : List (View.Piece (Elt F) S64x64 .f32) //
      ∀ (xi3 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨[], ?_, fun xi3 E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.BRunC.lean ====
/-
  For the word-level program (a float is its bit pattern, every operation the rounded one):
  The whole body in the case j = 7 (the tile product is added to the accumulator, and the accumulator is copied,
  reshaped, into the output block): its Hoare triple on whole staging memrefs, with the pieces the accumulator and the
  output block end with as its witness.
-/
import proofs.«157597_j56573309223697_1_alg».proof.Proof.BRunB

-- membership in a rectangle of large extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- Case j = 7. On whole memrefs — the three inputs at contents x0, x1, x2, the output block at anything, the
    accumulator at what the point before left (xs0) — the body runs to a continuation that holds the inputs as
    they were, the output block with the pieces L3 written and the accumulator with the pieces LS0 written. -/
noncomputable def kernelRun0_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    Σ' (L3 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stas_kernel i arg2 harg2 arg3 harg3 arg4 harg4 arg5 harg5 arg6 harg6) K } := by
  refine ⟨?_, ?_, fun E K => ?run⟩
  case run =>
    simp only [cc0__stas_kernel_eq_skeleton]; unfold cc0__stas_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.BBody.lean ====
/-
  For the word-level program (a float is its bit pattern, every operation the rounded one):
  The kernel body's frame data. Per control case (j = 0; 0 < j < 7; j = 7) what the body leaves in the scratch
  accumulator and in the output block, as the pieces its stores wrote, read back; the accumulation point by
  point; the pipeline's proof data; the body obligation at every grid point; and the value equations: after the
  body at a point the accumulator holds the tile product added to what the point before left (to zeros where
  j = 0), and where j = 7 the output block holds the accumulator reshaped.
-/
import proofs.«157597_j56573309223697_1_alg».proof.Proof.BRunC
import Idealize.ShloMosaic.Lib.Pipeline.Value

-- membership in a rectangle of large extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
/-- The case j = 0 stores nothing into the output block: a placeholder nothing consults (the window is idle and not written back there). -/
def out0_A_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) : Vec F S1x64x64 .f32 :=
  VO0_3.read (Elt F) (VO0_3.writes (Elt F) VO0_3.junk (kernelRun0_A c i arg2 harg2 arg3 harg3 arg4 harg4 arg5 harg5 arg6 harg6 hc0 hc1 x0 x1 x2).1)

/-- In the case j = 0 the stores into the accumulator (the zeros, then the sum) cover it. -/
theorem scover0_A_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) (y : S64x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x64.size (by sl_kernel_rfl) y

/-- What the case j = 0 leaves in the accumulator: its pieces read back. -/
def sout0_A_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) : Vec F S64x64 .f32 :=
  VS0_0.read (Elt F) (VS0_0.writes (Elt F) VS0_0.junk (kernelRun0_A c i arg2 harg2 arg3 harg3 arg4 harg4 arg5 harg5 arg6 harg6 hc0 hc1 x0 x1 x2).2.1)

/-- The case 0 < j < 7 stores nothing into the output block: a placeholder nothing consults. -/
def out0_B_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) : Vec F S1x64x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- In the case 0 < j < 7 the store into the accumulator covers it. -/
theorem scover0_B_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) (y : S64x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x64.size (by sl_kernel_rfl) y

/-- What the case 0 < j < 7 leaves in the accumulator: its pieces read back. -/
def sout0_B_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) : Vec F S64x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- In the case j = 7 the one store into the output block covers it. -/
theorem cover0_C_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) (y : S1x64x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x64x64.size (by sl_kernel_rfl) y

/-- What the case j = 7 leaves in the output block's staging buffer: its pieces read back. -/
def out0_C_3 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) : Vec F S1x64x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- In the case j = 7 the store into the accumulator covers it. -/
theorem scover0_C_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) (y : S64x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x64.size (by sl_kernel_rfl) y

/-- What the case j = 7 leaves in the accumulator: its pieces read back. -/
def sout0_C_0 (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) : Vec F S64x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the accumulator hold after each point -/

/-- THE ACCUMULATION. What the output window's staging buffer and the scratch accumulator hold after the body at
    position n: the case the closed forms select there (n ≡ 0, n ≡ 7, or neither, mod 8), run at the point's
    memrefs and input blocks, the accumulator it reads at what position n - 1 left. Both conditions at once is
    no case. -/
def outsAt0 (c : Dev nD) : (n : ℕ) → n < cfg0.N → Vec F S1x64x64 .f32 × Vec F S64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a point with j = 0: that case's contents. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
         sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a point with 0 < j < 7: that case's contents, over what the point before left in the accumulator. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with j = 7: that case's contents, over what the point before left in the accumulator. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the scratch accumulator at anything;
    afterwards the accumulator at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point n (before point n + 1): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core c: the arrays as the region finds them; after the body at point t each input's buffer
    at its block and the output's at the accumulation's first component; the invariant above; nothing owed; the
    array the first and third windows share held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t: the invariant, what the core owes, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the closed forms say which of the three cases
    the point is in; the invariant hands the body the accumulator at what the point before left (at anything at
    the first point) and takes it back at this point's contents, the accumulator's stores covering it; the output
    block is handed back untouched where j ≠ 7 and covered by its one store where j = 7; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- j = 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · -- j = 7
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- 0 < j < 7
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The value equations -/

/-- The offsets of the body's loads and stores are all zero: each reads or writes a whole buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case j = 0: the accumulator ends at the tile product added to zeros — the second store's payload, whose
    accumulator operand is the read-back of the first store (the zeros). -/
theorem sout_A (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : cond0_0 i) (hc1 : ¬cond0_1 i)
    (x0 : Vec F S1024x64 .f32) (x1 : Vec F S1024x1024 .f32) (x2 : Vec F S1024x64 .f32) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x64) hz2, View.readCov_unit_zero (S := S64x64) _ hz2]
  simp only [View.readAt_eq_ld, harg2.read_unread, harg3.read_unread, harg4.read_unread, View.ld_unit_zero (S := S1024x1024) hz2, View.ld_unit_zero (S := S1024x64) hz2, View.ld_unit_zero (S := S64x64) hz2]

/-- Case 0 < j < 7: the accumulator ends at the tile product added to what it held. -/
theorem sout_B (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : ¬cond0_1 i)
    (x0 : Vec F S1024x64 .f32) (x1 : Vec F S1024x1024 .f32) (x2 : Vec F S1024x64 .f32) (xs0 : Vec F S64x64 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S64x64) hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- Case j = 7: the accumulator ends at the tile product added to what it held. -/
theorem sout_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S64x64) hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- Case j = 7: the output block ends at the accumulator's final contents, reshaped to 1×64×64. -/
theorem out_C (c : Dev nD) (i : grid0.Coords) (arg2 : Memref sig .tc .vmem S1024x64 .f32) (harg2 : arg2.IsWhole) (arg3 : Memref sig .tc .vmem S1024x1024 .f32) (harg3 : arg3.IsWhole) (arg4 : Memref sig .tc .vmem S1024x64 .f32) (harg4 : arg4.IsWhole) (arg5 : Memref sig .tc .vmem S1x64x64 .f32) (harg5 : arg5.IsWhole) (arg6 : Memref sig .tc .vmem S64x64 .f32) (harg6 : arg6.IsWhole) (hc0 : ¬cond0_0 i) (hc1 : cond0_1 i)
    (x0 : Vec F S1024x64 .f32) (x1 : Vec F S1024x1024 .f32) (x2 : Vec F S1024x64 .f32) (xs0 : Vec F S64x64 .f32) :
    out0_C_3 c i arg2 harg2 arg3 harg3 arg4 harg4 arg5 harg5 arg6 harg6 hc0 hc1 x0 x1 x2 xs0 = k0_pay3 (k0_pay2 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x64x64) hz3, View.readCov_unit_zero (S := S64x64) _ hz2]
  simp only [View.readAt_eq_ld, harg2.read_unread, harg3.read_unread, harg4.read_unread, harg6.read_unread, View.ld_unit_zero (S := S1024x1024) hz2, View.ld_unit_zero (S := S1024x64) hz2, View.ld_unit_zero (S := S64x64) hz2]

/-- The accumulator after a point with j = 0: the product of the point's three blocks added to zeros. -/
theorem scratch_first (c : Dev nD) (t : Fin cfg0.N) (h0 : t.val % 8 = 0) :
    (outsAt0 m c t.val t.isLt).2 = k0_pay2 (iblk m c 1 t) (iblk m c 2 t) (iblk m c 0 t) (k0_pay1 (F := F)) :=
  have h1 : ¬t.val % 8 = 7 := by omega
  (congrArg Prod.snd (outsAt0_A m c t h0 h1)).trans
    (sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- The accumulator after a point with 0 < j < 7: the product of the point's three blocks added to what the
    point before left. -/
theorem scratch_mid (c : Dev nD) (t : Fin cfg0.N) (h0 : ¬t.val % 8 = 0) (h1 : ¬t.val % 8 = 7) :
    (outsAt0 m c t.val t.isLt).2 = k0_pay2 (iblk m c 1 t) (iblk m c 2 t) (iblk m c 0 t)
      (outsAt0 m c (t.val - 1) (Nat.lt_of_le_of_lt (Nat.sub_le _ _) t.isLt)).2 :=
  (congrArg Prod.snd (outsAt0_B m c t h0 h1)).trans
    (sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

/-- The accumulator after a point with j = 7: the same sum. -/
theorem scratch_last (c : Dev nD) (t : Fin cfg0.N) (h1 : t.val % 8 = 7) :
    (outsAt0 m c t.val t.isLt).2 = k0_pay2 (iblk m c 1 t) (iblk m c 2 t) (iblk m c 0 t)
      (outsAt0 m c (t.val - 1) (Nat.lt_of_le_of_lt (Nat.sub_le _ _) t.isLt)).2 :=
  have h0 : ¬t.val % 8 = 0 := by omega
  (congrArg Prod.snd (outsAt0_C m c t h0 h1)).trans
    (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-- The accumulator after any point with j ≠ 0: the product of the point's blocks added to what the point before left. -/
theorem scratch_step (c : Dev nD) (t : Fin cfg0.N) (h0 : ¬t.val % 8 = 0) :
    (outsAt0 m c t.val t.isLt).2 = k0_pay2 (iblk m c 1 t) (iblk m c 2 t) (iblk m c 0 t)
      (outsAt0 m c (t.val - 1) (Nat.lt_of_le_of_lt (Nat.sub_le _ _) t.isLt)).2 := by
  by_cases h1 : t.val % 8 = 7
  · exact scratch_last m c t h1
  · exact scratch_mid m c t h0 h1

/-- The output block after a point with j = 7: the accumulator's contents after that point, reshaped. -/
theorem out_last (c : Dev nD) (t : Fin cfg0.N) (h1 : t.val % 8 = 7) :
    (outsAt0 m c t.val t.isLt).1 = k0_pay3 (outsAt0 m c t.val t.isLt).2 :=
  have h0 : ¬t.val % 8 = 0 := by omega
  ((congrArg Prod.fst (outsAt0_C m c t h0 h1)).trans
    (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)).trans
    (congrArg k0_pay3 (scratch_last m c t h1).symm)

end Cert.Kernel.Fr

end
-- ==== Proof.BExit.lean ====
/-
  For the word-level program (a float is its bit pattern, every operation the rounded one):
  The contents of core c's buffers at the kernel region's exit and after the host operations that follow it:
  the region's result buffer holds what the write-backs left (X), every other buffer what the region found, and the
  host operations after the region compute from those without writing any of the buffers the region's windows read
  or write.
-/
import proofs.«157597_j56573309223697_1_alg».proof.Proof.BBase

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

theorem hostOps1_fresh : (hostOps1 : List (HloOp τ sig (Elt F))).Forall fun op => op.fresh = ∅ := by
  simp only [List.Forall]; repeat' constructor

theorem hostOps0_fresh : (hostOps0 : List (HloOp τ sig (Elt F))).Forall fun op => op.fresh = ∅ := by
  simp only [List.Forall]; repeat' constructor

/-- The host operations after the region write none of the three buffers behind the windows. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Core c's buffer contents at the region's exit: the region's result buffer at X, every other buffer as the
    region found it. -/
def VX (c : Dev nD) (X : Buf (Elt F) ((c.tc : Thread nD τ).loc main_v40)) : Valuation τ sig (Elt F) :=
  Function.update (V0 m c) (Proc.devRef .tc main_v40) X

/-- Core c's buffer contents after the host operations that follow the region. -/
def WX (c : Dev nD) (X : Buf (Elt F) ((c.tc : Thread nD τ).loc main_v40)) (b : Ref sig .tc) : Buf (Elt F) ((c.tc : Thread nD τ).loc b) :=
  StableHlo.after hostOps1 (VX m c X) (Proc.devRef .tc b)

theorem VX_of_ne (c : Dev nD) (X : Buf (Elt F) ((c.tc : Thread nD τ).loc main_v40)) (b : Ref sig .tc) (hb : b ≠ main_v40) :
    VX m c X (Proc.devRef .tc b) = V m c b := by
  unfold VX
  exact Function.update_of_ne (fun e => hb (Proc.devRef_injective _ e)) _ _

theorem VX_out (c : Dev nD) (X : Buf (Elt F) ((c.tc : Thread nD τ).loc main_v40)) : VX m c X (Proc.devRef .tc main_v40) = X := by
  unfold VX
  exact Function.update_self _ _ _

/-- The host operations after the region leave the windows' buffers as they were at the exit. -/
theorem WX_arr (c : Dev nD) (X : Buf (Elt F) ((c.tc : Thread nD τ).loc main_v40)) (w : Fin cfg0.W) :
    WX m c X (Pipeline.arrRef spec0 w) = VX m c X (Proc.devRef .tc (Pipeline.arrRef spec0 w)) := by
  unfold WX
  exact StableHlo.after_of_forall_not_mem _ _ fun op hop => tail_keeps op hop w

end Cert.Kernel.Fr

end
-- ==== Proof.BLaunch.lean ====
/-
  For the word-level program (a float is its bit pattern, every operation the rounded one):
  The launch of the kernel region when two of its input windows read one array (the assignment matrix, by row
  tile and by column tile): the array's full share is dealt in halves to the two windows at entry and the halves
  are joined again at the region's exit, before the host operations that follow the region read the array.
-/
import proofs.«157597_j56573309223697_1_alg».proof.Proof.BExit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the four windows' arrays are three: the assignment matrix (windows 0 and 2), the adjacency
    (window 1) and the region's result (window 3). -/
theorem img_arr : (Finset.univ.image (Pipeline.arrRef spec0) : Finset (Ref sig .tc)) = ([main_v33, main_v18, main_v40] : List (Ref sig .tc)).toFinset := by
  decide

variable (dats : (p : Fin 1) → (c : Dev nD) → Dat τ (Elt F) Unit ℕ (UR sig nD τ) ℕ (cfgs p) c)

set_option maxHeartbeats 2000000 in
/-- The three buffers, each whole at the full share at contents Wv, are the four windows' arrays at the shares the
    proof data names — the assignment matrix's full share as its two halves. -/
theorem arrays_iff (c : Dev nD) (hq0 : (dats 0 c).q 0 = fullShare.left) (hq1 : (dats 0 c).q 1 = fullShare) (hq2 : (dats 0 c).q 2 = fullShare.right)
    (Wv : (b : Ref sig .tc) → Buf (Elt F) ((c.tc : Thread nD τ).loc b)) :
    (Pipeline.arrBufs spec0 c Wv : sProp 𝕄) ⊣⊢ (dats 0 c).arrays (fun w => Wv (Pipeline.arrRef spec0 w)) := by
  unfold Pipeline.arrBufs Dat.arrays
  rw [bigSep_W0, bigSep_eq_bigSepL_of_eq _ img_arr (by decide)]
  simp only [bigSepL_cons_cons, bigSepL_singleton]
  have s0 : (dats 0 c).share 0 = fullShare.left := (show (dats 0 c).share 0 = (dats 0 c).q 0 from rfl).trans hq0
  have s1 : (dats 0 c).share 1 = fullShare := (show (dats 0 c).share 1 = (dats 0 c).q 1 from rfl).trans hq1
  have s2 : (dats 0 c).share 2 = fullShare.right := (show (dats 0 c).share 2 = (dats 0 c).q 2 from rfl).trans hq2
  have s3 : (dats 0 c).share 3 = fullShare := rfl
  rw [s0, s1, s2, s3, (arr_whole0 0).set_eq_univ, (arr_whole0 1).set_eq_univ, (arr_whole0 3).set_eq_univ]
  have hs : (((c.tc : Thread nD τ).loc main_v33) ↦{fullShare} Wv main_v33 : sProp 𝕄)
      ⊣⊢ iprop((((c.tc : Thread nD τ).loc main_v33) ↦{fullShare.left} Wv main_v33) ∗ (((c.tc : Thread nD τ).loc main_v33) ↦{fullShare.right} Wv main_v33)) :=
    pointsTo_share (PosShare.mem_left_op_right fullShare)
  show (iprop((((c.tc : Thread nD τ).loc main_v33) ↦{fullShare} Wv main_v33) ∗ (((c.tc : Thread nD τ).loc main_v18) ↦{fullShare} Wv main_v18)
      ∗ (((c.tc : Thread nD τ).loc main_v40) ↦{fullShare} Wv main_v40)) : sProp 𝕄)
    ⊣⊢ (iprop((((c.tc : Thread nD τ).loc main_v33) ↦{fullShare.left} Wv main_v33) ∗ (((c.tc : Thread nD τ).loc main_v18) ↦{fullShare} Wv main_v18)
      ∗ (((c.tc : Thread nD τ).loc main_v33) ↦{fullShare.right} Wv main_v33) ∗ (((c.tc : Thread nD τ).loc main_v40) ↦{fullShare} Wv main_v40)) : sProp 𝕄)
  refine ⟨?_, ?_⟩
  · refine (BIClass.sep_mono hs.1 .rfl).trans ?_
    iintro ⟨⟨HL, HR⟩, H18, H40⟩
    isplitl [HL]; · iexact HL
    isplitl [H18]; · iexact H18
    isplitl [HR]; · iexact HR
    iexact H40
  · refine BIBase.Entails.trans ?_ (BIClass.sep_mono hs.2 .rfl)
    iintro ⟨HL, H18, HR, H40⟩
    isplitl [HL HR]
    · isplitl [HL]; · iexact HL
      iexact HR
    isplitl [H18]; · iexact H18
    iexact H40

/-- Every window's array at the region's exit is the exit valuation at the window's buffer: an input's as the
    region found it, the result's as the write-backs left it. -/
theorem arrAt_exit (c : Dev nD) (hA : ∀ w, (dats 0 c).A w = V m c (Pipeline.arrRef spec0 w)) (w : Fin cfg0.W) :
    (dats 0 c).arrAt w cfg0.N = VX m c ((dats 0 c).arrAt 3 cfg0.N) (Proc.devRef .tc (Pipeline.arrRef spec0 w)) := by
  fin_cases w
  · exact (((dats 0 c).arrAt_in 0 rfl _).trans (hA 0)).trans (VX_of_ne m c _ main_v33 (by decide)).symm
  · exact (((dats 0 c).arrAt_in 1 rfl _).trans (hA 1)).trans (VX_of_ne m c _ main_v18 (by decide)).symm
  · exact (((dats 0 c).arrAt_in 2 rfl _).trans (hA 2)).trans (VX_of_ne m c _ main_v33 (by decide)).symm
  · exact (VX_out m c _).symm

/-- The unscoped buffers, at any contents Wv, are the windows' arrays at the proof data's shares and the rest. -/
theorem ubufs_iff (c : Dev nD) (hq0 : (dats 0 c).q 0 = fullShare.left) (hq1 : (dats 0 c).q 1 = fullShare) (hq2 : (dats 0 c).q 2 = fullShare.right)
    (Wv : (b : Ref sig .tc) → Buf (Elt F) ((c.tc : Thread nD τ).loc b)) :
    (unscopedBufs c Wv : sProp 𝕄) ⊣⊢ iprop((dats 0 c).arrays (fun w => Wv (Pipeline.arrRef spec0 w)) ∗ Pipeline.unscopedRest spec0 c Wv) := by
  rw [Pipeline.unscopedBufs_split₀ cfgs 0 winFacts₀0.arr_unscoped c Wv]
  exact ⟨BIClass.sep_mono (arrays_iff dats c hq0 hq1 hq2 Wv).1 .rfl, BIClass.sep_mono (arrays_iff dats c hq0 hq1 hq2 Wv).2 .rfl⟩

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option backward.isDefEq.respectTransparency.types false in
/-- The host operations after the region, run from the region's exit: the two halves of the assignment matrix are
    joined, the operations run over all the unscoped buffers, and the matrix is dealt in halves again. -/
theorem tail_shared (c : Dev nD) (hq0 : (dats 0 c).q 0 = fullShare.left) (hq1 : (dats 0 c).q 1 = fullShare) (hq2 : (dats 0 c).q 2 = fullShare.right)
    (hA : ∀ w, (dats 0 c).A w = V m c (Pipeline.arrRef spec0 w)) (Q' : PUnit → sProp 𝕄) :
    iprop((iprop((dats 0 c).arrays ((dats 0 c).arrAt · cfg0.N)
            ∗ Pipeline.unscopedRestP Pipeline.Prefetch.none spec0 c (WX m c ((dats 0 c).arrAt 3 cfg0.N))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain ([hostOps1].map StableHlo.seq)) Q' := by
  classical
  have hX : ((dats 0 c).arrAt · cfg0.N) = fun w => (fun b => VX m c ((dats 0 c).arrAt 3 cfg0.N) (Proc.devRef .tc b)) (Pipeline.arrRef spec0 w) :=
    funext (arrAt_exit m dats c hA)
  have hW : ((dats 0 c).arrAt · cfg0.N) = fun w => (WX m c ((dats 0 c).arrAt 3 cfg0.N)) (Pipeline.arrRef spec0 w) :=
    funext fun w => (arrAt_exit m dats c hA w).trans (WX_arr m c _ w).symm
  have hrest : (Pipeline.unscopedRest spec0 c (V m c) : sProp 𝕄)
      = Pipeline.unscopedRest spec0 c (fun b => VX m c ((dats 0 c).arrAt 3 cfg0.N) (Proc.devRef .tc b)) := by
    unfold Pipeline.unscopedRest
    exact bigSep_congr fun b hb => congrArg (fun v => (((c.tc : Thread nD τ).loc b) ↦{fullShare} v : sProp 𝕄))
      (VX_of_ne m c _ b fun e => (Finset.mem_sdiff.mp hb).2 (Finset.mem_image.mpr ⟨3, Finset.mem_univ _, e ▸ rfl⟩)).symm
  -- the exit holdings are the unscoped buffers at the exit contents
  have step1 : iprop((dats 0 c).arrays ((dats 0 c).arrAt · cfg0.N) ∗ Pipeline.unscopedRest spec0 c (V m c))
      ⊢ (StableHlo.held (c.tc : Thread nD τ) (Pipeline.ucRefs τ sig) (VX m c ((dats 0 c).arrAt 3 cfg0.N)) : sProp 𝕄) := by
    rw [hX, hrest, ← Pipeline.unscopedBufs_held]
    exact (ubufs_iff dats c hq0 hq1 hq2 (fun b => VX m c ((dats 0 c).arrAt 3 cfg0.N) (Proc.devRef .tc b))).2
  -- and the unscoped buffers after the host operations are the arrays again and the rest at the new contents
  have step3 : (StableHlo.held (c.tc : Thread nD τ) (Pipeline.ucRefs τ sig) (StableHlo.after hostOps1 (VX m c ((dats 0 c).arrAt 3 cfg0.N))) : sProp 𝕄)
      ⊢ iprop((dats 0 c).arrays ((dats 0 c).arrAt · cfg0.N) ∗ Pipeline.unscopedRest spec0 c (WX m c ((dats 0 c).arrAt 3 cfg0.N))) := by
    rw [hW, ← Pipeline.unscopedBufs_held]
    exact (ubufs_iff dats c hq0 hq1 hq2 (WX m c ((dats 0 c).arrAt 3 cfg0.N))).1
  rw [Pipeline.unscopedRestP_none, Pipeline.unscopedRestP_none]
  rw [← List.append_nil ([hostOps1].map StableHlo.seq)]
  refine (BIClass.sep_mono .rfl (BIClass.sep_mono .rfl step1)).trans ?_
  iintro ⟨Hk, Hb⟩
  iapply (Pipeline.wp_seqs_then (fun q => (cfgs q).toPCfg (Val := Elt F)) (defs₀ (F := F)) Variants.none c (Pipeline.ucRefs τ sig) [] [hostOps1] tail_sub tail_fresh
    (VX m c ((dats 0 c).arrAt 3 cfg0.N))) $$ Hb
  iintro Hb
  rw [Pipeline.chain_nil, wp_pure]
  imodintro
  iapply Hk
  icases Hb with ⟨-, H⟩
  rw [show ([hostOps1] : List (List (HloOp τ sig (Elt F)))).flatten = hostOps1 from by simp only [List.flatten_cons, List.flatten_nil, List.append_nil]]
  iapply step3
  iexact H

set_option maxHeartbeats 4000000 in
/-- @main around the region: the host operations before it, the region, the host operations after it. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

set_option maxHeartbeats 4000000 in
set_option backward.isDefEq.respectTransparency.types false in
/-- THE RUN. From any memory with zero counters every weakly fair execution of @main terminates, and in every final
    state each unscoped buffer of each core holds what the host operations after the region leave (WX): the region's
    result as the write-backs left it, the operations before the region computed from the launch memory. -/
theorem run_around
    (hbody : ∀ c, Pipeline.BodyObligationLoose (dats 0 c) (defs₀ (F := F)) Variants.none () Set.univ)
    (hq0 : ∀ c, (dats 0 c).q 0 = fullShare.left) (hq1 : ∀ c, (dats 0 c).q 1 = fullShare) (hq2 : ∀ c, (dats 0 c).q 2 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ b : Ref sig .tc, b.isScoped = false →
        r.2.mem ((c.tc : Thread nD τ).loc b) = WX m c ((dats 0 c).arrAt 3 cfg0.N) b) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => by
      rw [show ((dats 0 c).arrAt · 0) = fun w => V m c (Pipeline.arrRef spec0 w) from funext fun w => hA c w]
      exact (arrays_iff dats c (hq0 c) (hq1 c) (hq2 c) (V m c)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (WX m c ((dats 0 c).arrAt 3 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_shared m dats c (hq0 c) (hq1 c) (hq2 c) (hA c) Q')
    (QY := fun c s => ∀ b ∈ Pipeline.restRefsP sig Pipeline.Prefetch.none spec0, s.mem ((c.tc : Thread nD τ).loc b) = WX m c ((dats 0 c).arrAt 3 cfg0.N) b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (WX m c ((dats 0 c).arrAt 3 cfg0.N)) s')
      isplitl [HU] <;> iassumption)
    (hQ := fun s h c b hb => by
      by_cases hbA : b ∈ Finset.univ.image (Pipeline.arrRef spec0)
      · obtain ⟨w, -, rfl⟩ := Finset.mem_image.mp hbA
        exact ((h c).1 w).trans (((arrAt_exit m dats c (hA c) w)).trans (WX_arr m c _ w).symm)
      · exact (h c).2.2 b (by
          unfold Pipeline.restRefsP
          simp only [Finset.mem_sdiff, Finset.mem_filter, Finset.mem_univ, true_and, Finset.mem_image]
          exact ⟨⟨by simp [hb], fun ⟨w, e⟩ => hbA (Finset.mem_image.mpr ⟨w, Finset.mem_univ _, e⟩)⟩, fun ⟨k, _⟩ => k.elim0⟩))

end Cert.Kernel.Fr

end
-- ==== Proof.BReadArgs.lean ====
/-
  For the word-level program (a float is its bit pattern, every operation the rounded one):
  The seven argument buffers are never written: neither by the host operations before the kernel region, nor by
  the region (whose only result buffer is another one), nor by the host operations after it. Each argument
  buffer therefore holds its launch contents at the region's entry and at the program's end.
-/
import proofs.«157597_j56573309223697_1_alg».proof.Proof.BExit

noncomputable section

namespace Cert.Kernel.Fr

open Idealize.ShloMosaic Idealize.ShloMosaic.TcCoe
open Idealize.SL Idealize.SL.Sem
open Cert.Kernel Cert.Kernel.Gen
open Idealize.ShloMosaic.StableHlo (after_cons after_nil)

variable {F : FTy → Type} [FloatOps F]
variable (m : (ℓ : Loc nD τ sig) → Buf (Elt F) ℓ)

/-- The host operations before the region do not write argument 0. -/
theorem V_arg0 (c : Dev nD) : V m c main_arg0 = m ((c.tc : Thread nD τ).loc main_arg0) := by
  show StableHlo.after (List.flatten [hostOps0]) (fun b => m (c, b)) (Proc.devRef .tc main_arg0) = _
  simp only [List.flatten_cons, List.flatten_nil, List.append_nil]
  after_results_simp
  all_goals rfl

/-- Neither the region nor the host operations after it write argument 0. -/
theorem WX_arg0 (c : Dev nD) (X : Buf (Elt F) ((c.tc : Thread nD τ).loc main_v40)) :
    WX m c X main_arg0 = m ((c.tc : Thread nD τ).loc main_arg0) := by
  have h1 : StableHlo.after hostOps1 (VX m c X) (Proc.devRef .tc main_arg0) = VX m c X (Proc.devRef .tc main_arg0) := by
    after_results_simp
  unfold WX
  rw [h1, VX_of_ne m c X main_arg0 (by decide)]
  exact V_arg0 m c

/-- The host operations before the region do not write argument 1. -/
theorem V_arg1 (c : Dev nD) : V m c main_arg1 = m ((c.tc : Thread nD τ).loc main_arg1) := by
  show StableHlo.after (List.flatten [hostOps0]) (fun b => m (c, b)) (Proc.devRef .tc main_arg1) = _
  simp only [List.flatten_cons, List.flatten_nil, List.append_nil]
  after_results_simp
  all_goals rfl

/-- Neither the region nor the host operations after it write argument 1. -/
theorem WX_arg1 (c : Dev nD) (X : Buf (Elt F) ((c.tc : Thread nD τ).loc main_v40)) :
    WX m c X main_arg1 = m ((c.tc : Thread nD τ).loc main_arg1) := by
  have h1 : StableHlo.after hostOps1 (VX m c X) (Proc.devRef .tc main_arg1) = VX m c X (Proc.devRef .tc main_arg1) := by
    after_results_simp
  unfold WX
  rw [h1, VX_of_ne m c X main_arg1 (by decide)]
  exact V_arg1 m c

/-- The host operations before the region do not write argument 2. -/
theorem V_arg2 (c : Dev nD) : V m c main_arg2 = m ((c.tc : Thread nD τ).loc main_arg2) := by
  show StableHlo.after (List.flatten [hostOps0]) (fun b => m (c, b)) (Proc.devRef .tc main_arg2) = _
  simp only [List.flatten_cons, List.flatten_nil, List.append_nil]
  after_results_simp
  all_goals rfl

/-- Neither the region nor the host operations after it write argument 2. -/
theorem WX_arg2 (c : Dev nD) (X : Buf (Elt F) ((c.tc : Thread nD τ).loc main_v40)) :
    WX m c X main_arg2 = m ((c.tc : Thread nD τ).loc main_arg2) := by
  have h1 : StableHlo.after hostOps1 (VX m c X) (Proc.devRef .tc main_arg2) = VX m c X (Proc.devRef .tc main_arg2) := by
    after_results_simp
  unfold WX
  rw [h1, VX_of_ne m c X main_arg2 (by decide)]
  exact V_arg2 m c

/-- The host operations before the region do not write argument 3. -/
theorem V_arg3 (c : Dev nD) : V m c main_arg3 = m ((c.tc : Thread nD τ).loc main_arg3) := by
  show StableHlo.after (List.flatten [hostOps0]) (fun b => m (c, b)) (Proc.devRef .tc main_arg3) = _
  simp only [List.flatten_cons, List.flatten_nil, List.append_nil]
  after_results_simp
  all_goals rfl

/-- Neither the region nor the host operations after it write argument 3. -/
theorem WX_arg3 (c : Dev nD) (X : Buf (Elt F) ((c.tc : Thread nD τ).loc main_v40)) :
    WX m c X main_arg3 = m ((c.tc : Thread nD τ).loc main_arg3) := by
  have h1 : StableHlo.after hostOps1 (VX m c X) (Proc.devRef .tc main_arg3) = VX m c X (Proc.devRef .tc main_arg3) := by
    after_results_simp
  unfold WX
  rw [h1, VX_of_ne m c X main_arg3 (by decide)]
  exact V_arg3 m c

/-- The host operations before the region do not write argument 4. -/
theorem V_arg4 (c : Dev nD) : V m c main_arg4 = m ((c.tc : Thread nD τ).loc main_arg4) := by
  show StableHlo.after (List.flatten [hostOps0]) (fun b => m (c, b)) (Proc.devRef .tc main_arg4) = _
  simp only [List.flatten_cons, List.flatten_nil, List.append_nil]
  after_results_simp
  all_goals rfl

/-- Neither the region nor the host operations after it write argument 4. -/
theorem WX_arg4 (c : Dev nD) (X : Buf (Elt F) ((c.tc : Thread nD τ).loc main_v40)) :
    WX m c X main_arg4 = m ((c.tc : Thread nD τ).loc main_arg4) := by
  have h1 : StableHlo.after hostOps1 (VX m c X) (Proc.devRef .tc main_arg4) = VX m c X (Proc.devRef .tc main_arg4) := by
    after_results_simp
  unfold WX
  rw [h1, VX_of_ne m c X main_arg4 (by decide)]
  exact V_arg4 m c

/-- The host operations before the region do not write argument 5. -/
theorem V_arg5 (c : Dev nD) : V m c main_arg5 = m ((c.tc : Thread nD τ).loc main_arg5) := by
  show StableHlo.after (List.flatten [hostOps0]) (fun b => m (c, b)) (Proc.devRef .tc main_arg5) = _
  simp only [List.flatten_cons, List.flatten_nil, List.append_nil]
  after_results_simp
  all_goals rfl

/-- Neither the region nor the host operations after it write argument 5. -/
theorem WX_arg5 (c : Dev nD) (X : Buf (Elt F) ((c.tc : Thread nD τ).loc main_v40)) :
    WX m c X main_arg5 = m ((c.tc : Thread nD τ).loc main_arg5) := by
  have h1 : StableHlo.after hostOps1 (VX m c X) (Proc.devRef .tc main_arg5) = VX m c X (Proc.devRef .tc main_arg5) := by
    after_results_simp
  unfold WX
  rw [h1, VX_of_ne m c X main_arg5 (by decide)]
  exact V_arg5 m c

/-- The host operations before the region do not write argument 6. -/
theorem V_arg6 (c : Dev nD) : V m c main_arg6 = m ((c.tc : Thread nD τ).loc main_arg6) := by
  show StableHlo.after (List.flatten [hostOps0]) (fun b => m (c, b)) (Proc.devRef .tc main_arg6) = _
  simp only [List.flatten_cons, List.flatten_nil, List.append_nil]
  after_results_simp
  all_goals rfl

/-- Neither the region nor the host operations after it write argument 6. -/
theorem WX_arg6 (c : Dev nD) (X : Buf (Elt F) ((c.tc : Thread nD τ).loc main_v40)) :
    WX m c X main_arg6 = m ((c.tc : Thread nD τ).loc main_arg6) := by
  have h1 : StableHlo.after hostOps1 (VX m c X) (Proc.devRef .tc main_arg6) = VX m c X (Proc.devRef .tc main_arg6) := by
    after_results_simp
  unfold WX
  rw [h1, VX_of_ne m c X main_arg6 (by decide)]
  exact V_arg6 m c

end Cert.Kernel.Fr

end
-- ==== Proof.BFinal.lean ====
/-
  For the word-level program (a float is its bit pattern, every operation the rounded one):
  The program's run, assembled: the launch of the kernel region around the body obligation gives, at every
  unscoped buffer, the contents the host operations after the region compute from the region-entry contents with
  the region's result array at what the write-backs left; read at the seven arguments, which nothing writes, this
  is the frame.
-/
import proofs.«157597_j56573309223697_1_alg».proof.Proof.BBody
import proofs.«157597_j56573309223697_1_alg».proof.Proof.BLaunch
import proofs.«157597_j56573309223697_1_alg».proof.Proof.BReadArgs

noncomputable section

namespace Cert.Kernel.Fr

open Idealize.ShloMosaic Idealize.ShloMosaic.TcCoe
open Idealize.SL Idealize.SL.BI Idealize.SL.Sem
open scoped Idealize.SL.BI
open Idealize.ShloMosaic.Pipeline (Dat)
open Cert.Kernel Cert.Kernel.Gen

variable {F : FTy → Type} [FloatOps F]
variable (m : (ℓ : Loc nD τ sig) → Buf (Elt F) ℓ)

/-- THE RUN. For any float values and any generator state, from any memory with zero counters: every weakly fair
    execution of the program terminates, and on every core every unscoped buffer ends at what the host operations
    after the region compute from the region-entry contents with the region's result array at what the write-backs
    left in it. -/
theorem run_main (ρ : Dev nD → PrngReg) :
    θ_run defs (onTc (τ := τ) (main (F := F))) ⟨m, fun _ => 0, ρ⟩ (fun r => ∀ c : Dev nD, ∀ b : Ref sig .tc, b.isScoped = false →
      r.2.mem ((c.tc : Thread nD τ).loc b) = WX m c ((dats m 0 c).arrAt 3 cfg0.N) b) :=
  run_around m ρ (dats m) (fun c => (body_obligation m c).loose) (fun _ => rfl) (fun _ => rfl) (fun _ => rfl) (fun _ _ => rfl)
    (A_eq m) (hin m) (hout m)

/-- THE FRAME. Every weakly fair execution terminates with the seven argument arrays unchanged: no host operation
    and no write-back of the region writes an argument. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
   ⟨(h c main_arg0 rfl).trans (WX_arg0 m c _),
    (h c main_arg1 rfl).trans (WX_arg1 m c _),
    (h c main_arg2 rfl).trans (WX_arg2 m c _),
    (h c main_arg3 rfl).trans (WX_arg3 m c _),
    (h c main_arg4 rfl).trans (WX_arg4 m c _),
    (h c main_arg5 rfl).trans (WX_arg5 m c _),
    (h c main_arg6 rfl).trans (WX_arg6 m c _)⟩) (run_main m ρ)

end Cert.Kernel.Fr

end
-- ==== Proof.RefRun.lean ====
/-
  The reference program's run: its @main is a straight line of 83 host operations; every weakly fair
  execution terminates with each of the four results at the composed pure term of the arguments' launch
  contents (the terms of RefTerms.lean) and the seven arguments unchanged.
-/
import proofs.«157597_j56573309223697_1_alg».proof.Proof.Gen.ReferenceIdeal
import proofs.«157597_j56573309223697_1_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 83 operations, in order. -/
abbrev ops : List (HloOp τ sig (Elt F)) :=
  [ nullary main_c (fun i => lit0 (S4032.rowMajor i)),
    nullary main_c_0 (fun i => lit1 (S4032.rowMajor i)),
    nullary main_c_1 (fun i => lit2 (S4032.rowMajor i)),
    nullary main_c_2 (constantI S4032 1 0#1),
    nullary main_c_3 (fun i => lit3 (S4032.rowMajor i)),
    nullary main_c_4 (constantI S4032 1 0#1),
    binary main_arg0 main_arg3 main_v0 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S8192x64 ![0, 1] bcast_S1x64_S8192x64_0_1 : (⟨S1x64, .f32⟩ : BufTy).Contents (Elt F) → (⟨S8192x64, .f32⟩ : BufTy).Contents (Elt F)),
    binary main_v0 main_v2 main_v3 (addf : (⟨S8192x64, .f32⟩ : BufTy).Contents (Elt F) → (⟨S8192x64, .f32⟩ : BufTy).Contents (Elt F) → (⟨S8192x64, .f32⟩ : BufTy).Contents (Elt F)),
    nullary main_cst (constant S_ .f32 0xFF800000#32),
    binary main_v3 main_cst main_v4 ((fun x v => Host.reduce FloatOps.maximumf x v reducesTo_S8192x64_S8192_d1 h_S_) : (⟨S8192x64, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v5 (broadcastInDim S8192 ![] bcast_S_S8192 : (⟨S_, .f32⟩ : BufTy).Contents (Elt F) → (⟨S8192, .f32⟩ : BufTy).Contents (Elt F)),
    binary main_v5 main_v4 main_v6 (maximumf : (⟨S8192, .f32⟩ : BufTy).Contents (Elt F) → (⟨S8192, .f32⟩ : BufTy).Contents (Elt F) → (⟨S8192, .f32⟩ : BufTy).Contents (Elt F)),
    unary main_v6 main_v7 (broadcastInDim S8192x1 ![0] bcast_S8192_S8192x1_0 : (⟨S8192, .f32⟩ : BufTy).Contents (Elt F) → (⟨S8192x1, .f32⟩ : BufTy).Contents (Elt F)),
    unary main_v7 main_v8 (broadcastInDim S8192x64 ![0, 1] bcast_S8192x1_S8192x64_0_1 : (⟨S8192x1, .f32⟩ : BufTy).Contents (Elt F) → (⟨S8192x64, .f32⟩ : BufTy).Contents (Elt F)),
    binary main_v3 main_v8 main_v9 (subf : (⟨S8192x64, .f32⟩ : BufTy).Contents (Elt F) → (⟨S8192x64, .f32⟩ : BufTy).Contents (Elt F) → (⟨S8192x64, .f32⟩ : BufTy).Contents (Elt F)),
    unary main_v9 main_v10 (Host.exp : (⟨S8192x64, .f32⟩ : BufTy).Contents (Elt F) → (⟨S8192x64, .f32⟩ : BufTy).Contents (Elt F)),
    nullary main_cst_6 (constant S_ .f32 0x00000000#32),
    binary main_v10 main_cst_6 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (broadcastInDim S8192x64 ![0, 1] bcast_S8192x1_S8192x64_0_1 : (⟨S8192x1, .f32⟩ : BufTy).Contents (Elt F) → (⟨S8192x64, .f32⟩ : BufTy).Contents (Elt F)),
    binary main_v10 main_v13 main_v14 (Host.divf : (⟨S8192x64, .f32⟩ : BufTy).Contents (Elt F) → (⟨S8192x64, .f32⟩ : BufTy).Contents (Elt F) → (⟨S8192x64, .f32⟩ : BufTy).Contents (Elt F)),
    binary main_arg0 main_arg5 main_v15 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg6 main_v16 (broadcastInDim S1x256 ![1] bcast_S256_S1x256_1 : (⟨S256, .f32⟩ : BufTy).Contents (Elt F) → (⟨S1x256, .f32⟩ : BufTy).Contents (Elt F)),
    unary main_v16 main_v17 (broadcastInDim S8192x256 ![0, 1] bcast_S1x256_S8192x256_0_1 : (⟨S1x256, .f32⟩ : BufTy).Contents (Elt F) → (⟨S8192x256, .f32⟩ : BufTy).Contents (Elt F)),
    binary main_v15 main_v17 main_v18 (addf : (⟨S8192x256, .f32⟩ : BufTy).Contents (Elt F) → (⟨S8192x256, .f32⟩ : BufTy).Contents (Elt F) → (⟨S8192x256, .f32⟩ : BufTy).Contents (Elt F)),
    unary main_arg1 main_v19 ((extractStridedSlice S1x262144 ![0, 0] · slices_S2x262144_S1x262144_0_0) : (⟨S2x262144, .i32⟩ : BufTy).Contents (Elt F) → (⟨S1x262144, .i32⟩ : BufTy).Contents (Elt F)),
    reshape main_v19 main_v20 rfl shapeCasts_S1x262144_S262144,
    unary main_arg1 main_v21 ((extractStridedSlice S1x262144 ![1, 0] · slices_S2x262144_S1x262144_1_0) : (⟨S2x262144, .i32⟩ : BufTy).Contents (Elt F) → (⟨S1x262144, .i32⟩ : BufTy).Contents (Elt F)),
    reshape main_v21 main_v22 rfl shapeCasts_S1x262144_S262144,
    nullary main_cst_7 (constant S_ .f32 0x00000000#32),
    unary main_cst_7 main_v23 (broadcastInDim S8192x8192 ![] bcast_S_S8192x8192 : (⟨S_, .f32⟩ : BufTy).Contents (Elt F) → (⟨S8192x8192, .f32⟩ : BufTy).Contents (Elt F)),
    nullary main_c_8 (constantI S_ 32 0#32),
    unary main_c_8 main_v24 (broadcastInDim S262144 ![] bcast_S_S262144 : (⟨S_, .i32⟩ : BufTy).Contents (Elt F) → (⟨S262144, .i32⟩ : BufTy).Contents (Elt F)),
    binary main_v20 main_v24 main_v25 (cmpi .slt : (⟨S262144, .i32⟩ : BufTy).Contents (Elt F) → (⟨S262144, .i32⟩ : BufTy).Contents (Elt F) → (⟨S262144, .i1⟩ : BufTy).Contents (Elt F)),
    nullary main_c_9 (constantI S_ 32 8192#32),
    unary main_c_9 main_v26 (broadcastInDim S262144 ![] bcast_S_S262144 : (⟨S_, .i32⟩ : BufTy).Contents (Elt F) → (⟨S262144, .i32⟩ : BufTy).Contents (Elt F)),
    binary main_v20 main_v26 main_v27 (addi : (⟨S262144, .i32⟩ : BufTy).Contents (Elt F) → (⟨S262144, .i32⟩ : BufTy).Contents (Elt F) → (⟨S262144, .i32⟩ : BufTy).Contents (Elt F)),
    ternary main_v25 main_v27 main_v20 main_v28 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_10 (constantI S_ 32 0#32),
    unary main_c_10 main_v29 (broadcastInDim S262144 ![] bcast_S_S262144 : (⟨S_, .i32⟩ : BufTy).Contents (Elt F) → (⟨S262144, .i32⟩ : BufTy).Contents (Elt F)),
    binary main_v22 main_v29 main_v30 (cmpi .slt : (⟨S262144, .i32⟩ : BufTy).Contents (Elt F) → (⟨S262144, .i32⟩ : BufTy).Contents (Elt F) → (⟨S262144, .i1⟩ : BufTy).Contents (Elt F)),
    nullary main_c_11 (constantI S_ 32 8192#32),
    unary main_c_11 main_v31 (broadcastInDim S262144 ![] bcast_S_S262144 : (⟨S_, .i32⟩ : BufTy).Contents (Elt F) → (⟨S262144, .i32⟩ : BufTy).Contents (Elt F)),
    binary main_v22 main_v31 main_v32 (addi : (⟨S262144, .i32⟩ : BufTy).Contents (Elt F) → (⟨S262144, .i32⟩ : BufTy).Contents (Elt F) → (⟨S262144, .i32⟩ : BufTy).Contents (Elt F)),
    ternary main_v30 main_v32 main_v22 main_v33 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v28 main_v34 (broadcastInDim S262144x1 ![0] bcast_S262144_S262144x1_0 : (⟨S262144, .i32⟩ : BufTy).Contents (Elt F) → (⟨S262144x1, .i32⟩ : BufTy).Contents (Elt F)),
    unary main_v33 main_v35 (broadcastInDim S262144x1 ![0] bcast_S262144_S262144x1_0 : (⟨S262144, .i32⟩ : BufTy).Contents (Elt F) → (⟨S262144x1, .i32⟩ : BufTy).Contents (Elt F)),
    binary main_v34 main_v35 main_v36 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v23 main_v36 main_arg2 main_v37 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    unary main_v37 main_v38 ((transpose S8192x8192 [1, 0] · transposes_S8192x8192_S8192x8192_1_0) : (⟨S8192x8192, .f32⟩ : BufTy).Contents (Elt F) → (⟨S8192x8192, .f32⟩ : BufTy).Contents (Elt F)),
    binary main_v37 main_v38 main_v39 (addf : (⟨S8192x8192, .f32⟩ : BufTy).Contents (Elt F) → (⟨S8192x8192, .f32⟩ : BufTy).Contents (Elt F) → (⟨S8192x8192, .f32⟩ : BufTy).Contents (Elt F)),
    unary main_v14 main_v40 ((transpose S64x8192 [1, 0] · transposes_S8192x64_S64x8192_1_0) : (⟨S8192x64, .f32⟩ : BufTy).Contents (Elt F) → (⟨S64x8192, .f32⟩ : BufTy).Contents (Elt F)),
    binary main_v40 main_v39 main_v41 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_v41 main_v14 main_v42 ((fun l r => Host.dotGeneral dot_S64x8192_S8192x64_S64x64_1_0_0_1_n_n none l r) : (⟨S64x8192, .f32⟩ : BufTy).Contents (Elt F) → (⟨S8192x64, .f32⟩ : BufTy).Contents (Elt F) → (⟨S64x64, .f32⟩ : BufTy).Contents (Elt F)),
    nullary main_cst_12 (constant S_ .f32 0x00000000#32),
    binary main_v14 main_cst_12 main_v43 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    unary main_v43 main_v44 (broadcastInDim S1x64 ![1] bcast_S64_S1x64_1 : (⟨S64, .f32⟩ : BufTy).Contents (Elt F) → (⟨S1x64, .f32⟩ : BufTy).Contents (Elt F)),
    unary main_v44 main_v45 ((transpose S64x1 [1, 0] · transposes_S1x64_S64x1_1_0) : (⟨S1x64, .f32⟩ : BufTy).Contents (Elt F) → (⟨S64x1, .f32⟩ : BufTy).Contents (Elt F)),
    nullary main_cst_13 (constant S_ .f32 0x322BCC77#32),
    unary main_cst_13 main_v46 (broadcastInDim S64x1 ![] bcast_S_S64x1 : (⟨S_, .f32⟩ : BufTy).Contents (Elt F) → (⟨S64x1, .f32⟩ : BufTy).Contents (Elt F)),
    binary main_v45 main_v46 main_v47 (addf : (⟨S64x1, .f32⟩ : BufTy).Contents (Elt F) → (⟨S64x1, .f32⟩ : BufTy).Contents (Elt F) → (⟨S64x1, .f32⟩ : BufTy).Contents (Elt F)),
    unary main_v47 main_v48 (broadcastInDim S64x64 ![0, 1] bcast_S64x1_S64x64_0_1 : (⟨S64x1, .f32⟩ : BufTy).Contents (Elt F) → (⟨S64x64, .f32⟩ : BufTy).Contents (Elt F)),
    binary main_v42 main_v48 main_v49 (Host.divf : (⟨S64x64, .f32⟩ : BufTy).Contents (Elt F) → (⟨S64x64, .f32⟩ : BufTy).Contents (Elt F) → (⟨S64x64, .f32⟩ : BufTy).Contents (Elt F)),
    unary main_v14 main_v50 ((transpose S64x8192 [1, 0] · transposes_S8192x64_S64x8192_1_0) : (⟨S8192x64, .f32⟩ : BufTy).Contents (Elt F) → (⟨S64x8192, .f32⟩ : BufTy).Contents (Elt F)),
    binary main_v50 main_v18 main_v51 ((fun l r => Host.dotGeneral dot_S64x8192_S8192x256_S64x256_1_0_0_1_n_n none l r) : (⟨S64x8192, .f32⟩ : BufTy).Contents (Elt F) → (⟨S8192x256, .f32⟩ : BufTy).Contents (Elt F) → (⟨S64x256, .f32⟩ : BufTy).Contents (Elt F)),
    unary main_c main_v52 (broadcastInDim S1x4032 ![1] bcast_S4032_S1x4032_1 : (⟨S4032, .i32⟩ : BufTy).Contents (Elt F) → (⟨S1x4032, .i32⟩ : BufTy).Contents (Elt F)),
    unary main_c_0 main_v53 (broadcastInDim S1x4032 ![1] bcast_S4032_S1x4032_1 : (⟨S4032, .i32⟩ : BufTy).Contents (Elt F) → (⟨S1x4032, .i32⟩ : BufTy).Contents (Elt F)),
    binary main_v52 main_v53 main_v54 ((fun a b => concatenate S2x4032 0 [⟨S1x4032, a⟩, ⟨S1x4032, b⟩] concatenates_S1x4032_S1x4032_S2x4032_d0) : (⟨S1x4032, .i32⟩ : BufTy).Contents (Elt F) → (⟨S1x4032, .i32⟩ : BufTy).Contents (Elt F) → (⟨S2x4032, .i32⟩ : BufTy).Contents (Elt F)),
    nullary main_c_14 (constantI S_ 32 64#32),
    unary main_c_14 main_v55 (broadcastInDim S4032 ![] bcast_S_S4032 : (⟨S_, .i32⟩ : BufTy).Contents (Elt F) → (⟨S4032, .i32⟩ : BufTy).Contents (Elt F)),
    binary main_c_1 main_v55 main_v56 (addi : (⟨S4032, .i32⟩ : BufTy).Contents (Elt F) → (⟨S4032, .i32⟩ : BufTy).Contents (Elt F) → (⟨S4032, .i32⟩ : BufTy).Contents (Elt F)),
    ternary main_c_2 main_v56 main_c_1 main_v57 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    nullary main_c_15 (constantI S_ 32 64#32),
    unary main_c_15 main_v58 (broadcastInDim S4032 ![] bcast_S_S4032 : (⟨S_, .i32⟩ : BufTy).Contents (Elt F) → (⟨S4032, .i32⟩ : BufTy).Contents (Elt F)),
    binary main_c_3 main_v58 main_v59 (addi : (⟨S4032, .i32⟩ : BufTy).Contents (Elt F) → (⟨S4032, .i32⟩ : BufTy).Contents (Elt F) → (⟨S4032, .i32⟩ : BufTy).Contents (Elt F)),
    ternary main_c_4 main_v59 main_c_3 main_v60 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v57 main_v61 (broadcastInDim S4032x1 ![0] bcast_S4032_S4032x1_0 : (⟨S4032, .i32⟩ : BufTy).Contents (Elt F) → (⟨S4032x1, .i32⟩ : BufTy).Contents (Elt F)),
    unary main_v60 main_v62 (broadcastInDim S4032x1 ![0] bcast_S4032_S4032x1_0 : (⟨S4032, .i32⟩ : BufTy).Contents (Elt F) → (⟨S4032x1, .i32⟩ : BufTy).Contents (Elt F)),
    binary main_v61 main_v62 main_v63 ((fun a b => concatenate S4032x2 1 [⟨S4032x1, a⟩, ⟨S4032x1, b⟩] concatenates_S4032x1_S4032x1_S4032x2_d1) : (⟨S4032x1, .i32⟩ : BufTy).Contents (Elt F) → (⟨S4032x1, .i32⟩ : BufTy).Contents (Elt F) → (⟨S4032x2, .i32⟩ : BufTy).Contents (Elt F)),
    binary main_v49 main_v63 main_v64 ((fun x i => Host.gather gather_S64x64_S4032x2_S4032_n_01_n_n_01_1_11 x i) : (⟨S64x64, .f32⟩ : BufTy).Contents (Elt F) → (⟨S4032x2, .i32⟩ : BufTy).Contents (Elt F) → (⟨S4032, .f32⟩ : BufTy).Contents (Elt F)) ]

set_option maxRecDepth 65536 in
set_option maxHeartbeats 4000000 in
/-- @main is the straight line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-! ## The four results after the line, from any contents -/

/-- The assignment matrix: the row-wise softmax of the logits. -/
theorem res_v14 (V : Valuation τ sig (Elt F)) :
    after ops V (Proc.devRef .tc main_v14) = Terms.assign (V (Proc.devRef .tc main_arg0)) (V (Proc.devRef .tc main_arg3)) (V (Proc.devRef .tc main_arg4)) := by
  after_results_simp
  rfl

/-- The pooled features: the transposed assignment matrix times the features. -/
theorem res_v51 (V : Valuation τ sig (Elt F)) :
    after ops V (Proc.devRef .tc main_v51) = Terms.pooled (Terms.assign (V (Proc.devRef .tc main_arg0)) (V (Proc.devRef .tc main_arg3)) (V (Proc.devRef .tc main_arg4))) (Terms.feat (V (Proc.devRef .tc main_arg0)) (V (Proc.devRef .tc main_arg5)) (V (Proc.devRef .tc main_arg6))) := by
  after_results_simp
  rfl

/-- The constant off-diagonal index pairs. -/
theorem res_v54 (V : Valuation τ sig (Elt F)) :
    after ops V (Proc.devRef .tc main_v54) = Terms.pairRows := by
  after_results_simp
  rfl

set_option maxHeartbeats 8000000 in
/-- The off-diagonal entries of the normalised coarsened adjacency. -/
theorem res_v64 (V : Valuation τ sig (Elt F)) :
    after ops V (Proc.devRef .tc main_v64)
      = Terms.offDiag (Terms.coarse (Terms.assign (V (Proc.devRef .tc main_arg0)) (V (Proc.devRef .tc main_arg3)) (V (Proc.devRef .tc main_arg4))) (Terms.adj (V (Proc.devRef .tc main_arg1)) (V (Proc.devRef .tc main_arg2)))) (Terms.assign (V (Proc.devRef .tc main_arg0)) (V (Proc.devRef .tc main_arg3)) (V (Proc.devRef .tc main_arg4))) := by
  after_results_simp
  rfl

set_option maxHeartbeats 8000000 in
/-- No operation writes an argument. -/
theorem res_arg (V : Valuation τ sig (Elt F)) :
    after ops V (Proc.devRef .tc main_arg0) = (V (Proc.devRef .tc main_arg0))
    ∧ after ops V (Proc.devRef .tc main_arg1) = (V (Proc.devRef .tc main_arg1))
    ∧ after ops V (Proc.devRef .tc main_arg2) = (V (Proc.devRef .tc main_arg2))
    ∧ after ops V (Proc.devRef .tc main_arg3) = (V (Proc.devRef .tc main_arg3))
    ∧ after ops V (Proc.devRef .tc main_arg4) = (V (Proc.devRef .tc main_arg4))
    ∧ after ops V (Proc.devRef .tc main_arg5) = (V (Proc.devRef .tc main_arg5))
    ∧ after ops V (Proc.devRef .tc main_arg6) = (V (Proc.devRef .tc main_arg6)) := by
  refine ⟨?_, ?_, ?_, ?_, ?_, ?_, ?_⟩ <;> after_results_simp

/-! ## The run -/

/-- On every device, for any float values, from any memory with zero counters: every weakly fair execution of
    @main terminates with the pooled features, the index pairs, the off-diagonal entries and the assignment
    matrix at their terms of the arguments' launch contents, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Terms.pooled (Terms.assign (m ((c.tc : Thread nD τ).loc main_arg0)) (m ((c.tc : Thread nD τ).loc main_arg3)) (m ((c.tc : Thread nD τ).loc main_arg4))) (Terms.feat (m ((c.tc : Thread nD τ).loc main_arg0)) (m ((c.tc : Thread nD τ).loc main_arg5)) (m ((c.tc : Thread nD τ).loc main_arg6)))
      ∧ r.2.mem ((c.tc : Thread nD τ).loc main_v54) = Terms.pairRows
      ∧ r.2.mem ((c.tc : Thread nD τ).loc main_v64) = Terms.offDiag (Terms.coarse (Terms.assign (m ((c.tc : Thread nD τ).loc main_arg0)) (m ((c.tc : Thread nD τ).loc main_arg3)) (m ((c.tc : Thread nD τ).loc main_arg4))) (Terms.adj (m ((c.tc : Thread nD τ).loc main_arg1)) (m ((c.tc : Thread nD τ).loc main_arg2)))) (Terms.assign (m ((c.tc : Thread nD τ).loc main_arg0)) (m ((c.tc : Thread nD τ).loc main_arg3)) (m ((c.tc : Thread nD τ).loc main_arg4)))
      ∧ r.2.mem ((c.tc : Thread nD τ).loc main_v14) = Terms.assign (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v51).trans (res_v51 _), (h c main_v54).trans (res_v54 _), (h c main_v64).trans (res_v64 _),
       (h c main_v14).trans (res_v14 _),
       (h c main_arg0).trans (res_arg _).1, (h c main_arg1).trans (res_arg _).2.1, (h c main_arg2).trans (res_arg _).2.2.1,
       (h c main_arg3).trans (res_arg _).2.2.2.1, (h c main_arg4).trans (res_arg _).2.2.2.2.1,
       (h c main_arg5).trans (res_arg _).2.2.2.2.2.1, (h c main_arg6).trans (res_arg _).2.2.2.2.2.2⟩)
    (run_seq scopedRefs_eq scopedSems_eq defs main (fun _ => ops) main_eq (fun _ => ops_sub) m ρ)

/-- The frame: every weakly fair execution of @main terminates with the seven arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2.2.2.2) (run m ρ)

end Cert.ReferenceIdeal.RefRun

end
-- ==== Proof.lean ====
/-
  The certificate's claim. Both programs compute S = softmax(x·Wa + ba) row by row, X = x·Wf + bf, the pooled
  features Sᵀ·X, the adjacency A as zeros overwritten at (row, col) by the edge weights, the cluster sizes
  Σ_n S(n, k) + ε, and return the pooled features, the constant off-diagonal index pairs, the off-diagonal entries
  of M divided by the sizes, and S. The reference takes M = Sᵀ·(A + Aᵀ)·S; the kernel forms, per 1024-row tile i of
  A, the 64×64 partial product P_i = Σ_j S_iᵀ·(A_ij·S_j) over an 8×8 grid, then T = Σ_i P_i and M = T + Tᵀ.

  Frames: each program runs (terminates without fault) and leaves its seven arguments unchanged — nothing writes
  an argument. Equality of results over the extended reals: the precondition makes every float input real, hence S
  (a softmax of real logits) and A (zeros and real weights) are real arrays, and over the reals matrix products
  distribute over sums, so Σ_i Σ_j S_iᵀ·(A_ij·S_j) + its transpose is Sᵀ·(A + Aᵀ)·S; the other results are the same
  host operations of the same arguments in both programs.
-/
import proofs.«157597_j56573309223697_1_alg».proof.Defs
import proofs.«157597_j56573309223697_1_alg».proof.Proof.Gen.Kernel
import proofs.«157597_j56573309223697_1_alg».proof.Proof.Gen.KernelIdeal
import proofs.«157597_j56573309223697_1_alg».proof.Proof.Gen.ReferenceIdeal
import proofs.«157597_j56573309223697_1_alg».proof.Proof.Gen.Pre_finite_inputs
import proofs.«157597_j56573309223697_1_alg».proof.Proof.KFinal
import proofs.«157597_j56573309223697_1_alg».proof.Proof.KValueRun
import proofs.«157597_j56573309223697_1_alg».proof.Proof.BFinal
import proofs.«157597_j56573309223697_1_alg».proof.Proof.RefRun
import proofs.«157597_j56573309223697_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its seven arguments unchanged. -/
theorem frame_Kernel : Cert.frame_Kernel := fun m ρ _ => Cert.Kernel.Fr.frame (F := Bits) m ρ

/-- The same program read over the extended reals runs and leaves its seven arguments unchanged. -/
theorem frame_KernelIdeal : Cert.frame_KernelIdeal := fun m ρ _ => Cert.KernelIdeal.Fr.frame (F := Ideal) m ρ

/-- The reference runs and leaves its seven arguments unchanged. -/
theorem frame_ReferenceIdeal : Cert.frame_ReferenceIdeal := fun m ρ _ => Cert.ReferenceIdeal.RefRun.frame (F := Ideal) m ρ

/-- Over the extended reals, from memories that agree on the seven arguments and finite float inputs, the two
    programs end with equal results: the pooled features Sᵀ·X, the constant off-diagonal index pairs, the
    off-diagonal entries of Sᵀ·(A + Aᵀ)·S divided by the cluster sizes, and the assignment matrix S — each the
    reference's term of the arguments. The kernel's side reaches the coarsened adjacency as T + Tᵀ with
    T = Σ_i Σ_j S_iᵀ·(A_ij·S_j), equal to the reference's product by distributivity, every entry of S and A
    being real under the precondition. -/
theorem algebraic : Cert.algebraic_KernelIdeal_ReferenceIdeal := by
  intro m ρ m' ρ' hpre hagree
  refine ⟨fun c => Cert.ReferenceIdeal.Terms.pooled (F := Ideal) (Cert.ReferenceIdeal.Terms.assign (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.ReferenceIdeal.Terms.feat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.ReferenceIdeal.Terms.pairRows,
    fun c => Cert.ReferenceIdeal.Terms.offDiag (F := Ideal) (Cert.ReferenceIdeal.Terms.coarse (F := Ideal) (Cert.ReferenceIdeal.Terms.assign (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.ReferenceIdeal.Terms.adj (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (Cert.ReferenceIdeal.Terms.assign (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => Cert.ReferenceIdeal.Terms.assign (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Fr.value_run m ρ (fun c => Cert.Proof.Finite.pre_real _ _ _ _ _ _ _ (hpre c)), ?_⟩
  refine (θ_run Cert.ReferenceIdeal.defs _ _).mono (fun _ h c => ?_) (Cert.ReferenceIdeal.RefRun.run (F := Ideal) m' ρ')
  obtain ⟨e0, e1, e2, e3, e4, e5, e6⟩ := hagree c
  refine ⟨(h c).1.trans ?_, (h c).2.1, (h c).2.2.1.trans ?_, (h c).2.2.2.1.trans ?_, (h c).2.2.2.2⟩
  · rw [e0, e3, e4, e5, e6]
  · rw [e0, e1, e2, e3, e4]
  · rw [e0, e3, e4]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
